-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x2048 .f32) (main_arg6 : FVec F S2048x2048 .f32) (main_arg7 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S2048x2048 .f32) (main_arg2 : FVec F S2048x2048 .f32) (main_arg3 : FVec F S2048x2048 .f32) (main_arg4 : FVec F S2048x2048 .f32) (main_arg5 : FVec F S2048x2048 .f32) (main_arg6 : FVec F S2048x2048 .f32) (main_arg7 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S16384x2048 : Shape := ⟨2, ![16384, 2048]⟩
abbrev S2048x2048 : Shape := ⟨2, ![2048, 2048]⟩
abbrev S256x2048 : Shape := ⟨2, ![256, 2048]⟩
abbrev S512x2048 : Shape := ⟨2, ![512, 2048]⟩
abbrev S8x2048x2048 : Shape := ⟨3, ![8, 2048, 2048]⟩
abbrev S1x256x2048 : Shape := ⟨3, ![1, 256, 2048]⟩
abbrev S256x1 : Shape := ⟨2, ![256, 1]⟩
abbrev S2048x256 : Shape := ⟨2, ![2048, 256]⟩
abbrev S256x256 : Shape := ⟨2, ![256, 256]⟩
abbrev S256 : Shape := ⟨1, ![256]⟩
abbrev S1x512x2048 : Shape := ⟨3, ![1, 512, 2048]⟩
abbrev S1x2048x2048 : Shape := ⟨3, ![1, 2048, 2048]⟩

abbrev nBuf : Space → Nat
  | .hbm => 27
  | .vmem => 45
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S16384x2048, .bf16⟩
  | .hbm, ⟨16, _⟩ => ⟨S16384x2048, .bf16⟩
  | .hbm, ⟨17, _⟩ => ⟨S16384x2048, .bf16⟩
  | .hbm, ⟨18, _⟩ => ⟨S16384x2048, .bf16⟩
  | .hbm, ⟨19, _⟩ => ⟨S16384x2048, .bf16⟩
  | .hbm, ⟨20, _⟩ => ⟨S8x2048x2048, .bf16⟩
  | .hbm, ⟨21, _⟩ => ⟨S8x2048x2048, .bf16⟩
  | .hbm, ⟨22, _⟩ => ⟨S8x2048x2048, .bf16⟩
  | .hbm, ⟨23, _⟩ => ⟨S8x2048x2048, .bf16⟩
  | .hbm, ⟨24, _⟩ => ⟨S8x2048x2048, .bf16⟩
  | .hbm, ⟨25, _⟩ => ⟨S8x2048x2048, .bf16⟩
  | .hbm, ⟨26, _⟩ => ⟨S8x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S2048x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S512x2048, .f32⟩
  | .local _ .vmem, ⟨17, _⟩ => ⟨S512x2048, .f32⟩
  | .local _ .vmem, ⟨18, _⟩ => ⟨S2048x2048, .bf16⟩
  | .local _ .vmem, ⟨19, _⟩ => ⟨S512x2048, .bf16⟩
  | .local _ .vmem, ⟨20, _⟩ => ⟨S512x2048, .bf16⟩
  | .local _ .vmem, ⟨21, _⟩ => ⟨S1x256x2048, .bf16⟩
  | .local _ .vmem, ⟨22, _⟩ => ⟨S1x256x2048, .bf16⟩
  | .local _ .vmem, ⟨23, _⟩ => ⟨S1x256x2048, .bf16⟩
  | .local _ .vmem, ⟨24, _⟩ => ⟨S1x256x2048, .bf16⟩
  | .local _ .vmem, ⟨25, _⟩ => ⟨S1x256x2048, .bf16⟩
  | .local _ .vmem, ⟨26, _⟩ => ⟨S1x256x2048, .bf16⟩
  | .local _ .vmem, ⟨27, _⟩ => ⟨S1x256x2048, .bf16⟩
  | .local _ .vmem, ⟨28, _⟩ => ⟨S1x256x2048, .bf16⟩
  | .local _ .vmem, ⟨29, _⟩ => ⟨S2048x2048, .bf16⟩
  | .local _ .vmem, ⟨30, _⟩ => ⟨S2048x2048, .bf16⟩
  | .local _ .vmem, ⟨31, _⟩ => ⟨S1x256x2048, .bf16⟩
  | .local _ .vmem, ⟨32, _⟩ => ⟨S1x256x2048, .bf16⟩
  | .local _ .vmem, ⟨33, _⟩ => ⟨S256x1, .f32⟩
  | .local _ .vmem, ⟨34, _⟩ => ⟨S256x1, .f32⟩
  | .local _ .vmem, ⟨35, _⟩ => ⟨S256x2048, .f32⟩
  | .local _ .vmem, ⟨36, _⟩ => ⟨S256x1, .f32⟩
  | .local _ .vmem, ⟨37, _⟩ => ⟨S256x1, .f32⟩
  | .local _ .vmem, ⟨38, _⟩ => ⟨S256x2048, .f32⟩
  | .local _ .vmem, ⟨39, _⟩ => ⟨S1x512x2048, .bf16⟩
  | .local _ .vmem, ⟨40, _⟩ => ⟨S1x512x2048, .bf16⟩
  | .local _ .vmem, ⟨41, _⟩ => ⟨S1x2048x2048, .bf16⟩
  | .local _ .vmem, ⟨42, _⟩ => ⟨S1x2048x2048, .bf16⟩
  | .local _ .vmem, ⟨43, _⟩ => ⟨S1x512x2048, .f32⟩
  | .local _ .vmem, ⟨44, _⟩ => ⟨S1x512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg6_1 : Ref sig .tc := ⟨.vmem, 32, rfl⟩
abbrev cc3_scratch0 : Ref sig .tc := ⟨.vmem, 33, rfl⟩
abbrev cc3_scratch1 : Ref sig .tc := ⟨.vmem, 34, rfl⟩
abbrev cc3_scratch2 : Ref sig .tc := ⟨.vmem, 35, rfl⟩
abbrev cc3_scratch3 : Ref sig .tc := ⟨.vmem, 36, rfl⟩
abbrev cc3_scratch4 : Ref sig .tc := ⟨.vmem, 37, rfl⟩
abbrev cc3_scratch5 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem6_0 : DmaSem sig := 31
abbrev cc3_sem6_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 8, 8], ![false, false, false]⟩

def k3_mult1 (i : grid3.Coords) : BitVec 32 :=
  let arg2 : BitVec 32 := BitVec.ofNat 32 (i 2).val
  let c256_i32 : BitVec 32 := 256#32
  let v11 : BitVec 32 := Scalar.muli arg2 c256_i32
  v11
def k3_off1 (i : grid3.Coords) : Fin 2 → Nat :=
  let c0_12 : Index := 0#32
  let arg2 : BitVec 32 := BitVec.ofNat 32 (i 2).val
  let c256_i32 : BitVec 32 := 256#32
  let v11 : BitVec 32 := Scalar.muli arg2 c256_i32
  let v12 : BitVec 32 := v11
  let v13 : Index := Scalar.indexCast v12
  ![0, v13.toNat]
def k3_cond2 (i : grid3.Coords) : BitVec 1 :=
  let arg2 : BitVec 32 := BitVec.ofNat 32 (i 2).val
  let c7_i32 : BitVec 32 := 7#32
  let v85 : BitVec 1 := Scalar.cmpi .eq arg2 c7_i32
  let v86 : BitVec 32 := Scalar.extui v85
  let c0_i32_51 : BitVec 32 := 0#32
  let v87 : BitVec 1 := Scalar.cmpi .ne v86 c0_i32_51
  v87

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, true]

abbrev stage3_4 : Fin 1 → Memref sig .tc .vmem S2048x2048 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 1 → Memref sig .tc .vmem S2048x2048 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false, false]

abbrev stage3_6 : Fin 2 → Memref sig .tc .vmem S1x256x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev grid4 : Pipeline.Grid := ⟨2, ![8, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2048x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S16384x2048_S8x2048x2048 : S16384x2048.ShapeCasts S8x2048x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  h_S2048x256 : 0 < S2048x256.numel
  shapeCasts_S2048x256_S2048x256 : S2048x256.ShapeCasts S2048x256
  reduces_S256x256_S256 : S256x256.Reduces [1] S256
  shapeCasts_S256_S256x1 : S256.ShapeCasts S256x1
  broadcasts_S256x1_S256x256 : S256x1.Broadcasts S256x256
  broadcasts_S256x1_S256x2048 : S256x1.Broadcasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S512x2048_S1x512x2048 : S512x2048.ShapeCasts S1x512x2048
  dot_S256x2048_S2048x2048_S256x2048_1_1_0_0_n_n_wf : DotDims.WF S256x2048 S2048x2048 S256x2048 [1] [1] [0] [0] [] []
  dot_S512x2048_S2048x2048_S512x2048_1_1_0_0_n_n_wf : DotDims.WF S512x2048 S2048x2048 S512x2048 [1] [1] [0] [0] [] []
  dot_S256x2048_S256x2048_S256x256_1_1_0_0_n_n_wf : DotDims.WF S256x2048 S256x2048 S256x256 [1] [1] [0] [0] [] []
  dot_S256x256_S2048x256_S256x2048_1_1_0_0_n_n_wf : DotDims.WF S256x256 S2048x256 S256x2048 [1] [1] [0] [0] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .bf16 = 32 ∨ (Rect.block (s := S16384x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .bf16 = 32 ∨ (Rect.block (s := S16384x2048) S256x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S16384x2048.size a
  hwx1_3 : ∀ i : grid1.Coords, EltTy.bits .bf16 = 32 ∨ (Rect.block (s := S16384x2048) S256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S16384x2048.size a
  hwx1_4 : ∀ i : grid1.Coords, EltTy.bits .bf16 = 32 ∨ (Rect.block (s := S16384x2048) S256x2048.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S16384x2048.size a
  hwx2_0 : ∀ i : grid2.Coords, EltTy.bits .f32 = 32 ∨ (Rect.block (s := S16384x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S16384x2048.size a
  hwx2_2 : ∀ i : grid2.Coords, EltTy.bits .bf16 = 32 ∨ (Rect.block (s := S16384x2048) S512x2048.size (cc2_transform_2 i) (hinb2_2 i)).WholeWords (EltTy.packing .bf16)
  hrank3 : 0 < grid3.rank
  k3_mult1_dvd : ∀ i : grid3.Coords, 128 ∣ (k3_mult1 i).toNat
  k3_off1_inb : ∀ i : grid3.Coords, ∀ a, (k3_off1 i) a + S2048x256.size a ≤ S2048x2048.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x2048.size a ≤ S8x2048x2048.size a
  hwx3_0 : ∀ i : grid3.Coords, EltTy.bits .bf16 = 32 ∨ (Rect.block (s := S8x2048x2048) S1x256x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x2048.size a ≤ S8x2048x2048.size a
  hwx3_1 : ∀ i : grid3.Coords, EltTy.bits .bf16 = 32 ∨ (Rect.block (s := S8x2048x2048) S1x256x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x2048.size a ≤ S8x2048x2048.size a
  hwx3_2 : ∀ i : grid3.Coords, EltTy.bits .bf16 = 32 ∨ (Rect.block (s := S8x2048x2048) S1x256x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x2048.size a ≤ S8x2048x2048.size a
  hwx3_3 : ∀ i : grid3.Coords, EltTy.bits .bf16 = 32 ∨ (Rect.block (s := S8x2048x2048) S1x256x2048.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S2048x2048.size a
  hwx3_4 : ∀ i : grid3.Coords, EltTy.bits .bf16 = 32 ∨ (Rect.block (s := S2048x2048) S2048x2048.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x2048.size a ≤ S2048x2048.size a
  hwx3_5 : ∀ i : grid3.Coords, EltTy.bits .bf16 = 32 ∨ (Rect.block (s := S2048x2048) S2048x2048.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x256x2048.size a ≤ S8x2048x2048.size a
  hwx3_6 : ∀ i : grid3.Coords, EltTy.bits .bf16 = 32 ∨ (Rect.block (s := S8x2048x2048) S1x256x2048.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x512x2048.size a ≤ S8x2048x2048.size a
  hwx4_0 : ∀ i : grid4.Coords, EltTy.bits .bf16 = 32 ∨ (Rect.block (s := S8x2048x2048) S1x512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048x2048.size a ≤ S8x2048x2048.size a
  hwx4_1 : ∀ i : grid4.Coords, EltTy.bits .bf16 = 32 ∨ (Rect.block (s := S8x2048x2048) S1x2048x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512x2048.size a ≤ S8x2048x2048.size a
  hwx4_2 : ∀ i : grid4.Coords, EltTy.bits .f32 = 32 ∨ (Rect.block (s := S8x2048x2048) S1x512x2048.size (cc4_transform_2 i) (hinb4_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1x256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x256x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v5) S2048x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S2048x2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S1x256x2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v15) S1x512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S1x2048x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x512x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []
  dot_S8x2048x2048_S8x2048x2048_S8x2048x2048_2_2_1_1_0_0_wf : DotDims.WF S8x2048x2048 S8x2048x2048 S8x2048x2048 [2] [2] [1] [1] [0] [0]
  dot_S8x2048x2048_S8x2048x2048_S8x2048x2048_2_1_1_2_0_0_wf : DotDims.WF S8x2048x2048 S8x2048x2048 S8x2048x2048 [2] [1] [1] [2] [0] [0]

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf
def dot_S8x2048x2048_S8x2048x2048_S8x2048x2048_2_2_1_1_0_0 : DotDims S8x2048x2048 S8x2048x2048 S8x2048x2048 where
  lhsContracting := [2]
  rhsContracting := [2]
  lhsNonContracting := [1]
  rhsNonContracting := [1]
  lhsBatch := [0]
  rhsBatch := [0]
  wf := dot_S8x2048x2048_S8x2048x2048_S8x2048x2048_2_2_1_1_0_0_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.K.Reg0.lean ====
/- Region 0 of the program: a pair of projections sharing one x block. The grid has 64 points; at point t the body
   reads a block of 256 rows of x (f32, window 0) and two whole weight matrices (bf16, windows 1 and 2, whose
   block index is the same at every point, so the pipeline fetches each at the first point only), rounds the x
   block to bf16 once, and stores into the two output blocks (windows 3 and 4) the bf16 roundings of
   bf16(x) · W₁ᵀ  and  bf16(x) · W₂ᵀ , each a contraction over the last axis of both factors.

   Everything is stated at a parameter V, the buffer contents when the region is entered, and for any float
   instance F. The body reads no output it has not written and each of its two stores covers its output block,
   so what it leaves in an output block is a closed function of the input blocks. -/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 0: `cc0__proj_pair_kernel`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the x block of the point when the body runs, for any proof data whose
    array is `V`'s and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight window's staging buffer holds the weight block at every point, although it is fetched at the
    first point only: where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the second weight window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 256 x 2048 block: the x load and the two output stores. -/
abbrev rBlk0 : Rect S256x2048 := Rect.unit (s := S256x2048) ![0, 0] S256x2048.size inb_S256x2048_S256x2048_0_0
/-- The whole of a 2048 x 2048 weight block. -/
abbrev rWt0 : Rect S2048x2048 := Rect.unit (s := S2048x2048) ![0, 0] S2048x2048.size inb_S2048x2048_S2048x2048_0_0

/-! ## What the body leaves in each output window's buffer -/

/-- The first output block after the body, from the input blocks: its one store's payload,
    bf16( bf16(x) · W₁ᵀ ), laid over the whole block. The second weight block does not enter. -/
def out0_3 (x0 : Vec F S256x2048 .f32) (x1 : Vec F S2048x2048 .bf16) (x2 : Vec F S2048x2048 .bf16) : Vec F S256x2048 .bf16 :=
  View.canon [⟨rBlk0, k0_pay2 (View.ld x0 rBlk0) (View.ld x1 rWt0)⟩]

/-- The second output block after the body: bf16( bf16(x) · W₂ᵀ ) laid over the whole block. The first weight
    block does not enter. -/
def out0_4 (x0 : Vec F S256x2048 .f32) (x1 : Vec F S2048x2048 .bf16) (x2 : Vec F S2048x2048 .bf16) : Vec F S256x2048 .bf16 :=
  View.canon [⟨rBlk0, k0_pay3 (View.ld x0 rBlk0) (View.ld x2 rWt0)⟩]

/-- A store through the whole-block rectangle covers the block. -/
theorem cover0_3 (p0 : Vec F S256x2048 .bf16) (y : S256x2048.Idx) :
    ∃ pc ∈ ([⟨rBlk0, p0⟩] : List (View.Piece (Elt F) S256x2048 .bf16)), y ∈ pc.1.set :=
  View.cover_of_tiled [⟨rBlk0, p0⟩] S256x2048.size (by rfl) y

theorem cover0_4 (p0 : Vec F S256x2048 .bf16) (y : S256x2048.Idx) :
    ∃ pc ∈ ([⟨rBlk0, p0⟩] : List (View.Piece (Elt F) S256x2048 .bf16)), y ∈ pc.1.set :=
  View.cover_of_tiled [⟨rBlk0, p0⟩] S256x2048.size (by rfl) y

/-! ## The body's triple -/

set_option maxHeartbeats 1000000 in
/-- The body on whole staging memrefs, the inputs' reading `x0`, `x1`, `x2` and the outputs' holding anything, runs
    to a state where the inputs' read as before and the outputs' read `out0_3` and `out0_4` of the inputs. -/
theorem sound_kernel0 (c : Dev nD) (E : Set ℕ) (i : grid0.Coords) (arg1 : Memref sig .tc .vmem S256x2048 .f32) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S256x2048 .bf16) (harg4 : arg4.IsWhole) (arg5 : Memref sig .tc .vmem S256x2048 .bf16) (harg5 : arg5.IsWhole)
    (x0 : Vec F S256x2048 .f32) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__proj_pair_kernel i arg1 harg1 arg2 harg2 arg3 harg3 arg4 harg4 arg5 harg5) K := by
  simp only [cc0__proj_pair_kernel_eq_skeleton]; unfold cc0__proj_pair_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core `c`: the arrays as the region finds them; after the body at
    point `t` each input's buffer still at its block and each output's at its closed function of the input
    blocks; the invariant is the scoped rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 of the program: a pair of projections sharing one x block. The grid has 64 points; at point t the body
   reads a block of 256 rows of x (f32, window 0) and two whole weight matrices (bf16, windows 1 and 2, whose
   block index is the same at every point, so the pipeline fetches each at the first point only), rounds the x
   block to bf16 once, and stores into the two output blocks (windows 3 and 4) the bf16 roundings of
   bf16(x) · W₁ᵀ  and  bf16(x) · W₂ᵀ , each a contraction over the last axis of both factors.

   Everything is stated at a parameter V, the buffer contents when the region is entered, and for any float
   instance F. The body reads no output it has not written and each of its two stores covers its output block,
   so what it leaves in an output block is a closed function of the input blocks. -/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 1: `cc1__proj_pair_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the x block of the point when the body runs, for any proof data whose
    array is `V`'s and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first weight window's staging buffer holds the weight block at every point, although it is fetched at the
    first point only: where it is not fetched its block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of the second weight window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 256 x 2048 block: the x load and the two output stores. -/
abbrev rBlk1 : Rect S256x2048 := Rect.unit (s := S256x2048) ![0, 0] S256x2048.size inb_S256x2048_S256x2048_0_0
/-- The whole of a 2048 x 2048 weight block. -/
abbrev rWt1 : Rect S2048x2048 := Rect.unit (s := S2048x2048) ![0, 0] S2048x2048.size inb_S2048x2048_S2048x2048_0_0

/-! ## What the body leaves in each output window's buffer -/

/-- The first output block after the body, from the input blocks: its one store's payload,
    bf16( bf16(x) · W₁ᵀ ), laid over the whole block. The second weight block does not enter. -/
def out1_3 (x0 : Vec F S256x2048 .f32) (x1 : Vec F S2048x2048 .bf16) (x2 : Vec F S2048x2048 .bf16) : Vec F S256x2048 .bf16 :=
  View.canon [⟨rBlk1, k1_pay2 (View.ld x0 rBlk1) (View.ld x1 rWt1)⟩]

/-- The second output block after the body: bf16( bf16(x) · W₂ᵀ ) laid over the whole block. The first weight
    block does not enter. -/
def out1_4 (x0 : Vec F S256x2048 .f32) (x1 : Vec F S2048x2048 .bf16) (x2 : Vec F S2048x2048 .bf16) : Vec F S256x2048 .bf16 :=
  View.canon [⟨rBlk1, k1_pay3 (View.ld x0 rBlk1) (View.ld x2 rWt1)⟩]

/-- A store through the whole-block rectangle covers the block. -/
theorem cover1_3 (p0 : Vec F S256x2048 .bf16) (y : S256x2048.Idx) :
    ∃ pc ∈ ([⟨rBlk1, p0⟩] : List (View.Piece (Elt F) S256x2048 .bf16)), y ∈ pc.1.set :=
  View.cover_of_tiled [⟨rBlk1, p0⟩] S256x2048.size (by rfl) y

theorem cover1_4 (p0 : Vec F S256x2048 .bf16) (y : S256x2048.Idx) :
    ∃ pc ∈ ([⟨rBlk1, p0⟩] : List (View.Piece (Elt F) S256x2048 .bf16)), y ∈ pc.1.set :=
  View.cover_of_tiled [⟨rBlk1, p0⟩] S256x2048.size (by rfl) y

/-! ## The body's triple -/

set_option maxHeartbeats 1000000 in
/-- The body on whole staging memrefs, the inputs' reading `x0`, `x1`, `x2` and the outputs' holding anything, runs
    to a state where the inputs' read as before and the outputs' read `out1_3` and `out1_4` of the inputs. -/
theorem sound_kernel1 (c : Dev nD) (E : Set ℕ) (i : grid1.Coords) (arg1 : Memref sig .tc .vmem S256x2048 .f32) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S256x2048 .bf16) (harg4 : arg4.IsWhole) (arg5 : Memref sig .tc .vmem S256x2048 .bf16) (harg5 : arg5.IsWhole)
    (x0 : Vec F S256x2048 .f32) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__proj_pair_kernel i arg1 harg1 arg2 harg2 arg3 harg3 arg4 harg4 arg5 harg5) K := by
  simp only [cc1__proj_pair_kernel_eq_skeleton]; unfold cc1__proj_pair_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of the region's pipeline on core `c`: the arrays as the region finds them; after the body at
    point `t` each input's buffer still at its block and each output's at its closed function of the input
    blocks; the invariant is the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 of the program: the single projection. The grid has 32 points; at point t the body reads a block of
   512 rows of x (f32, window 0) and the whole weight matrix W (bf16, window 1, whose block index is the same at
   every point, so the pipeline fetches it at the first point only), and stores into the output block (window 2)
   the bf16 rounding of  bf16(x) · Wᵀ , the contraction over the last axis of both.

   Everything is stated at a parameter V, the buffer contents when the region is entered, and for any float
   instance F. The body reads no output it has not written and its one store covers the output block, so what
   it leaves there is a closed function of the two input blocks. -/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 2: `cc2__proj_single_kernel`, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's staging buffer holds the x block of the point when the body runs, for any proof data whose
    array is `V`'s and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight block at every point, although it is fetched at the first
    point only: where it is not fetched its block index has not moved, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a 512 x 2048 block: the x load and the output store. -/
abbrev rBlk2 : Rect S512x2048 := Rect.unit (s := S512x2048) ![0, 0] S512x2048.size inb_S512x2048_S512x2048_0_0
/-- The whole of the 2048 x 2048 weight block. -/
abbrev rWt2 : Rect S2048x2048 := Rect.unit (s := S2048x2048) ![0, 0] S2048x2048.size inb_S2048x2048_S2048x2048_0_0

/-! ## What the body leaves in the output window's buffer -/

/-- The output block after the body, from the x block and the weight block: the one store's payload,
    bf16( bf16(x) · Wᵀ ), laid over the whole block. -/
def out2_2 (x0 : Vec F S512x2048 .f32) (x1 : Vec F S2048x2048 .bf16) : Vec F S512x2048 .bf16 :=
  View.canon [⟨rBlk2, k2_pay1 (View.ld x0 rBlk2) (View.ld x1 rWt2)⟩]

/-- The store's rectangle is the whole block, so it covers it. -/
theorem cover2_2 (p0 : Vec F S512x2048 .bf16) (y : S512x2048.Idx) :
    ∃ pc ∈ ([⟨rBlk2, p0⟩] : List (View.Piece (Elt F) S512x2048 .bf16)), y ∈ pc.1.set :=
  View.cover_of_tiled [⟨rBlk2, p0⟩] S512x2048.size (by rfl) y

/-! ## The body's triple -/

set_option maxHeartbeats 1000000 in
/-- The body on whole staging memrefs, the inputs' reading `x0` and `x1` and the output's holding anything, runs to
    a state where the inputs' read as before and the output's reads `out2_2 x0 x1`. -/
theorem sound_kernel2 (c : Dev nD) (E : Set ℕ) (i : grid2.Coords) (arg1 : Memref sig .tc .vmem S512x2048 .f32) (harg1 : arg1.IsWhole) (arg2 : Memref sig .tc .vmem S2048x2048 .bf16) (harg2 : arg2.IsWhole) (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_single_kernel i arg1 harg1 arg2 harg2 arg3 harg3) K := by
  simp only [cc2__proj_single_kernel_eq_skeleton]; unfold cc2__proj_single_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them; after the body at
    point `t` each input's buffer still at its block and the output's at `out2_2` of the two input blocks; the
    invariant is the scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/-
  The contents of every unscoped buffer of a core at the boundaries between the first five items of the program: at
  launch, after the seven weight casts, after each of the three projection regions (a region leaves its windows' arrays
  at what its write-backs made of them and every other buffer as it was), and after the five reshapes that precede the
  fused region.
-/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import proofs.«118165_j36936718746194_2_alg».proof.Proof.K.Reg0
import proofs.«118165_j36936718746194_2_alg».proof.Proof.K.Reg1
import proofs.«118165_j36936718746194_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffer contents at each boundary between two items of the program, a fold from the launch memory -/

/-- Core `c`'s buffers at launch. -/
abbrev W0 : Dev nD → Valuation τ sig (Elt F) := fun c b => (s₀ m ρ).mem ((c : Dev nD), b)
/-- After the seven weight casts (the entry of the first projection). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what its write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the five reshapes to [8, 2048, 2048] (the entry of the fused region). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

end Cert.Kernel.Hand

end
-- ==== Proof.K.Scr3.lean ====
/-
  The state the fused softmax region carries from one grid point to the next, as values: the six running buffers, the
  state the reset writes, the 256 weight columns a chunk multiplies, one chunk's update of the state, and the output
  block computed from the final state.
-/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-! ## The carried state and one step of the two online softmaxes -/

/-- The six running buffers: for each of the two softmaxes the running row maximum `m`, the running row sum `l`
    of exponentials and the running accumulator `a` of the exponentials against the weight's column slice. -/
structure Scr (F : FTy → Type) where
  m1 : Vec F S256x1 .f32
  l1 : Vec F S256x1 .f32
  a1 : Vec F S256x2048 .f32
  m2 : Vec F S256x1 .f32
  l2 : Vec F S256x1 .f32
  a2 : Vec F S256x2048 .f32

/-- The state the reset branch writes: maxima at −∞, sums and accumulators at 0. -/
def init3 : Scr F := ⟨k3_pay5, k3_pay6, k3_pay7, k3_pay8, k3_pay9, k3_pay10⟩

/-- The 256 columns of a 2048×2048 weight that chunk `i 2` multiplies: columns `256·(i 2)` onwards. -/
def wcol (i : grid3.Coords) (x : Vec F S2048x2048 .bf16) : Vec F S2048x256 .bf16 :=
  View.ld x (Rect.unit (s := S2048x2048) (k3_off1 i) S2048x256.size (k3_off1_inb i))

/-- One chunk's update of the running state from the two query blocks `x0`, `x1`, the two key chunks `x2`, `x3`
    and the two weights `x4`, `x5`: with `s = q·kᵀ·scale` the chunk's scores, the new maximum is `max m (rowmax s)`,
    the old sum and accumulator are rescaled by `exp (m − m')` and the chunk adds `rowsum (exp (s − m'))`, resp.
    `exp (s − m')` (rounded to bf16) times the weight's column slice. -/
def step3 (i : grid3.Coords) (x0 x1 x2 x3 : Vec F S1x256x2048 .bf16) (x4 x5 : Vec F S2048x2048 .bf16) (s : Scr F) : Scr F where
  m1 := k3_pay21 (k3_pay16 x0 x2 s.m1)
  l1 := k3_pay19 (k3_pay17 x0 x2 s.m1 s.m1) (k3_pay18 x0 x2 s.m1) s.l1
  a1 := k3_pay20 (k3_pay13 (wcol i x4)) (k3_pay17 x0 x2 s.m1 s.m1) (k3_pay18 x0 x2 s.m1) s.a1
  m2 := k3_pay3 (k3_pay23 (k3_pay11 x1) (k3_pay12 x3) s.m2)
  l2 := k3_pay1 (k3_pay25 (k3_pay11 x1) (k3_pay12 x3) s.m2) (k3_pay26 (k3_pay11 x1) (k3_pay12 x3) s.m2 s.m2 s.l2)
  a2 := k3_pay2 (k3_pay14 (wcol i x5)) (k3_pay24 (k3_pay11 x1) (k3_pay12 x3) s.m2 s.m2) (k3_pay25 (k3_pay11 x1) (k3_pay12 x3) s.m2) s.a2

/-- The output block the last chunk writes from the final state: `(a1 / l1 − a2 / l2)²`, rounded to bf16. -/
def fin3 (s : Scr F) : Vec F S1x256x2048 .bf16 := k3_pay4 s.a1 s.l1 s.a2 s.l2

end Cert.Kernel.Hand

end
-- ==== Proof.K.Reg3a.lean ====
/- Region 3 (the fused dual online-softmax kernel): the branch conditions in closed form and the body's run at a
   middle chunk, over the carried state and its one-chunk update. -/
import proofs.«118165_j36936718746194_2_alg».proof.Proof.K.Scr3
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions in closed form -/

/-- The condition of the reset branch, from the grid coordinates: the chunk index (the last grid coordinate) is 0. -/
abbrev cond3_0 (i : grid3.Coords) : Prop := (Scalar.cmpi .ne (Scalar.extui (Scalar.cmpi .eq (BitVec.ofNat 32 (i 2).val) 0#32)) 0#32) = 1#1
/-- It holds exactly at the points whose position is 0 modulo 8 (the chunk axis is the fastest, of extent 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- The condition of the output branch: the chunk index is 7. -/
abbrev cond3_1 (i : grid3.Coords) : Prop := k3_cond2 i = 1#1
/-- It holds exactly at the points whose position is 7 modulo 8. -/
theorem hcond3_1 : ∀ t : Fin cfg3.N, cond3_1 (grid3.coords t) ↔ t.val % 8 = 7 :=
  (by decide +kernel : ∀ t : Fin grid3.N, cond3_1 (grid3.coords t) ↔ t.val % 8 = 7)

/-- The zero offsets of a rank-2 and of a rank-3 whole-buffer access, as constant functions. -/
theorem hz2 : (![0, 0] : Fin 2 → ℕ) = fun _ => 0 := by funext a; fin_cases a <;> rfl
theorem hz3 : (![0, 0, 0] : Fin 3 → ℕ) = fun _ => 0 := by funext a; fin_cases a <;> rfl

/-! ## The body at a middle chunk -/

set_option maxHeartbeats 4000000 in
/-- THE BODY AT A MIDDLE CHUNK (neither branch taken). On whole memrefs — the six inputs at their blocks, the output's
    staging buffer at anything `xi6`, the six running buffers at a state `s` — the kernel runs to the continuation
    holding the inputs and the output's buffer as they were and the running buffers at `step3 … s`: each running
    buffer is overwritten whole by one store whose payload reads the state before it. -/
theorem sound_kernel3_mid (c : Dev nD) (i : grid3.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x256x2048 .bf16) (harg9 : arg9.IsWhole) (arg10 : Memref sig .tc .vmem S256x1 .f32) (harg10 : arg10.IsWhole) (arg11 : Memref sig .tc .vmem S256x1 .f32) (harg11 : arg11.IsWhole) (arg12 : Memref sig .tc .vmem S256x2048 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x2048 .f32) (harg15 : arg15.IsWhole) (hc0 : ¬cond3_0 i) (hc1 : ¬cond3_1 i)
    (x0 x1 x2 x3 : Vec F S1x256x2048 .bf16) (x4 x5 : Vec F S2048x2048 .bf16) (xi6 : Vec F S1x256x2048 .bf16)
    (s : Scr F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ owns (c : Thread nD τ) arg10 fullShare (s).m1 ∗ owns (c : Thread nD τ) arg11 fullShare (s).l1 ∗ owns (c : Thread nD τ) arg12 fullShare (s).a1
        ∗ owns (c : Thread nD τ) arg13 fullShare (s).m2 ∗ owns (c : Thread nD τ) arg14 fullShare (s).l2 ∗ owns (c : Thread nD τ) arg15 fullShare (s).a2
        ∗ (iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ owns (c : Thread nD τ) arg10 fullShare (step3 i x0 x1 x2 x3 x4 x5 s).m1 ∗ owns (c : Thread nD τ) arg11 fullShare (step3 i x0 x1 x2 x3 x4 x5 s).l1 ∗ owns (c : Thread nD τ) arg12 fullShare (step3 i x0 x1 x2 x3 x4 x5 s).a1
        ∗ owns (c : Thread nD τ) arg13 fullShare (step3 i x0 x1 x2 x3 x4 x5 s).m2 ∗ owns (c : Thread nD τ) arg14 fullShare (step3 i x0 x1 x2 x3 x4 x5 s).l2 ∗ owns (c : Thread nD τ) arg15 fullShare (step3 i x0 x1 x2 x3 x4 x5 s).a2) -∗ K ⟨⟩))
      ⊢ wp frame (wpE (defs₀ (F := F)) Variants.none c none) E (cc3__fused_kernel i arg3 harg3 arg4 harg4 arg5 harg5 arg6 harg6 arg7 harg7 arg8 harg8 arg9 harg9 arg10 harg10 arg11 harg11 arg12 harg12 arg13 harg13 arg14 harg14 arg15 harg15) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  obtain rfl := harg10.eq_unread hfs0; obtain rfl := harg11.eq_unread hfs1; obtain rfl := harg12.eq_unread hfs2
  obtain rfl := harg13.eq_unread hfs3; obtain rfl := harg14.eq_unread hfs4; obtain rfl := harg15.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HS0]
  · iexists _; isplitr
    swap; · iexact HS0
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg3.read_unread, harg5.read_unread, harg10.read_unread, View.ld_unit_zero (S := S256x1) hz2, View.ld_unit_zero (S := S256x2048) hz2, View.ld_unit_zero (S := S1x256x2048) hz3]
    rfl
  isplitl [HS1]
  · iexists _; isplitr
    swap; · iexact HS1
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg3.read_unread, harg5.read_unread, harg10.read_unread, harg11.read_unread, View.ld_unit_zero (S := S256x1) hz2, View.ld_unit_zero (S := S256x2048) hz2, View.ld_unit_zero (S := S1x256x2048) hz3]
    rfl
  isplitl [HS2]
  · iexists _; isplitr
    swap; · iexact HS2
    ipureintro
    rw [View.read_writes_eq_canon _ _ _ (fun y => ⟨_, List.mem_singleton_self _, View.mem_set_unit_zero hz2 inb_S256x2048_S256x2048_0_0 y⟩), View.canon_unit_zero hz2]
    sl_unfold_run_names
    simp only [View.readAt_eq_ld, harg3.read_unread, harg5.read_unread, harg7.read_unread, harg10.read_unread, harg12.read_unread, View.ld_unit_zero (S := S256x1) hz2, View.ld_unit_zero (S := S256x2048) hz2, View.ld_unit_zero (S := S1x256x2048) hz3]
    rfl
  isplitl [HS3]
  · iexists _; isplitr
    swap; · iexact HS3
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg4.read_unread, harg6.read_unread, harg13.read_unread, View.ld_unit_zero (S := S256x1) hz2, View.ld_unit_zero (S := S256x2048) hz2, View.ld_unit_zero (S := S1x256x2048) hz3]
    rfl
  isplitl [HS4]
  · iexists _; isplitr
    swap; · iexact HS4
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg4.read_unread, harg6.read_unread, harg13.read_unread, harg14.read_unread, View.ld_unit_zero (S := S256x1) hz2, View.ld_unit_zero (S := S256x2048) hz2, View.ld_unit_zero (S := S1x256x2048) hz3]
    rfl
  · iexists _; isplitr
    swap; · iexact HS5
    ipureintro
    rw [View.read_writes_eq_canon _ _ _ (fun y => ⟨_, List.mem_singleton_self _, View.mem_set_unit_zero hz2 inb_S256x2048_S256x2048_0_0 y⟩), View.canon_unit_zero hz2]
    sl_unfold_run_names
    simp only [View.readAt_eq_ld, harg4.read_unread, harg6.read_unread, harg8.read_unread, harg13.read_unread, harg15.read_unread, View.ld_unit_zero (S := S256x1) hz2, View.ld_unit_zero (S := S256x2048) hz2, View.ld_unit_zero (S := S1x256x2048) hz3]
    rfl

end Cert.Kernel.Hand

end
-- ==== Proof.K.Reg3b.lean ====
/- Region 3: the body's run at a first chunk (the reset branch taken). -/
import proofs.«118165_j36936718746194_2_alg».proof.Proof.K.Reg3a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a first chunk -/

set_option maxHeartbeats 4000000 in
/-- THE BODY AT A FIRST CHUNK (the reset branch taken, the output branch not). The six running buffers may hold
    anything: the reset overwrites each whole before anything reads it, so the run leaves them at `step3 … init3`;
    the inputs and the output's staging buffer are left as they were. -/
theorem sound_kernel3_first (c : Dev nD) (i : grid3.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x256x2048 .bf16) (harg9 : arg9.IsWhole) (arg10 : Memref sig .tc .vmem S256x1 .f32) (harg10 : arg10.IsWhole) (arg11 : Memref sig .tc .vmem S256x1 .f32) (harg11 : arg11.IsWhole) (arg12 : Memref sig .tc .vmem S256x2048 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x2048 .f32) (harg15 : arg15.IsWhole) (hc0 : cond3_0 i) (hc1 : ¬cond3_1 i)
    (x0 x1 x2 x3 : Vec F S1x256x2048 .bf16) (x4 x5 : Vec F S2048x2048 .bf16) (xi6 : Vec F S1x256x2048 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ owns (c : Thread nD τ) arg10 fullShare (step3 i x0 x1 x2 x3 x4 x5 init3).m1 ∗ owns (c : Thread nD τ) arg11 fullShare (step3 i x0 x1 x2 x3 x4 x5 init3).l1 ∗ owns (c : Thread nD τ) arg12 fullShare (step3 i x0 x1 x2 x3 x4 x5 init3).a1
        ∗ owns (c : Thread nD τ) arg13 fullShare (step3 i x0 x1 x2 x3 x4 x5 init3).m2 ∗ owns (c : Thread nD τ) arg14 fullShare (step3 i x0 x1 x2 x3 x4 x5 init3).l2 ∗ owns (c : Thread nD τ) arg15 fullShare (step3 i x0 x1 x2 x3 x4 x5 init3).a2) -∗ K ⟨⟩))
      ⊢ wp frame (wpE (defs₀ (F := F)) Variants.none c none) E (cc3__fused_kernel i arg3 harg3 arg4 harg4 arg5 harg5 arg6 harg6 arg7 harg7 arg8 harg8 arg9 harg9 arg10 harg10 arg11 harg11 arg12 harg12 arg13 harg13 arg14 harg14 arg15 harg15) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HS0]
  · iexists _; isplitr
    swap; · iexact HS0
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg3.read_unread, harg5.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS1]
  · iexists _; isplitr
    swap; · iexact HS1
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg3.read_unread, harg5.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS2]
  · iexists _; isplitr
    swap; · iexact HS2
    ipureintro
    sl_unfold_run_names
    rw [View.read_writes_eq_canon _ _ _ (fun y => ⟨_, List.mem_cons.mpr (Or.inl rfl), View.mem_set_unit_zero hz2 inb_S256x2048_S256x2048_0_0 y⟩), View.canon_cons_unit_zero hz2]
    simp only [View.readAt_eq_ld, harg3.read_unread, harg5.read_unread, harg7.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS3]
  · iexists _; isplitr
    swap; · iexact HS3
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg4.read_unread, harg6.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS4]
  · iexists _; isplitr
    swap; · iexact HS4
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg4.read_unread, harg6.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  · iexists _; isplitr
    swap; · iexact HS5
    ipureintro
    sl_unfold_run_names
    rw [View.read_writes_eq_canon _ _ _ (fun y => ⟨_, List.mem_cons.mpr (Or.inl rfl), View.mem_set_unit_zero hz2 inb_S256x2048_S256x2048_0_0 y⟩), View.canon_cons_unit_zero hz2]
    simp only [View.readAt_eq_ld, harg4.read_unread, harg6.read_unread, harg8.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl

end Cert.Kernel.Hand

end
-- ==== Proof.K.Reg3c.lean ====
/- Region 3: the body's run at a last chunk (the output branch taken). -/
import proofs.«118165_j36936718746194_2_alg».proof.Proof.K.Reg3a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a last chunk -/

set_option maxHeartbeats 4000000 in
/-- THE BODY AT A LAST CHUNK (the output branch taken, the reset branch not). The running buffers go from `s` to
    `step3 … s` as at a middle chunk; the output branch then reads them back and overwrites the output's staging
    buffer whole, whatever it held, with `fin3 (step3 … s)`. -/
theorem sound_kernel3_last (c : Dev nD) (i : grid3.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x256x2048 .bf16) (harg9 : arg9.IsWhole) (arg10 : Memref sig .tc .vmem S256x1 .f32) (harg10 : arg10.IsWhole) (arg11 : Memref sig .tc .vmem S256x1 .f32) (harg11 : arg11.IsWhole) (arg12 : Memref sig .tc .vmem S256x2048 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x2048 .f32) (harg15 : arg15.IsWhole) (hc0 : ¬cond3_0 i) (hc1 : cond3_1 i)
    (x0 x1 x2 x3 : Vec F S1x256x2048 .bf16) (x4 x5 : Vec F S2048x2048 .bf16)
    (s : Scr F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ (∃ d, owns (c : Thread nD τ) arg9 fullShare d)
        ∗ owns (c : Thread nD τ) arg10 fullShare (s).m1 ∗ owns (c : Thread nD τ) arg11 fullShare (s).l1 ∗ owns (c : Thread nD τ) arg12 fullShare (s).a1
        ∗ owns (c : Thread nD τ) arg13 fullShare (s).m2 ∗ owns (c : Thread nD τ) arg14 fullShare (s).l2 ∗ owns (c : Thread nD τ) arg15 fullShare (s).a2
        ∗ (iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare (fin3 (step3 i x0 x1 x2 x3 x4 x5 s))
        ∗ owns (c : Thread nD τ) arg10 fullShare (step3 i x0 x1 x2 x3 x4 x5 s).m1 ∗ owns (c : Thread nD τ) arg11 fullShare (step3 i x0 x1 x2 x3 x4 x5 s).l1 ∗ owns (c : Thread nD τ) arg12 fullShare (step3 i x0 x1 x2 x3 x4 x5 s).a1
        ∗ owns (c : Thread nD τ) arg13 fullShare (step3 i x0 x1 x2 x3 x4 x5 s).m2 ∗ owns (c : Thread nD τ) arg14 fullShare (step3 i x0 x1 x2 x3 x4 x5 s).l2 ∗ owns (c : Thread nD τ) arg15 fullShare (step3 i x0 x1 x2 x3 x4 x5 s).a2) -∗ K ⟨⟩))
      ⊢ wp frame (wpE (defs₀ (F := F)) Variants.none c none) E (cc3__fused_kernel i arg3 harg3 arg4 harg4 arg5 harg5 arg6 harg6 arg7 harg7 arg8 harg8 arg9 harg9 arg10 harg10 arg11 harg11 arg12 harg12 arg13 harg13 arg14 harg14 arg15 harg15) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg10.eq_unread hfs0; obtain rfl := harg11.eq_unread hfs1; obtain rfl := harg12.eq_unread hfs2
  obtain rfl := harg13.eq_unread hfs3; obtain rfl := harg14.eq_unread hfs4; obtain rfl := harg15.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    sl_unfold_run_names
    rw [View.read_writes_eq_canon _ _ _ (fun y => ⟨_, List.mem_singleton_self _, View.mem_set_unit_zero hz3 inb_S1x256x2048_S1x256x2048_0_0_0 y⟩), View.canon_unit_zero hz3]
    simp only [View.readAt_eq_ld, harg3.read_unread, harg4.read_unread, harg5.read_unread, harg6.read_unread, harg7.read_unread, harg8.read_unread, harg10.read_unread, harg11.read_unread, harg12.read_unread, harg13.read_unread, harg14.read_unread, harg15.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS0]
  · iexists _; isplitr
    swap; · iexact HS0
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg3.read_unread, harg5.read_unread, harg10.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS1]
  · iexists _; isplitr
    swap; · iexact HS1
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg3.read_unread, harg5.read_unread, harg10.read_unread, harg11.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS2]
  · iexists _; isplitr
    swap; · iexact HS2
    ipureintro
    sl_unfold_run_names
    rw [View.read_writes_eq_canon _ _ _ (fun y => ⟨_, List.mem_singleton_self _, View.mem_set_unit_zero hz2 inb_S256x2048_S256x2048_0_0 y⟩), View.canon_unit_zero hz2]
    simp only [View.readAt_eq_ld, harg3.read_unread, harg5.read_unread, harg7.read_unread, harg10.read_unread, harg12.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS3]
  · iexists _; isplitr
    swap; · iexact HS3
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg4.read_unread, harg6.read_unread, harg13.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS4]
  · iexists _; isplitr
    swap; · iexact HS4
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg4.read_unread, harg6.read_unread, harg13.read_unread, harg14.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  · iexists _; isplitr
    swap; · iexact HS5
    ipureintro
    sl_unfold_run_names
    rw [View.read_writes_eq_canon _ _ _ (fun y => ⟨_, List.mem_singleton_self _, View.mem_set_unit_zero hz2 inb_S256x2048_S256x2048_0_0 y⟩), View.canon_unit_zero hz2]
    simp only [View.readAt_eq_ld, harg4.read_unread, harg6.read_unread, harg8.read_unread, harg13.read_unread, harg15.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl

end Cert.Kernel.Hand

end
-- ==== Proof.K.Reg3.lean ====
/- Region 3 (the fused dual online-softmax kernel): the running state point by point, the region invariant carrying
   the six running buffers, the proof data, the body obligation at every point, and the passage into and out of the
   invariant. -/
import proofs.«118165_j36936718746194_2_alg».proof.Proof.K.Reg3b
import proofs.«118165_j36936718746194_2_alg».proof.Proof.K.Reg3c
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved since the fetch), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved since the fetch), for any proof data whose array is `V`'s and whose body leaves the block
    in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved since the fetch), for any proof data whose array is `V`'s and whose body leaves the block
    in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved since the fetch), for any proof data whose array is `V`'s and whose body leaves the block
    in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the
    block index has not moved since the fetch), for any proof data whose array is `V`'s and whose body leaves the block
    in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the
    block index has not moved since the fetch), for any proof data whose array is `V`'s and whose body leaves the block
    in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- Off the last chunk the output window is idle: the body stores nothing into it, -/
theorem idleAt3_6 : ∀ t : Fin cfg3.N, ¬cond3_1 (grid3.coords t) → cfg3.idle 6 (grid3.coords t) = true := by decide +kernel
/-- and the pipeline does not write its block back. -/
theorem noFlush3_6 : ∀ t : Fin cfg3.N, ¬cond3_1 (grid3.coords t) → (cfg3.win 6).flush t = false := by decide +kernel
/-- At a last chunk the output window is live. -/
theorem liveAt3_6 : ∀ t : Fin cfg3.N, cond3_1 (grid3.coords t) → cfg3.idle 6 (grid3.coords t) = false := by decide +kernel

/-! ## The running state after each point -/

/-- One chunk's update at point `t`: `step3` at the point's coordinates and input blocks. -/
def stepAt3 (c : Dev nD) (t : Fin cfg3.N) (s : Scr F) : Scr F :=
  step3 (grid3.coords t) (iblk3 V c 0 t) (iblk3 V c 1 t) (iblk3 V c 2 t) (iblk3 V c 3 t) (iblk3 V c 4 t) (iblk3 V c 5 t) s

/-- THE RECURRENCE. The running state after the body at position `n`: at a first chunk (position 0 modulo 8) the
    update of the reset state, elsewhere the update of the state the point before left. -/
def scrAt3 (c : Dev nD) : (n : ℕ) → n < cfg3.N → Scr F
  | 0, hn => stepAt3 V c ⟨0, hn⟩ init3
  | n + 1, hn =>
    if (n + 1) % 8 = 0 then stepAt3 V c ⟨n + 1, hn⟩ init3
    else stepAt3 V c ⟨n + 1, hn⟩ (scrAt3 c n (Nat.lt_of_succ_lt hn))

/-- At a first chunk: the update of the reset state. -/
theorem scrAt3_first (c : Dev nD) (t : Fin cfg3.N) (h0 : t.val % 8 = 0) :
    scrAt3 V c t.val t.isLt = stepAt3 V c t init3 := by
  obtain ⟨n, hn⟩ := t
  cases n with
  | zero => rfl
  | succ n => exact (if_pos h0).trans rfl

/-- At any other chunk: the update of what the point before left. -/
theorem scrAt3_next (c : Dev nD) (t : Fin cfg3.N) (h0 : ¬t.val % 8 = 0) :
    scrAt3 V c t.val t.isLt = stepAt3 V c t (scrAt3 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region invariant -/

/-- The six running buffers as whole memrefs, as the pipeline passes them to the body. -/
abbrev scM3_0 : Memref sig .tc .vmem S256x1 .f32 := Memref.whole cc3_scratch0
abbrev scM3_1 : Memref sig .tc .vmem S256x1 .f32 := Memref.whole cc3_scratch1
abbrev scM3_2 : Memref sig .tc .vmem S256x2048 .f32 := Memref.whole cc3_scratch2
abbrev scM3_3 : Memref sig .tc .vmem S256x1 .f32 := Memref.whole cc3_scratch3
abbrev scM3_4 : Memref sig .tc .vmem S256x1 .f32 := Memref.whole cc3_scratch4
abbrev scM3_5 : Memref sig .tc .vmem S256x2048 .f32 := Memref.whole cc3_scratch5

/-- The scoped buffers of the core other than the staging buffers and the six running buffers, at some contents. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2, cc3_scratch3, cc3_scratch4, cc3_scratch5]

/-- The scoped rest with the six running buffers as memrefs owned at some contents. -/
theorem scopedRest3_scr (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ restBut3 c) := by
  rw [scopedRest3_split]; simp only [scM3_0, scM3_1, scM3_2, scM3_3, scM3_4, scM3_5, owns_whole]; try rfl

/-- The region invariant before position `n`: before the first point the six running buffers at anything; afterwards
    at the state the point before left (`scrAt3`); beside them, always, the other scoped buffers at some contents and
    the random-number register at some state. -/
def PhiS3 (c : Dev nD) : (n : ℕ) → n ≤ cfg3.N → sProp 𝕄
  | 0, _ => iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ restBut3 c ∗ (∃ r, prngReg c r))
  | n + 1, hn => iprop(iprop(owns (c : Thread nD τ) scM3_0 fullShare (scrAt3 V c n hn).m1 ∗ owns (c : Thread nD τ) scM3_1 fullShare (scrAt3 V c n hn).l1 ∗ owns (c : Thread nD τ) scM3_2 fullShare (scrAt3 V c n hn).a1 ∗ owns (c : Thread nD τ) scM3_3 fullShare (scrAt3 V c n hn).m2 ∗ owns (c : Thread nD τ) scM3_4 fullShare (scrAt3 V c n hn).l2 ∗ owns (c : Thread nD τ) scM3_5 fullShare (scrAt3 V c n hn).a2) ∗ restBut3 c ∗ (∃ r, prngReg c r))

theorem PhiS3_zero (c : Dev nD) (n : ℕ) (h : n ≤ cfg3.N) (hz : n = 0) :
    PhiS3 V c n h = iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ restBut3 c ∗ (∃ r, prngReg c r)) := by
  subst hz; rfl

theorem PhiS3_succ (c : Dev nD) (n : ℕ) (hn : n < cfg3.N) :
    PhiS3 V c (n + 1) hn = iprop(iprop(owns (c : Thread nD τ) scM3_0 fullShare (scrAt3 V c n hn).m1 ∗ owns (c : Thread nD τ) scM3_1 fullShare (scrAt3 V c n hn).l1 ∗ owns (c : Thread nD τ) scM3_2 fullShare (scrAt3 V c n hn).a1 ∗ owns (c : Thread nD τ) scM3_3 fullShare (scrAt3 V c n hn).m2 ∗ owns (c : Thread nD τ) scM3_4 fullShare (scrAt3 V c n hn).l2 ∗ owns (c : Thread nD τ) scM3_5 fullShare (scrAt3 V c n hn).a2) ∗ restBut3 c ∗ (∃ r, prngReg c r)) := rfl

theorem PhiS3_pos (c : Dev nD) (n : ℕ) (h : n ≤ cfg3.N) (hz : n ≠ 0) :
    PhiS3 V c n h = iprop(iprop(owns (c : Thread nD τ) scM3_0 fullShare (scrAt3 V c (n - 1) (by omega)).m1 ∗ owns (c : Thread nD τ) scM3_1 fullShare (scrAt3 V c (n - 1) (by omega)).l1 ∗ owns (c : Thread nD τ) scM3_2 fullShare (scrAt3 V c (n - 1) (by omega)).a1 ∗ owns (c : Thread nD τ) scM3_3 fullShare (scrAt3 V c (n - 1) (by omega)).m2 ∗ owns (c : Thread nD τ) scM3_4 fullShare (scrAt3 V c (n - 1) (by omega)).l2 ∗ owns (c : Thread nD τ) scM3_5 fullShare (scrAt3 V c (n - 1) (by omega)).a2) ∗ restBut3 c ∗ (∃ r, prngReg c r)) := by
  cases n with
  | zero => exact absurd rfl hz
  | succ n => rfl

/-! ## The proof data -/

/-- The proof data of the region on core `c`: the arrays as the region finds them (`V`); after the body at point `t`
    each input's buffer at its block and the output's at `fin3` of the running state there (read only at the last
    chunks, where the block is written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => fin3 (scrAt3 V c t.val t.isLt)
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = fin3 (scrAt3 V c t.val t.isLt) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The running state within one block of eight chunks -/

/-- The update at position `n`, when `n` is a point of the grid (else nothing). -/
def stepN3 (c : Dev nD) (n : ℕ) (s : Scr F) : Scr F :=
  if h : n < cfg3.N then stepAt3 V c ⟨n, h⟩ s else s

theorem stepN3_lt (c : Dev nD) (n : ℕ) (h : n < cfg3.N) (s : Scr F) : stepN3 V c n s = stepAt3 V c ⟨n, h⟩ s := dif_pos h

/-- The running state at chunk `k` of the block of eight chunks starting at position `8·b`: the reset state
    updated by the chunks `0, …, k` of the block, in order. -/
theorem scrAt3_block (c : Dev nD) (b : ℕ) : ∀ (k : ℕ) (hk : k < 8) (h : 8 * b + k < cfg3.N),
    scrAt3 V c (8 * b + k) h = (List.range (k + 1)).foldl (fun s j => stepN3 V c (8 * b + j) s) init3
  | 0, _, h => by
    rw [scrAt3_first V c ⟨8 * b + 0, h⟩ (by show (8 * b + 0) % 8 = 0; omega)]
    show _ = stepN3 V c (8 * b + 0) init3
    rw [stepN3_lt V c _ h]
  | k + 1, hk, h => by
    rw [scrAt3_next V c ⟨8 * b + (k + 1), h⟩ (by show ¬(8 * b + (k + 1)) % 8 = 0; omega)]
    rw [List.range_succ, List.foldl_append, ← scrAt3_block c b k (by omega) (by omega)]
    show _ = stepN3 V c (8 * b + (k + 1)) _
    rw [stepN3_lt V c _ h]
    rfl

/-- At a last chunk the output's staging buffer is left at `fin3` of the update of the state the point before left. -/
theorem after3_6_last (c : Dev nD) (t : Fin cfg3.N) (h1 : t.val % 8 = 7) :
    (dat3 V c).after 6 t = fin3 (stepAt3 V c t (scrAt3 V c (t.val - 1) (Nat.lt_of_le_of_lt (Nat.sub_le _ _) t.isLt))) := by
  rw [after3_6, scrAt3_next V c t (by omega)]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the closed forms of the two conditions say which
    of the three control cases the point is in. At a first chunk the invariant hands the body the running buffers
    at anything (the reset overwrites them); elsewhere at the state the point before left. The body returns them at
    this point's state, which the invariant takes back. Off the last chunk the output's buffer is idle and passes
    through as found; at a last chunk it is overwritten with `fin3` of this point's state. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 512 := lt_of_lt_of_eq t.isLt (show cfg3.N = 512 from N_3)
  by_cases h0 : t.val % 8 = 0
  · have h1 : ¬t.val % 8 = 7 := by omega
    rw [Dat.leavesExact_idle (dat3 V c) 6 t (idleAt3_6 t (fun h => h1 ((hcond3_1 t).mp h))) (noFlush3_6 t (fun h => h1 ((hcond3_1 t).mp h)))]
    rw [scrAt3_first V c t h0]
    unfold stepAt3
    by_cases hz : t.val = 0
    · rw [PhiS3_castSucc V c t, PhiS3_zero V c _ _ hz]
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_first c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS3_castSucc V c t, PhiS3_pos V c _ _ hz]
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_first c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [scrAt3_next V c t h0]
    unfold stepAt3
    rw [PhiS3_castSucc V c t, PhiS3_pos V c _ _ hz]
    by_cases h1 : t.val % 8 = 7
    · rw [show (dat3 V c).leavesExact 6 t = owns (c : Thread nD τ) (st3_6 t) fullShare ((dat3 V c).after 6 t) from by
        unfold Dat.leavesExact; rw [liveAt3_6 t ((hcond3_1 t).mpr h1)], after3_6]
      rw [scrAt3_next V c t h0]
      unfold stepAt3
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_last c (grid3.coords t) _ _ _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat3 V c) 6 t (idleAt3_6 t (fun h => h1 ((hcond3_1 t).mp h))) (noFlush3_6 t (fun h => h1 ((hcond3_1 t).mp h)))]
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_mid c (grid3.coords t) _ _ _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## Into and out of the invariant -/

/-- The random-number register, the (empty) prefetched tables and the scoped rest make the invariant before the first
    point: the six running buffers are among the scoped rest, at some contents. -/
theorem hin3 (c : Dev nD) :
    (iprop((∃ r, prngReg c r) ∗ Pipeline.prefHeld (pcfgs (F := F) 3).pre c (fun _ => fullShare) ((cfgs 3).toPCfg_adm).1 ∗ Pipeline.scopedRest (pcfgs (F := F) 3).spec c) : sProp 𝕄)
      ⊢ (dat3 V c).Φ 0 := by
  rw [show (dat3 V c).Φ 0 = PhiS3 V c 0 (Nat.zero_le _) from rfl, PhiS3_zero V c 0 _ rfl]
  rw [show (Pipeline.scopedRest (Ix := Unit) (Name := ℕ) (U := UR sig nD τ) (Lvl := ℕ) (Val := Elt F) (pcfgs (F := F) 3).spec c : sProp 𝕄)
    = Pipeline.scopedRest (Ix := Unit) (Name := ℕ) (U := UR sig nD τ) (Lvl := ℕ) (Val := Elt F) spec3 c from rfl, scopedRest3_scr]
  iintro ⟨Hg, -, ⟨HS, Hr⟩⟩
  isplitl [HS]; · iexact HS
  isplitl [Hr]; · iexact Hr
  iexact Hg

/-- After the last point the invariant gives the random-number register and the scoped rest back: the running buffers'
    named contents are forgotten; the kernel has no semaphore of its own. -/
theorem hout3 (c : Dev nD) :
    (dat3 V c).Φ (Fin.last cfg3.N)
      ⊢ (iprop((∃ r, prngReg c r) ∗ Pipeline.ownSems0 (fun k : PEmpty => k.elim) c ∗ Pipeline.scopedRest (pcfgs (F := F) 3).spec c) : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 512 := N_3; omega)]
  rw [Pipeline.ownSems0_none]
  rw [show (Pipeline.scopedRest (Ix := Unit) (Name := ℕ) (U := UR sig nD τ) (Lvl := ℕ) (Val := Elt F) (pcfgs (F := F) 3).spec c : sProp 𝕄)
    = Pipeline.scopedRest (Ix := Unit) (Name := ℕ) (U := UR sig nD τ) (Lvl := ℕ) (Val := Elt F) spec3 c from rfl, scopedRest3_scr]
  iintro ⟨⟨HS0, HS1, HS2, HS3, HS4, HS5⟩, Hr, Hg⟩
  isplitl [Hg]; · iexact Hg
  isplitr; · iempintro
  isplitr [Hr]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hr

end Cert.Kernel.Hand

end
-- ==== Proof.K.Reg4.lean ====
/- Region 4 of the program: the product of the squared score differences (the fused region's output) with the
   values, head by head. The grid is 8 x 4, 32 points, point t = 4 h + i; at it the body reads the block of rows
   512 i .. 512 i + 511 of head h of the squared-difference array (bf16, window 0) and the whole 2048 x 2048 value
   matrix of head h (bf16, window 1, whose block index moves only when h does, so the pipeline fetches it at the
   points t ≡ 0 mod 4 only), and stores into the output block (f32, window 2) the product  d · v , the contraction
   of the last axis of d with the first axis of v, accumulated in f32 and stored unrounded.

   Everything is stated at a parameter V, the buffer contents when the region is entered, and for any float
   instance F. The body reads no output it has not written and its one store covers the output block, so what
   it leaves there is a closed function of the two input blocks. -/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 4: `cc4__av_kernel`, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first window's staging buffer holds the squared-difference block of the point when the body runs, for any proof data
    whose array is `V`'s and whose body leaves the block in place: the window is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The value window's staging buffer holds the value block of the point's head at every point, although it is
    fetched only where the head changes: where it is not fetched its block index is the previous point's, and the
    body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole of a 1 x 512 x 2048 block: the squared-difference load and the output store. -/
abbrev rBlk4 : Rect S1x512x2048 := Rect.unit (s := S1x512x2048) ![0, 0, 0] S1x512x2048.size inb_S1x512x2048_S1x512x2048_0_0_0
/-- The whole of the 1 x 2048 x 2048 value block. -/
abbrev rVal4 : Rect S1x2048x2048 := Rect.unit (s := S1x2048x2048) ![0, 0, 0] S1x2048x2048.size inb_S1x2048x2048_S1x2048x2048_0_0_0

/-! ## What the body leaves in the output window's buffer -/

/-- The output block after the body, from the squared-difference block and the value block: the one store's
    payload, the f32 product d · v, laid over the whole block. -/
def out4_2 (x0 : Vec F S1x512x2048 .bf16) (x1 : Vec F S1x2048x2048 .bf16) : Vec F S1x512x2048 .f32 :=
  View.canon [⟨rBlk4, k4_pay1 (View.ld x0 rBlk4) (View.ld x1 rVal4)⟩]

/-- The store's rectangle is the whole block, so it covers it. -/
theorem cover4_2 (p0 : Vec F S1x512x2048 .f32) (y : S1x512x2048.Idx) :
    ∃ pc ∈ ([⟨rBlk4, p0⟩] : List (View.Piece (Elt F) S1x512x2048 .f32)), y ∈ pc.1.set :=
  View.cover_of_tiled [⟨rBlk4, p0⟩] S1x512x2048.size (by rfl) y

/-! ## The body's triple -/

set_option maxHeartbeats 1000000 in
/-- The body on whole staging memrefs, the inputs' reading `x0` and `x1` and the output's holding anything, runs to
    a state where the inputs' read as before and the output's reads `out4_2 x0 x1`. -/
theorem sound_kernel4 (c : Dev nD) (E : Set ℕ) (i : grid4.Coords) (arg2 : Memref sig .tc .vmem S1x512x2048 .bf16) (harg2 : arg2.IsWhole) (arg3 : Memref sig .tc .vmem S1x2048x2048 .bf16) (harg3 : arg3.IsWhole) (arg4 : Memref sig .tc .vmem S1x512x2048 .f32) (harg4 : arg4.IsWhole)
    (x0 : Vec F S1x512x2048 .bf16) (x1 : Vec F S1x2048x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__av_kernel i arg2 harg2 arg3 harg3 arg4 harg4) K := by
  simp only [cc4__av_kernel_eq_skeleton]; unfold cc4__av_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region's pipeline on core `c`: the arrays as the region finds them; after the body at
    point `t` each input's buffer still at its block and the output's at `out4_2` of the two input blocks; the
    invariant is the scoped rest and the random-number register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of the whole program: seven items (the weight casts, three projection regions, five reshapes, the fused
  softmax region, the final product region) chained from the launch memory. At the end the result array holds what the
  last region's write-backs leave, and no item has written an argument.
-/
import proofs.«118165_j36936718746194_2_alg».proof.Proof.Gen.Kernel.Launch
import proofs.«118165_j36936718746194_2_alg».proof.Proof.Gen.Kernel.Skeleton
import proofs.«118165_j36936718746194_2_alg».proof.Proof.Gen.Kernel.Points
import proofs.«118165_j36936718746194_2_alg».proof.Proof.K.Fold
import proofs.«118165_j36936718746194_2_alg».proof.Proof.K.Reg3
import proofs.«118165_j36936718746194_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 3's exit: its arrays at what its write-backs leave, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- At region 4's exit: its arrays at what its write-backs leave, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ### The arguments end as launched: no host operation and no region writes one -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat2 (V3 m ρ) c).arrAt_in 0 rfl _).trans (A_eq2 (V3 m ρ) c 0))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

/-- No pallas_call of this program has a prefetched table. -/
abbrev adm : (p : Fin 5) → (pcfgs (F := F) p).Adm := fun p => (cfgs p).toPCfg_adm
/-- Every pipeline's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation of either stretch allocates a buffer. -/
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at the contents of boundary 1, left with them at
    boundary 2. Its windows' arrays are split out of the unscoped buffers on entry and put back, at what the
    write-backs leave, on exit; the random-number register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of boundary 2, left with them at
    boundary 3. Its windows' arrays are split out of the unscoped buffers on entry and put back, at what the
    write-backs leave, on exit; the random-number register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents of boundary 3, left with them at
    boundary 4. Its windows' arrays are split out of the unscoped buffers on entry and put back, at what the
    write-backs leave, on exit; the random-number register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents of boundary 5, left with them at
    boundary 6. Its windows' arrays are split out of the unscoped buffers on entry and put back, at what the
    write-backs leave, on exit; the random-number register goes into the region's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V5 m ρ) c
  hout c := hout3 (V5 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents of boundary 6, left with them at
    boundary 7. Its windows' arrays are split out of the unscoped buffers on entry and put back, at what the
    write-backs leave, on exit; the random-number register goes into the region's invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ),
    .host (hseg hostOps3 hostOps3_sub hostOps3_fresh' (W4 m ρ)),
    .region (reg3 m ρ), .region (reg4 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates without a fault, and
    in every final state each unscoped buffer of every core holds the last boundary's contents: in particular the result
    array holds what the last region's write-backs leave, and the eight arguments are as launched. -/
theorem run : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.Kernel.Hand

end
-- ==== Proof.KI.Reg0.lean ====
/- Region 0 of the program: a pair of projections sharing one x block. The grid has 64 points; at point t the body
   reads a block of 256 rows of x (f32, window 0) and two whole weight matrices (bf16, windows 1 and 2, whose
   block index is the same at every point, so the pipeline fetches each at the first point only), rounds the x
   block to bf16 once, and stores into the two output blocks (windows 3 and 4) the bf16 roundings of
   bf16(x) · W₁ᵀ  and  bf16(x) · W₂ᵀ , each a contraction over the last axis of both factors.

   Everything is stated at a parameter V, the buffer contents when the region is entered, and for any float
   instance F. The body reads no output it has not written and each of its two stores covers its output block,
   so what it leaves in an output block is a closed function of the input blocks. -/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 0: `cc0__proj_pair_kernel`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the x block of the point when the body runs, for any proof data whose
    array is `V`'s and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight window's staging buffer holds the weight block at every point, although it is fetched at the
    first point only: where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the second weight window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 256 x 2048 block: the x load and the two output stores. -/
abbrev rBlk0 : Rect S256x2048 := Rect.unit (s := S256x2048) ![0, 0] S256x2048.size inb_S256x2048_S256x2048_0_0
/-- The whole of a 2048 x 2048 weight block. -/
abbrev rWt0 : Rect S2048x2048 := Rect.unit (s := S2048x2048) ![0, 0] S2048x2048.size inb_S2048x2048_S2048x2048_0_0

/-! ## What the body leaves in each output window's buffer -/

/-- The first output block after the body, from the input blocks: its one store's payload,
    bf16( bf16(x) · W₁ᵀ ), laid over the whole block. The second weight block does not enter. -/
def out0_3 (x0 : Vec F S256x2048 .f32) (x1 : Vec F S2048x2048 .bf16) (x2 : Vec F S2048x2048 .bf16) : Vec F S256x2048 .bf16 :=
  View.canon [⟨rBlk0, k0_pay2 (View.ld x0 rBlk0) (View.ld x1 rWt0)⟩]

/-- The second output block after the body: bf16( bf16(x) · W₂ᵀ ) laid over the whole block. The first weight
    block does not enter. -/
def out0_4 (x0 : Vec F S256x2048 .f32) (x1 : Vec F S2048x2048 .bf16) (x2 : Vec F S2048x2048 .bf16) : Vec F S256x2048 .bf16 :=
  View.canon [⟨rBlk0, k0_pay3 (View.ld x0 rBlk0) (View.ld x2 rWt0)⟩]

/-- A store through the whole-block rectangle covers the block. -/
theorem cover0_3 (p0 : Vec F S256x2048 .bf16) (y : S256x2048.Idx) :
    ∃ pc ∈ ([⟨rBlk0, p0⟩] : List (View.Piece (Elt F) S256x2048 .bf16)), y ∈ pc.1.set :=
  View.cover_of_tiled [⟨rBlk0, p0⟩] S256x2048.size (by rfl) y

theorem cover0_4 (p0 : Vec F S256x2048 .bf16) (y : S256x2048.Idx) :
    ∃ pc ∈ ([⟨rBlk0, p0⟩] : List (View.Piece (Elt F) S256x2048 .bf16)), y ∈ pc.1.set :=
  View.cover_of_tiled [⟨rBlk0, p0⟩] S256x2048.size (by rfl) y

/-! ## The body's triple -/

set_option maxHeartbeats 1000000 in
/-- The body on whole staging memrefs, the inputs' reading `x0`, `x1`, `x2` and the outputs' holding anything, runs
    to a state where the inputs' read as before and the outputs' read `out0_3` and `out0_4` of the inputs. -/
theorem sound_kernel0 (c : Dev nD) (E : Set ℕ) (i : grid0.Coords) (arg1 : Memref sig .tc .vmem S256x2048 .f32) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S256x2048 .bf16) (harg4 : arg4.IsWhole) (arg5 : Memref sig .tc .vmem S256x2048 .bf16) (harg5 : arg5.IsWhole)
    (x0 : Vec F S256x2048 .f32) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__proj_pair_kernel i arg1 harg1 arg2 harg2 arg3 harg3 arg4 harg4 arg5 harg5) K := by
  simp only [cc0__proj_pair_kernel_eq_skeleton]; unfold cc0__proj_pair_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core `c`: the arrays as the region finds them; after the body at
    point `t` each input's buffer still at its block and each output's at its closed function of the input
    blocks; the invariant is the scoped rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of the program: a pair of projections sharing one x block. The grid has 64 points; at point t the body
   reads a block of 256 rows of x (f32, window 0) and two whole weight matrices (bf16, windows 1 and 2, whose
   block index is the same at every point, so the pipeline fetches each at the first point only), rounds the x
   block to bf16 once, and stores into the two output blocks (windows 3 and 4) the bf16 roundings of
   bf16(x) · W₁ᵀ  and  bf16(x) · W₂ᵀ , each a contraction over the last axis of both factors.

   Everything is stated at a parameter V, the buffer contents when the region is entered, and for any float
   instance F. The body reads no output it has not written and each of its two stores covers its output block,
   so what it leaves in an output block is a closed function of the input blocks. -/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 1: `cc1__proj_pair_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the x block of the point when the body runs, for any proof data whose
    array is `V`'s and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first weight window's staging buffer holds the weight block at every point, although it is fetched at the
    first point only: where it is not fetched its block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of the second weight window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 256 x 2048 block: the x load and the two output stores. -/
abbrev rBlk1 : Rect S256x2048 := Rect.unit (s := S256x2048) ![0, 0] S256x2048.size inb_S256x2048_S256x2048_0_0
/-- The whole of a 2048 x 2048 weight block. -/
abbrev rWt1 : Rect S2048x2048 := Rect.unit (s := S2048x2048) ![0, 0] S2048x2048.size inb_S2048x2048_S2048x2048_0_0

/-! ## What the body leaves in each output window's buffer -/

/-- The first output block after the body, from the input blocks: its one store's payload,
    bf16( bf16(x) · W₁ᵀ ), laid over the whole block. The second weight block does not enter. -/
def out1_3 (x0 : Vec F S256x2048 .f32) (x1 : Vec F S2048x2048 .bf16) (x2 : Vec F S2048x2048 .bf16) : Vec F S256x2048 .bf16 :=
  View.canon [⟨rBlk1, k1_pay2 (View.ld x0 rBlk1) (View.ld x1 rWt1)⟩]

/-- The second output block after the body: bf16( bf16(x) · W₂ᵀ ) laid over the whole block. The first weight
    block does not enter. -/
def out1_4 (x0 : Vec F S256x2048 .f32) (x1 : Vec F S2048x2048 .bf16) (x2 : Vec F S2048x2048 .bf16) : Vec F S256x2048 .bf16 :=
  View.canon [⟨rBlk1, k1_pay3 (View.ld x0 rBlk1) (View.ld x2 rWt1)⟩]

/-- A store through the whole-block rectangle covers the block. -/
theorem cover1_3 (p0 : Vec F S256x2048 .bf16) (y : S256x2048.Idx) :
    ∃ pc ∈ ([⟨rBlk1, p0⟩] : List (View.Piece (Elt F) S256x2048 .bf16)), y ∈ pc.1.set :=
  View.cover_of_tiled [⟨rBlk1, p0⟩] S256x2048.size (by rfl) y

theorem cover1_4 (p0 : Vec F S256x2048 .bf16) (y : S256x2048.Idx) :
    ∃ pc ∈ ([⟨rBlk1, p0⟩] : List (View.Piece (Elt F) S256x2048 .bf16)), y ∈ pc.1.set :=
  View.cover_of_tiled [⟨rBlk1, p0⟩] S256x2048.size (by rfl) y

/-! ## The body's triple -/

set_option maxHeartbeats 1000000 in
/-- The body on whole staging memrefs, the inputs' reading `x0`, `x1`, `x2` and the outputs' holding anything, runs
    to a state where the inputs' read as before and the outputs' read `out1_3` and `out1_4` of the inputs. -/
theorem sound_kernel1 (c : Dev nD) (E : Set ℕ) (i : grid1.Coords) (arg1 : Memref sig .tc .vmem S256x2048 .f32) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S256x2048 .bf16) (harg4 : arg4.IsWhole) (arg5 : Memref sig .tc .vmem S256x2048 .bf16) (harg5 : arg5.IsWhole)
    (x0 : Vec F S256x2048 .f32) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__proj_pair_kernel i arg1 harg1 arg2 harg2 arg3 harg3 arg4 harg4 arg5 harg5) K := by
  simp only [cc1__proj_pair_kernel_eq_skeleton]; unfold cc1__proj_pair_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of the region's pipeline on core `c`: the arrays as the region finds them; after the body at
    point `t` each input's buffer still at its block and each output's at its closed function of the input
    blocks; the invariant is the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of the program: the single projection. The grid has 32 points; at point t the body reads a block of
   512 rows of x (f32, window 0) and the whole weight matrix W (bf16, window 1, whose block index is the same at
   every point, so the pipeline fetches it at the first point only), and stores into the output block (window 2)
   the bf16 rounding of  bf16(x) · Wᵀ , the contraction over the last axis of both.

   Everything is stated at a parameter V, the buffer contents when the region is entered, and for any float
   instance F. The body reads no output it has not written and its one store covers the output block, so what
   it leaves there is a closed function of the two input blocks. -/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 2: `cc2__proj_single_kernel`, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's staging buffer holds the x block of the point when the body runs, for any proof data whose
    array is `V`'s and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight block at every point, although it is fetched at the first
    point only: where it is not fetched its block index has not moved, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a 512 x 2048 block: the x load and the output store. -/
abbrev rBlk2 : Rect S512x2048 := Rect.unit (s := S512x2048) ![0, 0] S512x2048.size inb_S512x2048_S512x2048_0_0
/-- The whole of the 2048 x 2048 weight block. -/
abbrev rWt2 : Rect S2048x2048 := Rect.unit (s := S2048x2048) ![0, 0] S2048x2048.size inb_S2048x2048_S2048x2048_0_0

/-! ## What the body leaves in the output window's buffer -/

/-- The output block after the body, from the x block and the weight block: the one store's payload,
    bf16( bf16(x) · Wᵀ ), laid over the whole block. -/
def out2_2 (x0 : Vec F S512x2048 .f32) (x1 : Vec F S2048x2048 .bf16) : Vec F S512x2048 .bf16 :=
  View.canon [⟨rBlk2, k2_pay1 (View.ld x0 rBlk2) (View.ld x1 rWt2)⟩]

/-- The store's rectangle is the whole block, so it covers it. -/
theorem cover2_2 (p0 : Vec F S512x2048 .bf16) (y : S512x2048.Idx) :
    ∃ pc ∈ ([⟨rBlk2, p0⟩] : List (View.Piece (Elt F) S512x2048 .bf16)), y ∈ pc.1.set :=
  View.cover_of_tiled [⟨rBlk2, p0⟩] S512x2048.size (by rfl) y

/-! ## The body's triple -/

set_option maxHeartbeats 1000000 in
/-- The body on whole staging memrefs, the inputs' reading `x0` and `x1` and the output's holding anything, runs to
    a state where the inputs' read as before and the output's reads `out2_2 x0 x1`. -/
theorem sound_kernel2 (c : Dev nD) (E : Set ℕ) (i : grid2.Coords) (arg1 : Memref sig .tc .vmem S512x2048 .f32) (harg1 : arg1.IsWhole) (arg2 : Memref sig .tc .vmem S2048x2048 .bf16) (harg2 : arg2.IsWhole) (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_single_kernel i arg1 harg1 arg2 harg2 arg3 harg3) K := by
  simp only [cc2__proj_single_kernel_eq_skeleton]; unfold cc2__proj_single_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them; after the body at
    point `t` each input's buffer still at its block and the output's at `out2_2` of the two input blocks; the
    invariant is the scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/-
  The contents of every unscoped buffer of a core at the boundaries between the first five items of the program: at
  launch, after the seven weight casts, after each of the three projection regions (a region leaves its windows' arrays
  at what its write-backs made of them and every other buffer as it was), and after the five reshapes that precede the
  fused region.
-/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import proofs.«118165_j36936718746194_2_alg».proof.Proof.KI.Reg0
import proofs.«118165_j36936718746194_2_alg».proof.Proof.KI.Reg1
import proofs.«118165_j36936718746194_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffer contents at each boundary between two items of the program, a fold from the launch memory -/

/-- Core `c`'s buffers at launch. -/
abbrev W0 : Dev nD → Valuation τ sig (Elt F) := fun c b => (s₀ m ρ).mem ((c : Dev nD), b)
/-- After the seven weight casts (the entry of the first projection). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what its write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the five reshapes to [8, 2048, 2048] (the entry of the fused region). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

end Cert.KernelIdeal.Hand

end
-- ==== Proof.KI.Scr3.lean ====
/-
  The state the fused softmax region carries from one grid point to the next, as values: the six running buffers, the
  state the reset writes, the 256 weight columns a chunk multiplies, one chunk's update of the state, and the output
  block computed from the final state.
-/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The carried state and one step of the two online softmaxes -/

/-- The six running buffers: for each of the two softmaxes the running row maximum `m`, the running row sum `l`
    of exponentials and the running accumulator `a` of the exponentials against the weight's column slice. -/
structure Scr (F : FTy → Type) where
  m1 : Vec F S256x1 .f32
  l1 : Vec F S256x1 .f32
  a1 : Vec F S256x2048 .f32
  m2 : Vec F S256x1 .f32
  l2 : Vec F S256x1 .f32
  a2 : Vec F S256x2048 .f32

/-- The state the reset branch writes: maxima at −∞, sums and accumulators at 0. -/
def init3 : Scr F := ⟨k3_pay5, k3_pay6, k3_pay7, k3_pay8, k3_pay9, k3_pay10⟩

/-- The 256 columns of a 2048×2048 weight that chunk `i 2` multiplies: columns `256·(i 2)` onwards. -/
def wcol (i : grid3.Coords) (x : Vec F S2048x2048 .bf16) : Vec F S2048x256 .bf16 :=
  View.ld x (Rect.unit (s := S2048x2048) (k3_off1 i) S2048x256.size (k3_off1_inb i))

/-- One chunk's update of the running state from the two query blocks `x0`, `x1`, the two key chunks `x2`, `x3`
    and the two weights `x4`, `x5`: with `s = q·kᵀ·scale` the chunk's scores, the new maximum is `max m (rowmax s)`,
    the old sum and accumulator are rescaled by `exp (m − m')` and the chunk adds `rowsum (exp (s − m'))`, resp.
    `exp (s − m')` (rounded to bf16) times the weight's column slice. -/
def step3 (i : grid3.Coords) (x0 x1 x2 x3 : Vec F S1x256x2048 .bf16) (x4 x5 : Vec F S2048x2048 .bf16) (s : Scr F) : Scr F where
  m1 := k3_pay21 (k3_pay16 x0 x2 s.m1)
  l1 := k3_pay19 (k3_pay17 x0 x2 s.m1 s.m1) (k3_pay18 x0 x2 s.m1) s.l1
  a1 := k3_pay20 (k3_pay13 (wcol i x4)) (k3_pay17 x0 x2 s.m1 s.m1) (k3_pay18 x0 x2 s.m1) s.a1
  m2 := k3_pay3 (k3_pay23 (k3_pay11 x1) (k3_pay12 x3) s.m2)
  l2 := k3_pay1 (k3_pay25 (k3_pay11 x1) (k3_pay12 x3) s.m2) (k3_pay26 (k3_pay11 x1) (k3_pay12 x3) s.m2 s.m2 s.l2)
  a2 := k3_pay2 (k3_pay14 (wcol i x5)) (k3_pay24 (k3_pay11 x1) (k3_pay12 x3) s.m2 s.m2) (k3_pay25 (k3_pay11 x1) (k3_pay12 x3) s.m2) s.a2

/-- The output block the last chunk writes from the final state: `(a1 / l1 − a2 / l2)²`, rounded to bf16. -/
def fin3 (s : Scr F) : Vec F S1x256x2048 .bf16 := k3_pay4 s.a1 s.l1 s.a2 s.l2

end Cert.KernelIdeal.Hand

end
-- ==== Proof.KI.Reg3a.lean ====
/- Region 3 (the fused dual online-softmax kernel): the branch conditions in closed form and the body's run at a
   middle chunk, over the carried state and its one-chunk update. -/
import proofs.«118165_j36936718746194_2_alg».proof.Proof.KI.Scr3
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions in closed form -/

/-- The condition of the reset branch, from the grid coordinates: the chunk index (the last grid coordinate) is 0. -/
abbrev cond3_0 (i : grid3.Coords) : Prop := (Scalar.cmpi .ne (Scalar.extui (Scalar.cmpi .eq (BitVec.ofNat 32 (i 2).val) 0#32)) 0#32) = 1#1
/-- It holds exactly at the points whose position is 0 modulo 8 (the chunk axis is the fastest, of extent 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- The condition of the output branch: the chunk index is 7. -/
abbrev cond3_1 (i : grid3.Coords) : Prop := k3_cond2 i = 1#1
/-- It holds exactly at the points whose position is 7 modulo 8. -/
theorem hcond3_1 : ∀ t : Fin cfg3.N, cond3_1 (grid3.coords t) ↔ t.val % 8 = 7 :=
  (by decide +kernel : ∀ t : Fin grid3.N, cond3_1 (grid3.coords t) ↔ t.val % 8 = 7)

/-- The zero offsets of a rank-2 and of a rank-3 whole-buffer access, as constant functions. -/
theorem hz2 : (![0, 0] : Fin 2 → ℕ) = fun _ => 0 := by funext a; fin_cases a <;> rfl
theorem hz3 : (![0, 0, 0] : Fin 3 → ℕ) = fun _ => 0 := by funext a; fin_cases a <;> rfl

/-! ## The body at a middle chunk -/

set_option maxHeartbeats 4000000 in
/-- THE BODY AT A MIDDLE CHUNK (neither branch taken). On whole memrefs — the six inputs at their blocks, the output's
    staging buffer at anything `xi6`, the six running buffers at a state `s` — the kernel runs to the continuation
    holding the inputs and the output's buffer as they were and the running buffers at `step3 … s`: each running
    buffer is overwritten whole by one store whose payload reads the state before it. -/
theorem sound_kernel3_mid (c : Dev nD) (i : grid3.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x256x2048 .bf16) (harg9 : arg9.IsWhole) (arg10 : Memref sig .tc .vmem S256x1 .f32) (harg10 : arg10.IsWhole) (arg11 : Memref sig .tc .vmem S256x1 .f32) (harg11 : arg11.IsWhole) (arg12 : Memref sig .tc .vmem S256x2048 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x2048 .f32) (harg15 : arg15.IsWhole) (hc0 : ¬cond3_0 i) (hc1 : ¬cond3_1 i)
    (x0 x1 x2 x3 : Vec F S1x256x2048 .bf16) (x4 x5 : Vec F S2048x2048 .bf16) (xi6 : Vec F S1x256x2048 .bf16)
    (s : Scr F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ owns (c : Thread nD τ) arg10 fullShare (s).m1 ∗ owns (c : Thread nD τ) arg11 fullShare (s).l1 ∗ owns (c : Thread nD τ) arg12 fullShare (s).a1
        ∗ owns (c : Thread nD τ) arg13 fullShare (s).m2 ∗ owns (c : Thread nD τ) arg14 fullShare (s).l2 ∗ owns (c : Thread nD τ) arg15 fullShare (s).a2
        ∗ (iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ owns (c : Thread nD τ) arg10 fullShare (step3 i x0 x1 x2 x3 x4 x5 s).m1 ∗ owns (c : Thread nD τ) arg11 fullShare (step3 i x0 x1 x2 x3 x4 x5 s).l1 ∗ owns (c : Thread nD τ) arg12 fullShare (step3 i x0 x1 x2 x3 x4 x5 s).a1
        ∗ owns (c : Thread nD τ) arg13 fullShare (step3 i x0 x1 x2 x3 x4 x5 s).m2 ∗ owns (c : Thread nD τ) arg14 fullShare (step3 i x0 x1 x2 x3 x4 x5 s).l2 ∗ owns (c : Thread nD τ) arg15 fullShare (step3 i x0 x1 x2 x3 x4 x5 s).a2) -∗ K ⟨⟩))
      ⊢ wp frame (wpE (defs₀ (F := F)) Variants.none c none) E (cc3__fused_kernel i arg3 harg3 arg4 harg4 arg5 harg5 arg6 harg6 arg7 harg7 arg8 harg8 arg9 harg9 arg10 harg10 arg11 harg11 arg12 harg12 arg13 harg13 arg14 harg14 arg15 harg15) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  obtain rfl := harg10.eq_unread hfs0; obtain rfl := harg11.eq_unread hfs1; obtain rfl := harg12.eq_unread hfs2
  obtain rfl := harg13.eq_unread hfs3; obtain rfl := harg14.eq_unread hfs4; obtain rfl := harg15.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HS0]
  · iexists _; isplitr
    swap; · iexact HS0
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg3.read_unread, harg5.read_unread, harg10.read_unread, View.ld_unit_zero (S := S256x1) hz2, View.ld_unit_zero (S := S256x2048) hz2, View.ld_unit_zero (S := S1x256x2048) hz3]
    rfl
  isplitl [HS1]
  · iexists _; isplitr
    swap; · iexact HS1
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg3.read_unread, harg5.read_unread, harg10.read_unread, harg11.read_unread, View.ld_unit_zero (S := S256x1) hz2, View.ld_unit_zero (S := S256x2048) hz2, View.ld_unit_zero (S := S1x256x2048) hz3]
    rfl
  isplitl [HS2]
  · iexists _; isplitr
    swap; · iexact HS2
    ipureintro
    rw [View.read_writes_eq_canon _ _ _ (fun y => ⟨_, List.mem_singleton_self _, View.mem_set_unit_zero hz2 inb_S256x2048_S256x2048_0_0 y⟩), View.canon_unit_zero hz2]
    sl_unfold_run_names
    simp only [View.readAt_eq_ld, harg3.read_unread, harg5.read_unread, harg7.read_unread, harg10.read_unread, harg12.read_unread, View.ld_unit_zero (S := S256x1) hz2, View.ld_unit_zero (S := S256x2048) hz2, View.ld_unit_zero (S := S1x256x2048) hz3]
    rfl
  isplitl [HS3]
  · iexists _; isplitr
    swap; · iexact HS3
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg4.read_unread, harg6.read_unread, harg13.read_unread, View.ld_unit_zero (S := S256x1) hz2, View.ld_unit_zero (S := S256x2048) hz2, View.ld_unit_zero (S := S1x256x2048) hz3]
    rfl
  isplitl [HS4]
  · iexists _; isplitr
    swap; · iexact HS4
    ipureintro
    rw [View.read_writes_eq_canon _ _ _ (fun y => ⟨_, List.mem_singleton_self _, View.mem_set_unit_zero hz2 inb_S256x1_S256x1_0_0 y⟩), View.canon_unit_zero hz2]
    sl_unfold_run_names
    simp only [View.readAt_eq_ld, harg4.read_unread, harg6.read_unread, harg13.read_unread, harg14.read_unread, View.ld_unit_zero (S := S256x1) hz2, View.ld_unit_zero (S := S256x2048) hz2, View.ld_unit_zero (S := S1x256x2048) hz3]
    rfl
  · iexists _; isplitr
    swap; · iexact HS5
    ipureintro
    rw [View.read_writes_eq_canon _ _ _ (fun y => ⟨_, List.mem_singleton_self _, View.mem_set_unit_zero hz2 inb_S256x2048_S256x2048_0_0 y⟩), View.canon_unit_zero hz2]
    sl_unfold_run_names
    simp only [View.readAt_eq_ld, harg4.read_unread, harg6.read_unread, harg8.read_unread, harg13.read_unread, harg15.read_unread, View.ld_unit_zero (S := S256x1) hz2, View.ld_unit_zero (S := S256x2048) hz2, View.ld_unit_zero (S := S1x256x2048) hz3]
    rfl

end Cert.KernelIdeal.Hand

end
-- ==== Proof.KI.Reg3b.lean ====
/- Region 3: the body's run at a first chunk (the reset branch taken). -/
import proofs.«118165_j36936718746194_2_alg».proof.Proof.KI.Reg3a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a first chunk -/

set_option maxHeartbeats 4000000 in
/-- THE BODY AT A FIRST CHUNK (the reset branch taken, the output branch not). The six running buffers may hold
    anything: the reset overwrites each whole before anything reads it, so the run leaves them at `step3 … init3`;
    the inputs and the output's staging buffer are left as they were. -/
theorem sound_kernel3_first (c : Dev nD) (i : grid3.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x256x2048 .bf16) (harg9 : arg9.IsWhole) (arg10 : Memref sig .tc .vmem S256x1 .f32) (harg10 : arg10.IsWhole) (arg11 : Memref sig .tc .vmem S256x1 .f32) (harg11 : arg11.IsWhole) (arg12 : Memref sig .tc .vmem S256x2048 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x2048 .f32) (harg15 : arg15.IsWhole) (hc0 : cond3_0 i) (hc1 : ¬cond3_1 i)
    (x0 x1 x2 x3 : Vec F S1x256x2048 .bf16) (x4 x5 : Vec F S2048x2048 .bf16) (xi6 : Vec F S1x256x2048 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare xi6
        ∗ owns (c : Thread nD τ) arg10 fullShare (step3 i x0 x1 x2 x3 x4 x5 init3).m1 ∗ owns (c : Thread nD τ) arg11 fullShare (step3 i x0 x1 x2 x3 x4 x5 init3).l1 ∗ owns (c : Thread nD τ) arg12 fullShare (step3 i x0 x1 x2 x3 x4 x5 init3).a1
        ∗ owns (c : Thread nD τ) arg13 fullShare (step3 i x0 x1 x2 x3 x4 x5 init3).m2 ∗ owns (c : Thread nD τ) arg14 fullShare (step3 i x0 x1 x2 x3 x4 x5 init3).l2 ∗ owns (c : Thread nD τ) arg15 fullShare (step3 i x0 x1 x2 x3 x4 x5 init3).a2) -∗ K ⟨⟩))
      ⊢ wp frame (wpE (defs₀ (F := F)) Variants.none c none) E (cc3__fused_kernel i arg3 harg3 arg4 harg4 arg5 harg5 arg6 harg6 arg7 harg7 arg8 harg8 arg9 harg9 arg10 harg10 arg11 harg11 arg12 harg12 arg13 harg13 arg14 harg14 arg15 harg15) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HS0]
  · iexists _; isplitr
    swap; · iexact HS0
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg3.read_unread, harg5.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS1]
  · iexists _; isplitr
    swap; · iexact HS1
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg3.read_unread, harg5.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS2]
  · iexists _; isplitr
    swap; · iexact HS2
    ipureintro
    sl_unfold_run_names
    rw [View.read_writes_eq_canon _ _ _ (fun y => ⟨_, List.mem_cons.mpr (Or.inl rfl), View.mem_set_unit_zero hz2 inb_S256x2048_S256x2048_0_0 y⟩), View.canon_cons_unit_zero hz2]
    simp only [View.readAt_eq_ld, harg3.read_unread, harg5.read_unread, harg7.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS3]
  · iexists _; isplitr
    swap; · iexact HS3
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg4.read_unread, harg6.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS4]
  · iexists _; isplitr
    swap; · iexact HS4
    ipureintro
    sl_unfold_run_names
    rw [View.read_writes_eq_canon _ _ _ (fun y => ⟨_, List.mem_cons.mpr (Or.inl rfl), View.mem_set_unit_zero hz2 inb_S256x1_S256x1_0_0 y⟩), View.canon_cons_unit_zero hz2]
    simp only [View.readAt_eq_ld, harg4.read_unread, harg6.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  · iexists _; isplitr
    swap; · iexact HS5
    ipureintro
    sl_unfold_run_names
    rw [View.read_writes_eq_canon _ _ _ (fun y => ⟨_, List.mem_cons.mpr (Or.inl rfl), View.mem_set_unit_zero hz2 inb_S256x2048_S256x2048_0_0 y⟩), View.canon_cons_unit_zero hz2]
    simp only [View.readAt_eq_ld, harg4.read_unread, harg6.read_unread, harg8.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl

end Cert.KernelIdeal.Hand

end
-- ==== Proof.KI.Reg3c.lean ====
/- Region 3: the body's run at a last chunk (the output branch taken). -/
import proofs.«118165_j36936718746194_2_alg».proof.Proof.KI.Reg3a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a last chunk -/

set_option maxHeartbeats 4000000 in
/-- THE BODY AT A LAST CHUNK (the output branch taken, the reset branch not). The running buffers go from `s` to
    `step3 … s` as at a middle chunk; the output branch then reads them back and overwrites the output's staging
    buffer whole, whatever it held, with `fin3 (step3 … s)`. -/
theorem sound_kernel3_last (c : Dev nD) (i : grid3.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x256x2048 .bf16) (harg9 : arg9.IsWhole) (arg10 : Memref sig .tc .vmem S256x1 .f32) (harg10 : arg10.IsWhole) (arg11 : Memref sig .tc .vmem S256x1 .f32) (harg11 : arg11.IsWhole) (arg12 : Memref sig .tc .vmem S256x2048 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x2048 .f32) (harg15 : arg15.IsWhole) (hc0 : ¬cond3_0 i) (hc1 : cond3_1 i)
    (x0 x1 x2 x3 : Vec F S1x256x2048 .bf16) (x4 x5 : Vec F S2048x2048 .bf16)
    (s : Scr F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ (∃ d, owns (c : Thread nD τ) arg9 fullShare d)
        ∗ owns (c : Thread nD τ) arg10 fullShare (s).m1 ∗ owns (c : Thread nD τ) arg11 fullShare (s).l1 ∗ owns (c : Thread nD τ) arg12 fullShare (s).a1
        ∗ owns (c : Thread nD τ) arg13 fullShare (s).m2 ∗ owns (c : Thread nD τ) arg14 fullShare (s).l2 ∗ owns (c : Thread nD τ) arg15 fullShare (s).a2
        ∗ (iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare (fin3 (step3 i x0 x1 x2 x3 x4 x5 s))
        ∗ owns (c : Thread nD τ) arg10 fullShare (step3 i x0 x1 x2 x3 x4 x5 s).m1 ∗ owns (c : Thread nD τ) arg11 fullShare (step3 i x0 x1 x2 x3 x4 x5 s).l1 ∗ owns (c : Thread nD τ) arg12 fullShare (step3 i x0 x1 x2 x3 x4 x5 s).a1
        ∗ owns (c : Thread nD τ) arg13 fullShare (step3 i x0 x1 x2 x3 x4 x5 s).m2 ∗ owns (c : Thread nD τ) arg14 fullShare (step3 i x0 x1 x2 x3 x4 x5 s).l2 ∗ owns (c : Thread nD τ) arg15 fullShare (step3 i x0 x1 x2 x3 x4 x5 s).a2) -∗ K ⟨⟩))
      ⊢ wp frame (wpE (defs₀ (F := F)) Variants.none c none) E (cc3__fused_kernel i arg3 harg3 arg4 harg4 arg5 harg5 arg6 harg6 arg7 harg7 arg8 harg8 arg9 harg9 arg10 harg10 arg11 harg11 arg12 harg12 arg13 harg13 arg14 harg14 arg15 harg15) K := by
  simp only [cc3__fused_kernel_eq_skeleton]; unfold cc3__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg10.eq_unread hfs0; obtain rfl := harg11.eq_unread hfs1; obtain rfl := harg12.eq_unread hfs2
  obtain rfl := harg13.eq_unread hfs3; obtain rfl := harg14.eq_unread hfs4; obtain rfl := harg15.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    sl_unfold_run_names
    rw [View.read_writes_eq_canon _ _ _ (fun y => ⟨_, List.mem_singleton_self _, View.mem_set_unit_zero hz3 inb_S1x256x2048_S1x256x2048_0_0_0 y⟩), View.canon_unit_zero hz3]
    simp only [View.readAt_eq_ld, harg3.read_unread, harg4.read_unread, harg5.read_unread, harg6.read_unread, harg7.read_unread, harg8.read_unread, harg10.read_unread, harg11.read_unread, harg12.read_unread, harg13.read_unread, harg14.read_unread, harg15.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS0]
  · iexists _; isplitr
    swap; · iexact HS0
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg3.read_unread, harg5.read_unread, harg10.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS1]
  · iexists _; isplitr
    swap; · iexact HS1
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg3.read_unread, harg5.read_unread, harg10.read_unread, harg11.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS2]
  · iexists _; isplitr
    swap; · iexact HS2
    ipureintro
    sl_unfold_run_names
    rw [View.read_writes_eq_canon _ _ _ (fun y => ⟨_, List.mem_singleton_self _, View.mem_set_unit_zero hz2 inb_S256x2048_S256x2048_0_0 y⟩), View.canon_unit_zero hz2]
    simp only [View.readAt_eq_ld, harg3.read_unread, harg5.read_unread, harg7.read_unread, harg10.read_unread, harg12.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS3]
  · iexists _; isplitr
    swap; · iexact HS3
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg4.read_unread, harg6.read_unread, harg13.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  isplitl [HS4]
  · iexists _; isplitr
    swap; · iexact HS4
    ipureintro
    sl_unfold_run_names
    rw [View.read_writes_eq_canon _ _ _ (fun y => ⟨_, List.mem_singleton_self _, View.mem_set_unit_zero hz2 inb_S256x1_S256x1_0_0 y⟩), View.canon_unit_zero hz2]
    simp only [View.readAt_eq_ld, harg4.read_unread, harg6.read_unread, harg13.read_unread, harg14.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl
  · iexists _; isplitr
    swap; · iexact HS5
    ipureintro
    sl_unfold_run_names
    rw [View.read_writes_eq_canon _ _ _ (fun y => ⟨_, List.mem_singleton_self _, View.mem_set_unit_zero hz2 inb_S256x2048_S256x2048_0_0 y⟩), View.canon_unit_zero hz2]
    simp only [View.readAt_eq_ld, harg4.read_unread, harg6.read_unread, harg8.read_unread, harg13.read_unread, harg15.read_unread, View.ld_unit_zero (S := S256x1) hz2, View.ld_unit_zero (S := S256x2048) hz2, View.ld_unit_zero (S := S1x256x2048) hz3, View.readCov_unit_zero (S := S256x1) (h := hz2), View.readCov_unit_zero (S := S256x2048) (h := hz2)]
    rfl

end Cert.KernelIdeal.Hand

end
-- ==== Proof.KI.Reg3.lean ====
/- Region 3 (the fused dual online-softmax kernel): the running state point by point, the region invariant carrying
   the six running buffers, the proof data, the body obligation at every point, and the passage into and out of the
   invariant. -/
import proofs.«118165_j36936718746194_2_alg».proof.Proof.KI.Reg3b
import proofs.«118165_j36936718746194_2_alg».proof.Proof.KI.Reg3c
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved since the fetch), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved since the fetch), for any proof data whose array is `V`'s and whose body leaves the block
    in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved since the fetch), for any proof data whose array is `V`'s and whose body leaves the block
    in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved since the fetch), for any proof data whose array is `V`'s and whose body leaves the block
    in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the
    block index has not moved since the fetch), for any proof data whose array is `V`'s and whose body leaves the block
    in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the
    block index has not moved since the fetch), for any proof data whose array is `V`'s and whose body leaves the block
    in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- Off the last chunk the output window is idle: the body stores nothing into it, -/
theorem idleAt3_6 : ∀ t : Fin cfg3.N, ¬cond3_1 (grid3.coords t) → cfg3.idle 6 (grid3.coords t) = true := by decide +kernel
/-- and the pipeline does not write its block back. -/
theorem noFlush3_6 : ∀ t : Fin cfg3.N, ¬cond3_1 (grid3.coords t) → (cfg3.win 6).flush t = false := by decide +kernel
/-- At a last chunk the output window is live. -/
theorem liveAt3_6 : ∀ t : Fin cfg3.N, cond3_1 (grid3.coords t) → cfg3.idle 6 (grid3.coords t) = false := by decide +kernel

/-! ## The running state after each point -/

/-- One chunk's update at point `t`: `step3` at the point's coordinates and input blocks. -/
def stepAt3 (c : Dev nD) (t : Fin cfg3.N) (s : Scr F) : Scr F :=
  step3 (grid3.coords t) (iblk3 V c 0 t) (iblk3 V c 1 t) (iblk3 V c 2 t) (iblk3 V c 3 t) (iblk3 V c 4 t) (iblk3 V c 5 t) s

/-- THE RECURRENCE. The running state after the body at position `n`: at a first chunk (position 0 modulo 8) the
    update of the reset state, elsewhere the update of the state the point before left. -/
def scrAt3 (c : Dev nD) : (n : ℕ) → n < cfg3.N → Scr F
  | 0, hn => stepAt3 V c ⟨0, hn⟩ init3
  | n + 1, hn =>
    if (n + 1) % 8 = 0 then stepAt3 V c ⟨n + 1, hn⟩ init3
    else stepAt3 V c ⟨n + 1, hn⟩ (scrAt3 c n (Nat.lt_of_succ_lt hn))

/-- At a first chunk: the update of the reset state. -/
theorem scrAt3_first (c : Dev nD) (t : Fin cfg3.N) (h0 : t.val % 8 = 0) :
    scrAt3 V c t.val t.isLt = stepAt3 V c t init3 := by
  obtain ⟨n, hn⟩ := t
  cases n with
  | zero => rfl
  | succ n => exact (if_pos h0).trans rfl

/-- At any other chunk: the update of what the point before left. -/
theorem scrAt3_next (c : Dev nD) (t : Fin cfg3.N) (h0 : ¬t.val % 8 = 0) :
    scrAt3 V c t.val t.isLt = stepAt3 V c t (scrAt3 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region invariant -/

/-- The six running buffers as whole memrefs, as the pipeline passes them to the body. -/
abbrev scM3_0 : Memref sig .tc .vmem S256x1 .f32 := Memref.whole cc3_scratch0
abbrev scM3_1 : Memref sig .tc .vmem S256x1 .f32 := Memref.whole cc3_scratch1
abbrev scM3_2 : Memref sig .tc .vmem S256x2048 .f32 := Memref.whole cc3_scratch2
abbrev scM3_3 : Memref sig .tc .vmem S256x1 .f32 := Memref.whole cc3_scratch3
abbrev scM3_4 : Memref sig .tc .vmem S256x1 .f32 := Memref.whole cc3_scratch4
abbrev scM3_5 : Memref sig .tc .vmem S256x2048 .f32 := Memref.whole cc3_scratch5

/-- The scoped buffers of the core other than the staging buffers and the six running buffers, at some contents. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2, cc3_scratch3, cc3_scratch4, cc3_scratch5]

/-- The scoped rest with the six running buffers as memrefs owned at some contents. -/
theorem scopedRest3_scr (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ restBut3 c) := by
  rw [scopedRest3_split]; simp only [scM3_0, scM3_1, scM3_2, scM3_3, scM3_4, scM3_5, owns_whole]; try rfl

/-- The region invariant before position `n`: before the first point the six running buffers at anything; afterwards
    at the state the point before left (`scrAt3`); beside them, always, the other scoped buffers at some contents and
    the random-number register at some state. -/
def PhiS3 (c : Dev nD) : (n : ℕ) → n ≤ cfg3.N → sProp 𝕄
  | 0, _ => iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ restBut3 c ∗ (∃ r, prngReg c r))
  | n + 1, hn => iprop(iprop(owns (c : Thread nD τ) scM3_0 fullShare (scrAt3 V c n hn).m1 ∗ owns (c : Thread nD τ) scM3_1 fullShare (scrAt3 V c n hn).l1 ∗ owns (c : Thread nD τ) scM3_2 fullShare (scrAt3 V c n hn).a1 ∗ owns (c : Thread nD τ) scM3_3 fullShare (scrAt3 V c n hn).m2 ∗ owns (c : Thread nD τ) scM3_4 fullShare (scrAt3 V c n hn).l2 ∗ owns (c : Thread nD τ) scM3_5 fullShare (scrAt3 V c n hn).a2) ∗ restBut3 c ∗ (∃ r, prngReg c r))

theorem PhiS3_zero (c : Dev nD) (n : ℕ) (h : n ≤ cfg3.N) (hz : n = 0) :
    PhiS3 V c n h = iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d)) ∗ restBut3 c ∗ (∃ r, prngReg c r)) := by
  subst hz; rfl

theorem PhiS3_succ (c : Dev nD) (n : ℕ) (hn : n < cfg3.N) :
    PhiS3 V c (n + 1) hn = iprop(iprop(owns (c : Thread nD τ) scM3_0 fullShare (scrAt3 V c n hn).m1 ∗ owns (c : Thread nD τ) scM3_1 fullShare (scrAt3 V c n hn).l1 ∗ owns (c : Thread nD τ) scM3_2 fullShare (scrAt3 V c n hn).a1 ∗ owns (c : Thread nD τ) scM3_3 fullShare (scrAt3 V c n hn).m2 ∗ owns (c : Thread nD τ) scM3_4 fullShare (scrAt3 V c n hn).l2 ∗ owns (c : Thread nD τ) scM3_5 fullShare (scrAt3 V c n hn).a2) ∗ restBut3 c ∗ (∃ r, prngReg c r)) := rfl

theorem PhiS3_pos (c : Dev nD) (n : ℕ) (h : n ≤ cfg3.N) (hz : n ≠ 0) :
    PhiS3 V c n h = iprop(iprop(owns (c : Thread nD τ) scM3_0 fullShare (scrAt3 V c (n - 1) (by omega)).m1 ∗ owns (c : Thread nD τ) scM3_1 fullShare (scrAt3 V c (n - 1) (by omega)).l1 ∗ owns (c : Thread nD τ) scM3_2 fullShare (scrAt3 V c (n - 1) (by omega)).a1 ∗ owns (c : Thread nD τ) scM3_3 fullShare (scrAt3 V c (n - 1) (by omega)).m2 ∗ owns (c : Thread nD τ) scM3_4 fullShare (scrAt3 V c (n - 1) (by omega)).l2 ∗ owns (c : Thread nD τ) scM3_5 fullShare (scrAt3 V c (n - 1) (by omega)).a2) ∗ restBut3 c ∗ (∃ r, prngReg c r)) := by
  cases n with
  | zero => exact absurd rfl hz
  | succ n => rfl

/-! ## The proof data -/

/-- The proof data of the region on core `c`: the arrays as the region finds them (`V`); after the body at point `t`
    each input's buffer at its block and the output's at `fin3` of the running state there (read only at the last
    chunks, where the block is written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => fin3 (scrAt3 V c t.val t.isLt)
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = fin3 (scrAt3 V c t.val t.isLt) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The running state within one block of eight chunks -/

/-- The update at position `n`, when `n` is a point of the grid (else nothing). -/
def stepN3 (c : Dev nD) (n : ℕ) (s : Scr F) : Scr F :=
  if h : n < cfg3.N then stepAt3 V c ⟨n, h⟩ s else s

theorem stepN3_lt (c : Dev nD) (n : ℕ) (h : n < cfg3.N) (s : Scr F) : stepN3 V c n s = stepAt3 V c ⟨n, h⟩ s := dif_pos h

/-- The running state at chunk `k` of the block of eight chunks starting at position `8·b`: the reset state
    updated by the chunks `0, …, k` of the block, in order. -/
theorem scrAt3_block (c : Dev nD) (b : ℕ) : ∀ (k : ℕ) (hk : k < 8) (h : 8 * b + k < cfg3.N),
    scrAt3 V c (8 * b + k) h = (List.range (k + 1)).foldl (fun s j => stepN3 V c (8 * b + j) s) init3
  | 0, _, h => by
    rw [scrAt3_first V c ⟨8 * b + 0, h⟩ (by show (8 * b + 0) % 8 = 0; omega)]
    show _ = stepN3 V c (8 * b + 0) init3
    rw [stepN3_lt V c _ h]
  | k + 1, hk, h => by
    rw [scrAt3_next V c ⟨8 * b + (k + 1), h⟩ (by show ¬(8 * b + (k + 1)) % 8 = 0; omega)]
    rw [List.range_succ, List.foldl_append, ← scrAt3_block c b k (by omega) (by omega)]
    show _ = stepN3 V c (8 * b + (k + 1)) _
    rw [stepN3_lt V c _ h]
    rfl

/-- At a last chunk the output's staging buffer is left at `fin3` of the update of the state the point before left. -/
theorem after3_6_last (c : Dev nD) (t : Fin cfg3.N) (h1 : t.val % 8 = 7) :
    (dat3 V c).after 6 t = fin3 (stepAt3 V c t (scrAt3 V c (t.val - 1) (Nat.lt_of_le_of_lt (Nat.sub_le _ _) t.isLt))) := by
  rw [after3_6, scrAt3_next V c t (by omega)]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the closed forms of the two conditions say which
    of the three control cases the point is in. At a first chunk the invariant hands the body the running buffers
    at anything (the reset overwrites them); elsewhere at the state the point before left. The body returns them at
    this point's state, which the invariant takes back. Off the last chunk the output's buffer is idle and passes
    through as found; at a last chunk it is overwritten with `fin3` of this point's state. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 512 := lt_of_lt_of_eq t.isLt (show cfg3.N = 512 from N_3)
  by_cases h0 : t.val % 8 = 0
  · have h1 : ¬t.val % 8 = 7 := by omega
    rw [Dat.leavesExact_idle (dat3 V c) 6 t (idleAt3_6 t (fun h => h1 ((hcond3_1 t).mp h))) (noFlush3_6 t (fun h => h1 ((hcond3_1 t).mp h)))]
    rw [scrAt3_first V c t h0]
    unfold stepAt3
    by_cases hz : t.val = 0
    · rw [PhiS3_castSucc V c t, PhiS3_zero V c _ _ hz]
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_first c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS3_castSucc V c t, PhiS3_pos V c _ _ hz]
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_first c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [scrAt3_next V c t h0]
    unfold stepAt3
    rw [PhiS3_castSucc V c t, PhiS3_pos V c _ _ hz]
    by_cases h1 : t.val % 8 = 7
    · rw [show (dat3 V c).leavesExact 6 t = owns (c : Thread nD τ) (st3_6 t) fullShare ((dat3 V c).after 6 t) from by
        unfold Dat.leavesExact; rw [liveAt3_6 t ((hcond3_1 t).mpr h1)], after3_6]
      rw [scrAt3_next V c t h0]
      unfold stepAt3
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_last c (grid3.coords t) _ _ _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat3 V c) 6 t (idleAt3_6 t (fun h => h1 ((hcond3_1 t).mp h))) (noFlush3_6 t (fun h => h1 ((hcond3_1 t).mp h)))]
      iintro ⟨⟨⟨HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_mid c (grid3.coords t) _ _ _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, HS0, HS1, HS2, HS3, HS4, HS5⟩
      isplitl [HS0 HS1 HS2 HS3 HS4 HS5 Hr Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## Into and out of the invariant -/

/-- The random-number register, the (empty) prefetched tables and the scoped rest make the invariant before the first
    point: the six running buffers are among the scoped rest, at some contents. -/
theorem hin3 (c : Dev nD) :
    (iprop((∃ r, prngReg c r) ∗ Pipeline.prefHeld (pcfgs (F := F) 3).pre c (fun _ => fullShare) ((cfgs 3).toPCfg_adm).1 ∗ Pipeline.scopedRest (pcfgs (F := F) 3).spec c) : sProp 𝕄)
      ⊢ (dat3 V c).Φ 0 := by
  rw [show (dat3 V c).Φ 0 = PhiS3 V c 0 (Nat.zero_le _) from rfl, PhiS3_zero V c 0 _ rfl]
  rw [show (Pipeline.scopedRest (Ix := Unit) (Name := ℕ) (U := UR sig nD τ) (Lvl := ℕ) (Val := Elt F) (pcfgs (F := F) 3).spec c : sProp 𝕄)
    = Pipeline.scopedRest (Ix := Unit) (Name := ℕ) (U := UR sig nD τ) (Lvl := ℕ) (Val := Elt F) spec3 c from rfl, scopedRest3_scr]
  iintro ⟨Hg, -, ⟨HS, Hr⟩⟩
  isplitl [HS]; · iexact HS
  isplitl [Hr]; · iexact Hr
  iexact Hg

/-- After the last point the invariant gives the random-number register and the scoped rest back: the running buffers'
    named contents are forgotten; the kernel has no semaphore of its own. -/
theorem hout3 (c : Dev nD) :
    (dat3 V c).Φ (Fin.last cfg3.N)
      ⊢ (iprop((∃ r, prngReg c r) ∗ Pipeline.ownSems0 (fun k : PEmpty => k.elim) c ∗ Pipeline.scopedRest (pcfgs (F := F) 3).spec c) : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 512 := N_3; omega)]
  rw [Pipeline.ownSems0_none]
  rw [show (Pipeline.scopedRest (Ix := Unit) (Name := ℕ) (U := UR sig nD τ) (Lvl := ℕ) (Val := Elt F) (pcfgs (F := F) 3).spec c : sProp 𝕄)
    = Pipeline.scopedRest (Ix := Unit) (Name := ℕ) (U := UR sig nD τ) (Lvl := ℕ) (Val := Elt F) spec3 c from rfl, scopedRest3_scr]
  iintro ⟨⟨HS0, HS1, HS2, HS3, HS4, HS5⟩, Hr, Hg⟩
  isplitl [Hg]; · iexact Hg
  isplitr; · iempintro
  isplitr [Hr]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hr

end Cert.KernelIdeal.Hand

end
-- ==== Proof.KI.Reg4.lean ====
/- Region 4 of the program: the product of the squared score differences (the fused region's output) with the
   values, head by head. The grid is 8 x 4, 32 points, point t = 4 h + i; at it the body reads the block of rows
   512 i .. 512 i + 511 of head h of the squared-difference array (bf16, window 0) and the whole 2048 x 2048 value
   matrix of head h (bf16, window 1, whose block index moves only when h does, so the pipeline fetches it at the
   points t ≡ 0 mod 4 only), and stores into the output block (f32, window 2) the product  d · v , the contraction
   of the last axis of d with the first axis of v, accumulated in f32 and stored unrounded.

   Everything is stated at a parameter V, the buffer contents when the region is entered, and for any float
   instance F. The body reads no output it has not written and its one store covers the output block, so what
   it leaves there is a closed function of the two input blocks. -/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as large as a whole block walks each long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 4: `cc4__av_kernel`, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first window's staging buffer holds the squared-difference block of the point when the body runs, for any proof data
    whose array is `V`'s and whose body leaves the block in place: the window is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The value window's staging buffer holds the value block of the point's head at every point, although it is
    fetched only where the head changes: where it is not fetched its block index is the previous point's, and the
    body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole of a 1 x 512 x 2048 block: the squared-difference load and the output store. -/
abbrev rBlk4 : Rect S1x512x2048 := Rect.unit (s := S1x512x2048) ![0, 0, 0] S1x512x2048.size inb_S1x512x2048_S1x512x2048_0_0_0
/-- The whole of the 1 x 2048 x 2048 value block. -/
abbrev rVal4 : Rect S1x2048x2048 := Rect.unit (s := S1x2048x2048) ![0, 0, 0] S1x2048x2048.size inb_S1x2048x2048_S1x2048x2048_0_0_0

/-! ## What the body leaves in the output window's buffer -/

/-- The output block after the body, from the squared-difference block and the value block: the one store's
    payload, the f32 product d · v, laid over the whole block. -/
def out4_2 (x0 : Vec F S1x512x2048 .bf16) (x1 : Vec F S1x2048x2048 .bf16) : Vec F S1x512x2048 .f32 :=
  View.canon [⟨rBlk4, k4_pay1 (View.ld x0 rBlk4) (View.ld x1 rVal4)⟩]

/-- The store's rectangle is the whole block, so it covers it. -/
theorem cover4_2 (p0 : Vec F S1x512x2048 .f32) (y : S1x512x2048.Idx) :
    ∃ pc ∈ ([⟨rBlk4, p0⟩] : List (View.Piece (Elt F) S1x512x2048 .f32)), y ∈ pc.1.set :=
  View.cover_of_tiled [⟨rBlk4, p0⟩] S1x512x2048.size (by rfl) y

/-! ## The body's triple -/

set_option maxHeartbeats 1000000 in
/-- The body on whole staging memrefs, the inputs' reading `x0` and `x1` and the output's holding anything, runs to
    a state where the inputs' read as before and the output's reads `out4_2 x0 x1`. -/
theorem sound_kernel4 (c : Dev nD) (E : Set ℕ) (i : grid4.Coords) (arg2 : Memref sig .tc .vmem S1x512x2048 .bf16) (harg2 : arg2.IsWhole) (arg3 : Memref sig .tc .vmem S1x2048x2048 .bf16) (harg3 : arg3.IsWhole) (arg4 : Memref sig .tc .vmem S1x512x2048 .f32) (harg4 : arg4.IsWhole)
    (x0 : Vec F S1x512x2048 .bf16) (x1 : Vec F S1x2048x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__av_kernel i arg2 harg2 arg3 harg3 arg4 harg4) K := by
  simp only [cc4__av_kernel_eq_skeleton]; unfold cc4__av_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region's pipeline on core `c`: the arrays as the region finds them; after the body at
    point `t` each input's buffer still at its block and the output's at `out4_2` of the two input blocks; the
    invariant is the scoped rest and the random-number register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the whole program: seven items (the weight casts, three projection regions, five reshapes, the fused
  softmax region, the final product region) chained from the launch memory. At the end the result array holds what the
  last region's write-backs leave, and no item has written an argument.
-/
import proofs.«118165_j36936718746194_2_alg».proof.Proof.Gen.KernelIdeal.Launch
import proofs.«118165_j36936718746194_2_alg».proof.Proof.Gen.KernelIdeal.Skeleton
import proofs.«118165_j36936718746194_2_alg».proof.Proof.Gen.KernelIdeal.Points
import proofs.«118165_j36936718746194_2_alg».proof.Proof.KI.Fold
import proofs.«118165_j36936718746194_2_alg».proof.Proof.KI.Reg3
import proofs.«118165_j36936718746194_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 3's exit: its arrays at what its write-backs leave, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- At region 4's exit: its arrays at what its write-backs leave, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ### The arguments end as launched: no host operation and no region writes one -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat2 (V3 m ρ) c).arrAt_in 0 rfl _).trans (A_eq2 (V3 m ρ) c 0))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

/-- No pallas_call of this program has a prefetched table. -/
abbrev adm : (p : Fin 5) → (pcfgs (F := F) p).Adm := fun p => (cfgs p).toPCfg_adm
/-- Every pipeline's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation of either stretch allocates a buffer. -/
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at the contents of boundary 1, left with them at
    boundary 2. Its windows' arrays are split out of the unscoped buffers on entry and put back, at what the
    write-backs leave, on exit; the random-number register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of boundary 2, left with them at
    boundary 3. Its windows' arrays are split out of the unscoped buffers on entry and put back, at what the
    write-backs leave, on exit; the random-number register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents of boundary 3, left with them at
    boundary 4. Its windows' arrays are split out of the unscoped buffers on entry and put back, at what the
    write-backs leave, on exit; the random-number register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents of boundary 5, left with them at
    boundary 6. Its windows' arrays are split out of the unscoped buffers on entry and put back, at what the
    write-backs leave, on exit; the random-number register goes into the region's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V5 m ρ) c
  hout c := hout3 (V5 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents of boundary 6, left with them at
    boundary 7. Its windows' arrays are split out of the unscoped buffers on entry and put back, at what the
    write-backs leave, on exit; the random-number register goes into the region's invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ),
    .host (hseg hostOps3 hostOps3_sub hostOps3_fresh' (W4 m ρ)),
    .region (reg3 m ρ), .region (reg4 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates without a fault, and
    in every final state each unscoped buffer of every core holds the last boundary's contents: in particular the result
    array holds what the last region's write-backs leave, and the eight arguments are as launched. -/
theorem run : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Hand

end
-- ==== Proof.Spec.lean ====
import Idealize.ShloMosaic.PureOps.Ideal
import Idealize.ShloMosaic.Lib.ValueIdx

/-!
# The specification: dual softmax attention with squared-difference mixing

All values are extended reals. With `x : [16384, 2048]` read as eight heads
`x[2048 h + s, d]` and seven square weights:

* the five projections `q₁ k₁ q₂ k₂ v`, each `p[h, s, e] = ∑ d, x[2048 h + s, d] * W[e, d]`;
* the two score arrays `S[h, s, t] = (∑ e, q[h, s, e] * k[h, t, e]) * c`, with `c` the value of one fixed
  single-precision word (all that is used of it is that it is a real number);
* the row softmax `a[h, s, t] = exp (S[h, s, t] - M) / L`, `M = max_t S[h, s, t]`, `L = ∑ t, exp (S[h, s, t] - M)`;
* the mixing `score[h, s, u] = ∑ t, a[h, s, t] * W[u, t]`, once with `(q₁, k₁, W₁)` and once with
  `(q₂, k₂, W₂)`;
* the result `out[h, s, d] = ∑ t, (score₁[h, s, t] - score₂[h, s, t])² * v[h, t, d]`.

`result` is that function of the eight arrays, index by index. The maximum is the supremum of
the row in the extended reals (`Finset.sup`, whose value on an empty row would be `⊥`); the quotient
is the extended reals' division with its conventions at zero and the infinities (`Ideal.div`).
-/

noncomputable section

open scoped BigOperators

namespace BiSoftmax

open Idealize.ShloMosaic Idealize.ShloMosaic.ValueIdx

/-- An array `[16384, 2048]` of extended reals. -/
abbrev ArrX := (⟨2, ![16384, 2048]⟩ : Shape).Idx → EReal
/-- An array `[2048, 2048]` of extended reals. -/
abbrev ArrW := (⟨2, ![2048, 2048]⟩ : Shape).Idx → EReal
/-- An array `[8, 2048, 2048]` of extended reals. -/
abbrev ArrH := (⟨3, ![8, 2048, 2048]⟩ : Shape).Idx → EReal

/-- Row `s` of head `h` is row `2048 h + s` of the input. -/
def row (h : Fin 8) (s : Fin 2048) : Fin 16384 := ⟨h.val * 2048 + s.val, by omega⟩

@[simp] theorem row_val (h : Fin 8) (s : Fin 2048) : (row h s).val = h.val * 2048 + s.val := rfl

/-- The scale: the value of the single-precision word `0x3CB504F3`. -/
def scale : EReal := Ideal.ofBits .f32 0x3CB504F3#32

/-- A projection: `p[h, s, e] = ∑ d, x[2048 h + s, d] * W[e, d]`. -/
def proj (x : ArrX) (W : ArrW) (h : Fin 8) (s : Fin 2048) (e : Fin 2048) : EReal :=
  ∑ d : Fin 2048, x (ix2 (row h s) d) * W (ix2 e d)

/-- The scaled scores: `S[h, s, t] = (∑ e, q[h, s, e] * k[h, t, e]) * c`. -/
def scores (x : ArrX) (Wq Wk : ArrW) (h : Fin 8) (s t : Fin 2048) : EReal :=
  (∑ e : Fin 2048, proj x Wq h s e * proj x Wk h t e) * scale

/-- The maximum of a row of scores. -/
def rowMax (S : Fin 2048 → EReal) : EReal := Finset.univ.sup S

/-- The softmax denominator of a row of scores. -/
def rowDen (S : Fin 2048 → EReal) : EReal := ∑ t : Fin 2048, Ideal.exp (S t - rowMax S)

/-- The softmax of a row of scores at position `t`. -/
def softmax (S : Fin 2048 → EReal) (t : Fin 2048) : EReal :=
  Ideal.div (Ideal.exp (S t - rowMax S)) (rowDen S)

/-- The mixed score: `score[h, s, u] = ∑ t, softmax (S[h, s, ·]) t * W[u, t]`. -/
def mixed (x : ArrX) (Wq Wk W : ArrW) (h : Fin 8) (s u : Fin 2048) : EReal :=
  ∑ t : Fin 2048, softmax (scores x Wq Wk h s) t * W (ix2 u t)

/-- The squared difference of the two mixed scores. -/
def circle (x : ArrX) (Wq1 Wk1 Wq2 Wk2 W1 W2 : ArrW) (h : Fin 8) (s t : Fin 2048) : EReal :=
  (mixed x Wq1 Wk1 W1 h s t - mixed x Wq2 Wk2 W2 h s t)
    * (mixed x Wq1 Wk1 W1 h s t - mixed x Wq2 Wk2 W2 h s t)

/-- The result at coordinates `(h, s, d)`. -/
def resultAt (x : ArrX) (Wq1 Wk1 Wq2 Wk2 Wv W1 W2 : ArrW) (h : Fin 8) (s d : Fin 2048) : EReal :=
  ∑ t : Fin 2048, circle x Wq1 Wk1 Wq2 Wk2 W1 W2 h s t * proj x Wv h t d

/-- **The specification**: the result array as one function of the eight argument arrays. -/
def result (x : ArrX) (Wq1 Wk1 Wq2 Wk2 Wv W1 W2 : ArrW) : ArrH :=
  fun i => resultAt x Wq1 Wk1 Wq2 Wk2 Wv W1 W2 (i 0) (i 1) (i 2)

theorem result_ix3 (x : ArrX) (Wq1 Wk1 Wq2 Wk2 Wv W1 W2 : ArrW) (h : Fin 8) (s d : Fin 2048) :
    result x Wq1 Wk1 Wq2 Wk2 Wv W1 W2 (ix3 h s d) = resultAt x Wq1 Wk1 Wq2 Wk2 Wv W1 W2 h s d := rfl

end BiSoftmax

end
-- ==== Proof.KI.Chain.lean ====
/-
  What the buffers hold, as extended reals, at the boundaries before the fused region: the seven cast weights are the
  weight arguments themselves (a change of float format is the identity on exact values), each projection region leaves
  the product of the input rows with a weight's rows, and the five reshapes regroup the 16384 rows as 8 heads of 2048.
-/
import proofs.«118165_j36936718746194_2_alg».proof.Proof.KI.Fold
import proofs.«118165_j36936718746194_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen Idealize.ShloMosaic.ValueIdx

variable (m : (ℓ : Loc nD τ sig) → Buf (Elt Ideal) ℓ) (ρ : Dev nD → PrngReg)

/-! ## After the weight casts -/
/-- The cast weight `main_v0` is the weight argument 1, entry by entry. -/
theorem W1_main_v0 (c : Dev nD) :
    (W1 m ρ c (Proc.devRef .tc main_v0) : S2048x2048.Idx → EReal) = (m ((c : Thread nD τ).loc main_arg1) : S2048x2048.Idx → EReal) := by
  show StableHlo.after hostOps0 _ (Proc.devRef .tc main_v0) = _
  after_results
  rfl

/-- The cast weight `main_v1` is the weight argument 2, entry by entry. -/
theorem W1_main_v1 (c : Dev nD) :
    (W1 m ρ c (Proc.devRef .tc main_v1) : S2048x2048.Idx → EReal) = (m ((c : Thread nD τ).loc main_arg2) : S2048x2048.Idx → EReal) := by
  show StableHlo.after hostOps0 _ (Proc.devRef .tc main_v1) = _
  after_results
  rfl

/-- The cast weight `main_v2` is the weight argument 3, entry by entry. -/
theorem W1_main_v2 (c : Dev nD) :
    (W1 m ρ c (Proc.devRef .tc main_v2) : S2048x2048.Idx → EReal) = (m ((c : Thread nD τ).loc main_arg3) : S2048x2048.Idx → EReal) := by
  show StableHlo.after hostOps0 _ (Proc.devRef .tc main_v2) = _
  after_results
  rfl

/-- The cast weight `main_v3` is the weight argument 4, entry by entry. -/
theorem W1_main_v3 (c : Dev nD) :
    (W1 m ρ c (Proc.devRef .tc main_v3) : S2048x2048.Idx → EReal) = (m ((c : Thread nD τ).loc main_arg4) : S2048x2048.Idx → EReal) := by
  show StableHlo.after hostOps0 _ (Proc.devRef .tc main_v3) = _
  after_results
  rfl

/-- The cast weight `main_v4` is the weight argument 5, entry by entry. -/
theorem W1_main_v4 (c : Dev nD) :
    (W1 m ρ c (Proc.devRef .tc main_v4) : S2048x2048.Idx → EReal) = (m ((c : Thread nD τ).loc main_arg5) : S2048x2048.Idx → EReal) := by
  show StableHlo.after hostOps0 _ (Proc.devRef .tc main_v4) = _
  after_results
  rfl

/-- The cast weight `main_v5` is the weight argument 6, entry by entry. -/
theorem W1_main_v5 (c : Dev nD) :
    (W1 m ρ c (Proc.devRef .tc main_v5) : S2048x2048.Idx → EReal) = (m ((c : Thread nD τ).loc main_arg6) : S2048x2048.Idx → EReal) := by
  show StableHlo.after hostOps0 _ (Proc.devRef .tc main_v5) = _
  after_results
  rfl

/-- The cast weight `main_v6` is the weight argument 7, entry by entry. -/
theorem W1_main_v6 (c : Dev nD) :
    (W1 m ρ c (Proc.devRef .tc main_v6) : S2048x2048.Idx → EReal) = (m ((c : Thread nD τ).loc main_arg7) : S2048x2048.Idx → EReal) := by
  show StableHlo.after hostOps0 _ (Proc.devRef .tc main_v6) = _
  after_results
  rfl

/-! ## What each region leaves alone, and where its outputs go -/

/-- No weight cast writes the input array. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The first projection region reads the input array through a window and leaves it as it was. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)

/-- So does the second. -/
theorem W3_main_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_main_arg0 m ρ c)

/-- The first projection region does not touch the cast weight `main_v2`. -/
theorem W2_main_v2 (c : Dev nD) : W2 m ρ c (Proc.devRef .tc main_v2) = W1 m ρ c (Proc.devRef .tc main_v2) :=
  W2_of_ne m ρ c main_v2 (by decide)

/-- The first projection region does not touch the cast weight `main_v3`. -/
theorem W2_main_v3 (c : Dev nD) : W2 m ρ c (Proc.devRef .tc main_v3) = W1 m ρ c (Proc.devRef .tc main_v3) :=
  W2_of_ne m ρ c main_v3 (by decide)

/-- Neither of the first two projection regions touches the cast weight `main_v4`. -/
theorem W3_main_v4 (c : Dev nD) : W3 m ρ c (Proc.devRef .tc main_v4) = W1 m ρ c (Proc.devRef .tc main_v4) :=
  (W3_of_ne m ρ c main_v4 (by decide)).trans (W2_of_ne m ρ c main_v4 (by decide))

/-- No projection region touches the cast weight `main_v5`. -/
theorem W4_main_v5 (c : Dev nD) : W4 m ρ c (Proc.devRef .tc main_v5) = W1 m ρ c (Proc.devRef .tc main_v5) :=
  (W4_of_ne m ρ c main_v5 (by decide)).trans ((W3_of_ne m ρ c main_v5 (by decide)).trans (W2_of_ne m ρ c main_v5 (by decide)))

/-- No projection region touches the cast weight `main_v6`. -/
theorem W4_main_v6 (c : Dev nD) : W4 m ρ c (Proc.devRef .tc main_v6) = W1 m ρ c (Proc.devRef .tc main_v6) :=
  (W4_of_ne m ρ c main_v6 (by decide)).trans ((W3_of_ne m ρ c main_v6 (by decide)).trans (W2_of_ne m ρ c main_v6 (by decide)))

/-- The first projection's output `main_v7_0` is what its write-backs left; the two later projection regions do not touch it. -/
theorem W4_main_v7_0 (c : Dev nD) : W4 m ρ c (Proc.devRef .tc main_v7_0) = (dat0 (V1 m ρ) c).arrAt 3 cfg0.N :=
  (W4_of_ne m ρ c main_v7_0 (by decide)).trans ((W3_of_ne m ρ c main_v7_0 (by decide)).trans (W2_arr m ρ c 3))

/-- The first projection's output `main_v7_1` is what its write-backs left; the two later projection regions do not touch it. -/
theorem W4_main_v7_1 (c : Dev nD) : W4 m ρ c (Proc.devRef .tc main_v7_1) = (dat0 (V1 m ρ) c).arrAt 4 cfg0.N :=
  (W4_of_ne m ρ c main_v7_1 (by decide)).trans ((W3_of_ne m ρ c main_v7_1 (by decide)).trans (W2_arr m ρ c 4))

/-- The second projection's output `main_v8_0` is what its write-backs left; the third projection region does not touch it. -/
theorem W4_main_v8_0 (c : Dev nD) : W4 m ρ c (Proc.devRef .tc main_v8_0) = (dat1 (V2 m ρ) c).arrAt 3 cfg1.N :=
  (W4_of_ne m ρ c main_v8_0 (by decide)).trans (W3_arr m ρ c 3)

/-- The second projection's output `main_v8_1` is what its write-backs left; the third projection region does not touch it. -/
theorem W4_main_v8_1 (c : Dev nD) : W4 m ρ c (Proc.devRef .tc main_v8_1) = (dat1 (V2 m ρ) c).arrAt 4 cfg1.N :=
  (W4_of_ne m ρ c main_v8_1 (by decide)).trans (W3_arr m ρ c 4)

/-- The third projection's output is what its write-backs left. -/
theorem W4_main_v9 (c : Dev nD) : W4 m ρ c (Proc.devRef .tc main_v9) = (dat2 (V3 m ρ) c).arrAt 2 cfg2.N :=
  W4_arr m ρ c 2

/-- No reshape writes the cast weight `main_v5`. -/
theorem W5_main_v5 (c : Dev nD) : W5 m ρ c (Proc.devRef .tc main_v5) = W4 m ρ c (Proc.devRef .tc main_v5) :=
  StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No reshape writes the cast weight `main_v6`. -/
theorem W5_main_v6 (c : Dev nD) : W5 m ρ c (Proc.devRef .tc main_v6) = W4 m ρ c (Proc.devRef .tc main_v6) :=
  StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## After the five reshapes -/

/-- The reshaped array `main_v10` at head `h`, row `s`, column `e` is `main_v7_0` at row `2048 h + s`, column `e`. -/
theorem W5_main_v10 (c : Dev nD) (h : Fin 8) (s e : Fin 2048) :
    (W5 m ρ c (Proc.devRef .tc main_v10) : S8x2048x2048.Idx → EReal) (ix3 h s e)
      = (W4 m ρ c (Proc.devRef .tc main_v7_0) : S16384x2048.Idx → EReal) (ix2 (BiSoftmax.row h s) e) := by
  have hres : (W5 m ρ c (Proc.devRef .tc main_v10) : S8x2048x2048.Idx → EReal)
      = shapeCast S8x2048x2048 (W4 m ρ c (Proc.devRef .tc main_v7_0) : S16384x2048.Idx → EReal) shapeCasts_S16384x2048_S8x2048x2048 := by
    show StableHlo.after hostOps3 _ (Proc.devRef .tc main_v10) = _
    after_results
    rfl
  rw [hres]
  exact shapeCast_apply _ shapeCasts_S16384x2048_S8x2048x2048 (ix3 h s e) (ix2 (BiSoftmax.row h s) e)
    (by rewrite [Shape.rowMajor_val_two, Shape.rowMajor_val_three]
        have h0 : h.val < 8 := h.isLt; have h1 : s.val < 2048 := s.isLt; have h2 : e.val < 2048 := e.isLt
        show (h.val * 2048 + s.val) * 2048 + e.val = (h.val * 2048 + s.val) * 2048 + e.val
        rfl)

/-- The reshaped array `main_v11` at head `h`, row `s`, column `e` is `main_v7_1` at row `2048 h + s`, column `e`. -/
theorem W5_main_v11 (c : Dev nD) (h : Fin 8) (s e : Fin 2048) :
    (W5 m ρ c (Proc.devRef .tc main_v11) : S8x2048x2048.Idx → EReal) (ix3 h s e)
      = (W4 m ρ c (Proc.devRef .tc main_v7_1) : S16384x2048.Idx → EReal) (ix2 (BiSoftmax.row h s) e) := by
  have hres : (W5 m ρ c (Proc.devRef .tc main_v11) : S8x2048x2048.Idx → EReal)
      = shapeCast S8x2048x2048 (W4 m ρ c (Proc.devRef .tc main_v7_1) : S16384x2048.Idx → EReal) shapeCasts_S16384x2048_S8x2048x2048 := by
    show StableHlo.after hostOps3 _ (Proc.devRef .tc main_v11) = _
    after_results
    rfl
  rw [hres]
  exact shapeCast_apply _ shapeCasts_S16384x2048_S8x2048x2048 (ix3 h s e) (ix2 (BiSoftmax.row h s) e)
    (by rewrite [Shape.rowMajor_val_two, Shape.rowMajor_val_three]
        have h0 : h.val < 8 := h.isLt; have h1 : s.val < 2048 := s.isLt; have h2 : e.val < 2048 := e.isLt
        show (h.val * 2048 + s.val) * 2048 + e.val = (h.val * 2048 + s.val) * 2048 + e.val
        rfl)

/-- The reshaped array `main_v12` at head `h`, row `s`, column `e` is `main_v8_0` at row `2048 h + s`, column `e`. -/
theorem W5_main_v12 (c : Dev nD) (h : Fin 8) (s e : Fin 2048) :
    (W5 m ρ c (Proc.devRef .tc main_v12) : S8x2048x2048.Idx → EReal) (ix3 h s e)
      = (W4 m ρ c (Proc.devRef .tc main_v8_0) : S16384x2048.Idx → EReal) (ix2 (BiSoftmax.row h s) e) := by
  have hres : (W5 m ρ c (Proc.devRef .tc main_v12) : S8x2048x2048.Idx → EReal)
      = shapeCast S8x2048x2048 (W4 m ρ c (Proc.devRef .tc main_v8_0) : S16384x2048.Idx → EReal) shapeCasts_S16384x2048_S8x2048x2048 := by
    show StableHlo.after hostOps3 _ (Proc.devRef .tc main_v12) = _
    after_results
    rfl
  rw [hres]
  exact shapeCast_apply _ shapeCasts_S16384x2048_S8x2048x2048 (ix3 h s e) (ix2 (BiSoftmax.row h s) e)
    (by rewrite [Shape.rowMajor_val_two, Shape.rowMajor_val_three]
        have h0 : h.val < 8 := h.isLt; have h1 : s.val < 2048 := s.isLt; have h2 : e.val < 2048 := e.isLt
        show (h.val * 2048 + s.val) * 2048 + e.val = (h.val * 2048 + s.val) * 2048 + e.val
        rfl)

/-- The reshaped array `main_v13` at head `h`, row `s`, column `e` is `main_v8_1` at row `2048 h + s`, column `e`. -/
theorem W5_main_v13 (c : Dev nD) (h : Fin 8) (s e : Fin 2048) :
    (W5 m ρ c (Proc.devRef .tc main_v13) : S8x2048x2048.Idx → EReal) (ix3 h s e)
      = (W4 m ρ c (Proc.devRef .tc main_v8_1) : S16384x2048.Idx → EReal) (ix2 (BiSoftmax.row h s) e) := by
  have hres : (W5 m ρ c (Proc.devRef .tc main_v13) : S8x2048x2048.Idx → EReal)
      = shapeCast S8x2048x2048 (W4 m ρ c (Proc.devRef .tc main_v8_1) : S16384x2048.Idx → EReal) shapeCasts_S16384x2048_S8x2048x2048 := by
    show StableHlo.after hostOps3 _ (Proc.devRef .tc main_v13) = _
    after_results
    rfl
  rw [hres]
  exact shapeCast_apply _ shapeCasts_S16384x2048_S8x2048x2048 (ix3 h s e) (ix2 (BiSoftmax.row h s) e)
    (by rewrite [Shape.rowMajor_val_two, Shape.rowMajor_val_three]
        have h0 : h.val < 8 := h.isLt; have h1 : s.val < 2048 := s.isLt; have h2 : e.val < 2048 := e.isLt
        show (h.val * 2048 + s.val) * 2048 + e.val = (h.val * 2048 + s.val) * 2048 + e.val
        rfl)

/-- The reshaped array `main_v14` at head `h`, row `s`, column `e` is `main_v9` at row `2048 h + s`, column `e`. -/
theorem W5_main_v14 (c : Dev nD) (h : Fin 8) (s e : Fin 2048) :
    (W5 m ρ c (Proc.devRef .tc main_v14) : S8x2048x2048.Idx → EReal) (ix3 h s e)
      = (W4 m ρ c (Proc.devRef .tc main_v9) : S16384x2048.Idx → EReal) (ix2 (BiSoftmax.row h s) e) := by
  have hres : (W5 m ρ c (Proc.devRef .tc main_v14) : S8x2048x2048.Idx → EReal)
      = shapeCast S8x2048x2048 (W4 m ρ c (Proc.devRef .tc main_v9) : S16384x2048.Idx → EReal) shapeCasts_S16384x2048_S8x2048x2048 := by
    show StableHlo.after hostOps3 _ (Proc.devRef .tc main_v14) = _
    after_results
    rfl
  rw [hres]
  exact shapeCast_apply _ shapeCasts_S16384x2048_S8x2048x2048 (ix3 h s e) (ix2 (BiSoftmax.row h s) e)
    (by rewrite [Shape.rowMajor_val_two, Shape.rowMajor_val_three]
        have h0 : h.val < 8 := h.isLt; have h1 : s.val < 2048 := s.isLt; have h2 : e.val < 2048 := e.isLt
        show (h.val * 2048 + s.val) * 2048 + e.val = (h.val * 2048 + s.val) * 2048 + e.val
        rfl)

end Cert.KernelIdeal.Hand

end
-- ==== Proof.KI.Val0.lean ====
/- Region 0, read at the ideal instance: after the region each of the two output arrays is the projection of x by
   its weight matrix, entry (r, n) the sum over k of x[r, k] · W[n, k]. At the ideal instance a change of float
   format is the identity, so the roundings to bf16 in the body disappear. -/
import proofs.«118165_j36936718746194_2_alg».proof.Proof.KI.Reg0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the buffer contents when the region is entered, read at the ideal instance: every entry an extended real
variable (V : (c : Dev nD) → (b : Ref sig .tc) → Buf (Elt Ideal) ((c : Thread nD τ).loc b))

/-! ## The matrix products' operand indices -/

/-- The body's two matrix products have the same shape: [256, 2048] by [2048, 2048], contracting the last axis of both. -/
abbrev dims0 : DotDims S256x2048 S2048x2048 S256x2048 := dot_S256x2048_S2048x2048_S256x2048_1_1_0_0_n_n

/-- The left operand is read at the output's row … -/
theorem dims0_lhs0 (j : S256x2048.Idx) (q : dims0.contr.Idx) : (dims0.lhsIdx j q 0).val = (j 0).val := by
  unfold DotDims.lhsIdx
  rw [dif_neg (show ¬(0 : Fin S256x2048.rank) ∈ dims0.lhsBatch by decide), dif_pos (show (0 : Fin S256x2048.rank) ∈ dims0.lhsNonContracting by decide)]
  rfl
/-- … and the contraction position; -/
theorem dims0_lhs1 (j : S256x2048.Idx) (q : dims0.contr.Idx) : (dims0.lhsIdx j q 1).val = (q ⟨0, by decide⟩).val :=
  dims0.lhsIdx_val_of_single rfl j q
/-- the right operand at the output's column, which is a ROW of the weight matrix, … -/
theorem dims0_rhs0 (j : S256x2048.Idx) (q : dims0.contr.Idx) : (dims0.rhsIdx j q 0).val = (j 1).val := by
  unfold DotDims.rhsIdx
  rw [dif_neg (show ¬(0 : Fin S2048x2048.rank) ∈ dims0.rhsBatch by decide), dif_pos (show (0 : Fin S2048x2048.rank) ∈ dims0.rhsNonContracting by decide)]
  rfl
/-- … and the contraction position. -/
theorem dims0_rhs1 (j : S256x2048.Idx) (q : dims0.contr.Idx) : (dims0.rhsIdx j q 1).val = (q ⟨0, by decide⟩).val :=
  dims0.rhsIdx_val_of_single rfl j q

/-! ## The body's payloads at an index -/

/-- A product of an x block (already rounded, which at the ideal instance is no change) and a weight block,
    accumulated into zero, at (p, n): the sum over k of x[p, k] · W[n, k]. -/
theorem matmul0_apply (x0 : FVec Ideal S256x2048 .bf16) (x1 : FVec Ideal S2048x2048 .bf16) (p : Fin 256) (n : Fin 2048) :
    FloatOps.matmul dims0 none x0 x1 (constant (F := Ideal) S256x2048 .f32 0x00000000#32) (ix2 p n) = ∑ k : Fin 2048, x0 (ix2 p k) * x1 (ix2 n k) := by
  rw [Ideal.matmul_constant_zero_apply, ← Equiv.sum_comp (contrEquiv1 dims0 2048 rfl rfl).symm]
  refine Finset.sum_congr rfl fun k _ => ?_
  have hk := contrEquiv1_symm_val dims0 2048 rfl rfl k
  have el : dims0.lhsIdx (ix2 p n) ((contrEquiv1 dims0 2048 rfl rfl).symm k) = ix2 p k := funext fun a => Fin.ext (by
    match a with
    | ⟨0, _⟩ => exact dims0_lhs0 _ _
    | ⟨1, _⟩ => exact (dims0_lhs1 _ _).trans hk)
  have er : dims0.rhsIdx (ix2 p n) ((contrEquiv1 dims0 2048 rfl rfl).symm k) = ix2 n k := funext fun a => Fin.ext (by
    match a with
    | ⟨0, _⟩ => exact dims0_rhs0 _ _
    | ⟨1, _⟩ => exact (dims0_rhs1 _ _).trans hk)
  rw [el, er]

/-- Entry (p, n) of what the body stores into the first output is the sum over k of x[p, k] · W₁[n, k]: the
    roundings are the identity at the ideal instance and the cast of the weight block to its own shape is the identity. -/
theorem k0_pay2_apply (x0 : FVec Ideal S256x2048 .f32) (x1 : FVec Ideal S2048x2048 .bf16) (p : Fin 256) (n : Fin 2048) :
    k0_pay2 (F := Ideal) x0 x1 (ix2 p n) = ∑ k : Fin 2048, x0 (ix2 p k) * x1 (ix2 n k) := by
  unfold k0_pay2
  show FloatOps.matmul dims0 none (k0_pay1 (F := Ideal) x0) (shapeCast S2048x2048 x1 shapeCasts_S2048x2048_S2048x2048) (constant (F := Ideal) S256x2048 .f32 0x00000000#32) (ix2 p n) = _
  rw [shapeCast_self, matmul0_apply]
  rfl

/-- The same of the second output and the second weight block. -/
theorem k0_pay3_apply (x0 : FVec Ideal S256x2048 .f32) (x1 : FVec Ideal S2048x2048 .bf16) (p : Fin 256) (n : Fin 2048) :
    k0_pay3 (F := Ideal) x0 x1 (ix2 p n) = ∑ k : Fin 2048, x0 (ix2 p k) * x1 (ix2 n k) := by
  unfold k0_pay3
  show FloatOps.matmul dims0 none (k0_pay1 (F := Ideal) x0) (shapeCast S2048x2048 x1 shapeCasts_S2048x2048_S2048x2048) (constant (F := Ideal) S256x2048 .f32 0x00000000#32) (ix2 p n) = _
  rw [shapeCast_self, matmul0_apply]
  rfl

/-! ## From blocks to the arrays -/

theorem zeros0 : (![0, 0] : Fin 2 → Nat) = fun _ => 0 := funext fun a => by fin_cases a <;> rfl

/-- The x array, [16384, 2048], as the region finds it, every entry an extended real. -/
abbrev xArr0 (c : Dev nD) : S16384x2048.Idx → EReal := V c (Pipeline.arrRef spec0 0)
/-- The two weight arrays, [2048, 2048], as the region finds them. -/
abbrev w1Arr0 (c : Dev nD) : S2048x2048.Idx → EReal := V c (Pipeline.arrRef spec0 1)
abbrev w2Arr0 (c : Dev nD) : S2048x2048.Idx → EReal := V c (Pipeline.arrRef spec0 2)

/-- The printed index maps, decided over the 64 points: the x window and both output windows sit on row block t,
    the point's own number; every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Output window 3: the projection by the first weight matrix -/

/-- The projection of x by the first weight matrix: entry (r, n) is the sum over k of x[r, k] · W[n, k], rows of x
    against rows of W. -/
def proj0_3 (c : Dev nD) : S16384x2048.Idx → EReal := fun i =>
  ∑ k : Fin 2048, xArr0 V c (ix2 (i 0 : Fin 16384) k) * w1Arr0 V c (ix2 (i 1 : Fin 2048) k)

/-- What point t writes back to window 3 is block t of that projection: entry (p, n) of the block is the sum over
    k of the x block's [p, k], which is x[256 t + p, k], times the weight block's [n, k], which is W[n, k]. -/
theorem flushed0_3_eq (c : Dev nD) (t : Fin cfg0.N) :
    (dat0 V c).flushed 3 t = ((cfg0.win 3).blk t).view.read (Elt Ideal) (proj0_3 V c) := by
  show (cfg0.win 3).cut (grid0.coords t) ((dat0 V c).after 3 t) = _
  rw [after0_3]
  unfold out0_3
  rw [View.canon_unit_zero zeros0]
  simp only [View.ld_unit_zero (S := S256x2048) zeros0, View.ld_unit_zero (S := S2048x2048) zeros0]
  obtain ⟨e0, e1, e2, e3, e4, e5, e6, e7, e8, e9⟩ := idx_facts0 t
  funext j
  obtain ⟨p, n, rfl⟩ : ∃ (p : Fin 256) (n : Fin 2048), j = ix2 p n := ⟨j 0, j 1, eq_ix2 j⟩
  refine (k0_pay2_apply _ _ p n).trans ?_
  show (∑ k : Fin 2048, _) = ∑ k : Fin 2048, xArr0 V c (ix2 ((((cfg0.win 3).blk t).view.emb (ix2 p n)) 0 : Fin 16384) k) * w1Arr0 V c (ix2 ((((cfg0.win 3).blk t).view.emb (ix2 p n)) 1 : Fin 2048) k)
  refine Finset.sum_congr rfl fun k _ => ?_
  show xArr0 V c (((cfg0.win 0).blk t).view.emb (ix2 p k)) * w1Arr0 V c (((cfg0.win 1).blk t).view.emb (ix2 n k))
    = xArr0 V c (ix2 ((((cfg0.win 3).blk t).view.emb (ix2 p n)) 0 : Fin 16384) k) * w1Arr0 V c (ix2 ((((cfg0.win 3).blk t).view.emb (ix2 p n)) 1 : Fin 2048) k)
  have h0 : ((cfg0.win 0).blk t).view.emb (ix2 p k) = ix2 ((((cfg0.win 3).blk t).view.emb (ix2 p n)) 0 : Fin 16384) k := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  have h1 : ((cfg0.win 1).blk t).view.emb (ix2 n k) = ix2 ((((cfg0.win 3).blk t).view.emb (ix2 p n)) 1 : Fin 2048) k := by
    funext a; apply Fin.ext
    match a with
    | ⟨0, _⟩ => show win0_1.index t (0 : Fin 2) * 2048 + 1 * n.val = win0_3.index t (1 : Fin 2) * 2048 + 1 * n.val; omega
    | ⟨1, _⟩ => show win0_1.index t (1 : Fin 2) * 2048 + 1 * k.val = k.val; omega
  rw [h0, h1]
  rfl

/-- An index of the array is in point t's block iff each coordinate is in the block's range on its axis. -/
theorem mem_blk0_3 (t : Fin cfg0.N) (i : S16384x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v7_0).slice (win0_3.rect t)).set ↔ _
  rw [View.set_slice_whole, Rect.mem_set_unit]
  exact Iff.rfl

/-- The 64 blocks of 256 rows tile the array: row r is in the block of point r / 256. -/
theorem tiles0_3 (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have ht : (i 0).val / 256 < grid0.N := by rw [N_0]; omega
  obtain ⟨e0, e1, e2, e3, e4, e5, e6, e7, e8, e9⟩ := idx_facts0 ⟨(i 0).val / 256, ht⟩
  refine ⟨⟨(i 0).val / 256, ht⟩, flush0_3 _, ?_⟩
  rw [mem_blk0_3]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, ht⟩ (1 : Fin 2) * 2048 ≤ (i 1).val ∧ (i 1).val < win0_3.index ⟨(i 0).val / 256, ht⟩ (1 : Fin 2) * 2048 + 2048
    rw [e7]; omega

/-- The array of output window 3 after the region is the projection of x by the first weight matrix. -/
theorem final0_3 (c : Dev nD) : (dat0 V c).arrAt 3 cfg0.N = fun i : S16384x2048.Idx =>
    ∑ k : Fin 2048, xArr0 V c (ix2 (i 0 : Fin 16384) k) * w1Arr0 V c (ix2 (i 1 : Fin 2048) k) :=
  (dat0 V c).arrAt_eq_of_cover 3 (proj0_3 V c) (fun t _ => flushed0_3_eq V c t) tiles0_3

/-! ## Output window 4: the projection by the second weight matrix -/

/-- The projection of x by the second weight matrix: entry (r, n) is the sum over k of x[r, k] · W[n, k], rows of x
    against rows of W. -/
def proj0_4 (c : Dev nD) : S16384x2048.Idx → EReal := fun i =>
  ∑ k : Fin 2048, xArr0 V c (ix2 (i 0 : Fin 16384) k) * w2Arr0 V c (ix2 (i 1 : Fin 2048) k)

/-- What point t writes back to window 4 is block t of that projection: entry (p, n) of the block is the sum over
    k of the x block's [p, k], which is x[256 t + p, k], times the weight block's [n, k], which is W[n, k]. -/
theorem flushed0_4_eq (c : Dev nD) (t : Fin cfg0.N) :
    (dat0 V c).flushed 4 t = ((cfg0.win 4).blk t).view.read (Elt Ideal) (proj0_4 V c) := by
  show (cfg0.win 4).cut (grid0.coords t) ((dat0 V c).after 4 t) = _
  rw [after0_4]
  unfold out0_4
  rw [View.canon_unit_zero zeros0]
  simp only [View.ld_unit_zero (S := S256x2048) zeros0, View.ld_unit_zero (S := S2048x2048) zeros0]
  obtain ⟨e0, e1, e2, e3, e4, e5, e6, e7, e8, e9⟩ := idx_facts0 t
  funext j
  obtain ⟨p, n, rfl⟩ : ∃ (p : Fin 256) (n : Fin 2048), j = ix2 p n := ⟨j 0, j 1, eq_ix2 j⟩
  refine (k0_pay3_apply _ _ p n).trans ?_
  show (∑ k : Fin 2048, _) = ∑ k : Fin 2048, xArr0 V c (ix2 ((((cfg0.win 4).blk t).view.emb (ix2 p n)) 0 : Fin 16384) k) * w2Arr0 V c (ix2 ((((cfg0.win 4).blk t).view.emb (ix2 p n)) 1 : Fin 2048) k)
  refine Finset.sum_congr rfl fun k _ => ?_
  show xArr0 V c (((cfg0.win 0).blk t).view.emb (ix2 p k)) * w2Arr0 V c (((cfg0.win 2).blk t).view.emb (ix2 n k))
    = xArr0 V c (ix2 ((((cfg0.win 4).blk t).view.emb (ix2 p n)) 0 : Fin 16384) k) * w2Arr0 V c (ix2 ((((cfg0.win 4).blk t).view.emb (ix2 p n)) 1 : Fin 2048) k)
  have h0 : ((cfg0.win 0).blk t).view.emb (ix2 p k) = ix2 ((((cfg0.win 4).blk t).view.emb (ix2 p n)) 0 : Fin 16384) k := by
    funext a; apply Fin.ext
    match a with
    | ⟨0, _⟩ => show win0_0.index t (0 : Fin 2) * 256 + 1 * p.val = win0_4.index t (0 : Fin 2) * 256 + 1 * p.val; omega
    | ⟨1, _⟩ => show win0_0.index t (1 : Fin 2) * 2048 + 1 * k.val = k.val; omega
  have h1 : ((cfg0.win 2).blk t).view.emb (ix2 n k) = ix2 ((((cfg0.win 4).blk t).view.emb (ix2 p n)) 1 : Fin 2048) k := by
    funext a; apply Fin.ext
    match a with
    | ⟨0, _⟩ => show win0_2.index t (0 : Fin 2) * 2048 + 1 * n.val = win0_4.index t (1 : Fin 2) * 2048 + 1 * n.val; omega
    | ⟨1, _⟩ => show win0_2.index t (1 : Fin 2) * 2048 + 1 * k.val = k.val; omega
  rw [h0, h1]
  rfl

/-- An index of the array is in point t's block iff each coordinate is in the block's range on its axis. -/
theorem mem_blk0_4 (t : Fin cfg0.N) (i : S16384x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v7_1).slice (win0_4.rect t)).set ↔ _
  rw [View.set_slice_whole, Rect.mem_set_unit]
  exact Iff.rfl

/-- The 64 blocks of 256 rows tile the array: row r is in the block of point r / 256. -/
theorem tiles0_4 (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  have ht : (i 0).val / 256 < grid0.N := by rw [N_0]; omega
  obtain ⟨e0, e1, e2, e3, e4, e5, e6, e7, e8, e9⟩ := idx_facts0 ⟨(i 0).val / 256, ht⟩
  refine ⟨⟨(i 0).val / 256, ht⟩, flush0_4 _, ?_⟩
  rw [mem_blk0_4]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e8]; show (i 0).val / 256 * 256 ≤ (i 0).val ∧ (i 0).val < (i 0).val / 256 * 256 + 256; omega
  | ⟨1, _⟩ =>
    show win0_4.index ⟨(i 0).val / 256, ht⟩ (1 : Fin 2) * 2048 ≤ (i 1).val ∧ (i 1).val < win0_4.index ⟨(i 0).val / 256, ht⟩ (1 : Fin 2) * 2048 + 2048
    rw [e9]; omega

/-- The array of output window 4 after the region is the projection of x by the second weight matrix. -/
theorem final0_4 (c : Dev nD) : (dat0 V c).arrAt 4 cfg0.N = fun i : S16384x2048.Idx =>
    ∑ k : Fin 2048, xArr0 V c (ix2 (i 0 : Fin 16384) k) * w2Arr0 V c (ix2 (i 1 : Fin 2048) k) :=
  (dat0 V c).arrAt_eq_of_cover 4 (proj0_4 V c) (fun t _ => flushed0_4_eq V c t) tiles0_4

end Cert.KernelIdeal.Hand

end
-- ==== Proof.KI.Val1.lean ====
/- Region 1, read at the ideal instance: after the region each of the two output arrays is the projection of x by
   its weight matrix, entry (r, n) the sum over k of x[r, k] · W[n, k]. At the ideal instance a change of float
   format is the identity, so the roundings to bf16 in the body disappear. -/
import proofs.«118165_j36936718746194_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the buffer contents when the region is entered, read at the ideal instance: every entry an extended real
variable (V : (c : Dev nD) → (b : Ref sig .tc) → Buf (Elt Ideal) ((c : Thread nD τ).loc b))

/-! ## The matrix products' operand indices -/

/-- The body's two matrix products have the same shape: [256, 2048] by [2048, 2048], contracting the last axis of both. -/
abbrev dims1 : DotDims S256x2048 S2048x2048 S256x2048 := dot_S256x2048_S2048x2048_S256x2048_1_1_0_0_n_n

/-- The left operand is read at the output's row … -/
theorem dims1_lhs0 (j : S256x2048.Idx) (q : dims1.contr.Idx) : (dims1.lhsIdx j q 0).val = (j 0).val := by
  unfold DotDims.lhsIdx
  rw [dif_neg (show ¬(0 : Fin S256x2048.rank) ∈ dims1.lhsBatch by decide), dif_pos (show (0 : Fin S256x2048.rank) ∈ dims1.lhsNonContracting by decide)]
  rfl
/-- … and the contraction position; -/
theorem dims1_lhs1 (j : S256x2048.Idx) (q : dims1.contr.Idx) : (dims1.lhsIdx j q 1).val = (q ⟨0, by decide⟩).val :=
  dims1.lhsIdx_val_of_single rfl j q
/-- the right operand at the output's column, which is a ROW of the weight matrix, … -/
theorem dims1_rhs0 (j : S256x2048.Idx) (q : dims1.contr.Idx) : (dims1.rhsIdx j q 0).val = (j 1).val := by
  unfold DotDims.rhsIdx
  rw [dif_neg (show ¬(0 : Fin S2048x2048.rank) ∈ dims1.rhsBatch by decide), dif_pos (show (0 : Fin S2048x2048.rank) ∈ dims1.rhsNonContracting by decide)]
  rfl
/-- … and the contraction position. -/
theorem dims1_rhs1 (j : S256x2048.Idx) (q : dims1.contr.Idx) : (dims1.rhsIdx j q 1).val = (q ⟨0, by decide⟩).val :=
  dims1.rhsIdx_val_of_single rfl j q

/-! ## The body's payloads at an index -/

/-- A product of an x block (already rounded, which at the ideal instance is no change) and a weight block,
    accumulated into zero, at (p, n): the sum over k of x[p, k] · W[n, k]. -/
theorem matmul1_apply (x0 : FVec Ideal S256x2048 .bf16) (x1 : FVec Ideal S2048x2048 .bf16) (p : Fin 256) (n : Fin 2048) :
    FloatOps.matmul dims1 none x0 x1 (constant (F := Ideal) S256x2048 .f32 0x00000000#32) (ix2 p n) = ∑ k : Fin 2048, x0 (ix2 p k) * x1 (ix2 n k) := by
  rw [Ideal.matmul_constant_zero_apply, ← Equiv.sum_comp (contrEquiv1 dims1 2048 rfl rfl).symm]
  refine Finset.sum_congr rfl fun k _ => ?_
  have hk := contrEquiv1_symm_val dims1 2048 rfl rfl k
  have el : dims1.lhsIdx (ix2 p n) ((contrEquiv1 dims1 2048 rfl rfl).symm k) = ix2 p k := funext fun a => Fin.ext (by
    match a with
    | ⟨0, _⟩ => exact dims1_lhs0 _ _
    | ⟨1, _⟩ => exact (dims1_lhs1 _ _).trans hk)
  have er : dims1.rhsIdx (ix2 p n) ((contrEquiv1 dims1 2048 rfl rfl).symm k) = ix2 n k := funext fun a => Fin.ext (by
    match a with
    | ⟨0, _⟩ => exact dims1_rhs0 _ _
    | ⟨1, _⟩ => exact (dims1_rhs1 _ _).trans hk)
  rw [el, er]

/-- Entry (p, n) of what the body stores into the first output is the sum over k of x[p, k] · W₁[n, k]: the
    roundings are the identity at the ideal instance and the cast of the weight block to its own shape is the identity. -/
theorem k1_pay2_apply (x0 : FVec Ideal S256x2048 .f32) (x1 : FVec Ideal S2048x2048 .bf16) (p : Fin 256) (n : Fin 2048) :
    k1_pay2 (F := Ideal) x0 x1 (ix2 p n) = ∑ k : Fin 2048, x0 (ix2 p k) * x1 (ix2 n k) := by
  unfold k1_pay2
  show FloatOps.matmul dims1 none (k1_pay1 (F := Ideal) x0) (shapeCast S2048x2048 x1 shapeCasts_S2048x2048_S2048x2048) (constant (F := Ideal) S256x2048 .f32 0x00000000#32) (ix2 p n) = _
  rw [shapeCast_self, matmul1_apply]
  rfl

/-- The same of the second output and the second weight block. -/
theorem k1_pay3_apply (x0 : FVec Ideal S256x2048 .f32) (x1 : FVec Ideal S2048x2048 .bf16) (p : Fin 256) (n : Fin 2048) :
    k1_pay3 (F := Ideal) x0 x1 (ix2 p n) = ∑ k : Fin 2048, x0 (ix2 p k) * x1 (ix2 n k) := by
  unfold k1_pay3
  show FloatOps.matmul dims1 none (k1_pay1 (F := Ideal) x0) (shapeCast S2048x2048 x1 shapeCasts_S2048x2048_S2048x2048) (constant (F := Ideal) S256x2048 .f32 0x00000000#32) (ix2 p n) = _
  rw [shapeCast_self, matmul1_apply]
  rfl

/-! ## From blocks to the arrays -/

theorem zeros1 : (![0, 0] : Fin 2 → Nat) = fun _ => 0 := funext fun a => by fin_cases a <;> rfl

/-- The x array, [16384, 2048], as the region finds it, every entry an extended real. -/
abbrev xArr1 (c : Dev nD) : S16384x2048.Idx → EReal := V c (Pipeline.arrRef spec1 0)
/-- The two weight arrays, [2048, 2048], as the region finds them. -/
abbrev w1Arr1 (c : Dev nD) : S2048x2048.Idx → EReal := V c (Pipeline.arrRef spec1 1)
abbrev w2Arr1 (c : Dev nD) : S2048x2048.Idx → EReal := V c (Pipeline.arrRef spec1 2)

/-- The printed index maps, decided over the 64 points: the x window and both output windows sit on row block t,
    the point's own number; every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## Output window 3: the projection by the first weight matrix -/

/-- The projection of x by the first weight matrix: entry (r, n) is the sum over k of x[r, k] · W[n, k], rows of x
    against rows of W. -/
def proj1_3 (c : Dev nD) : S16384x2048.Idx → EReal := fun i =>
  ∑ k : Fin 2048, xArr1 V c (ix2 (i 0 : Fin 16384) k) * w1Arr1 V c (ix2 (i 1 : Fin 2048) k)

/-- What point t writes back to window 3 is block t of that projection: entry (p, n) of the block is the sum over
    k of the x block's [p, k], which is x[256 t + p, k], times the weight block's [n, k], which is W[n, k]. -/
theorem flushed1_3_eq (c : Dev nD) (t : Fin cfg1.N) :
    (dat1 V c).flushed 3 t = ((cfg1.win 3).blk t).view.read (Elt Ideal) (proj1_3 V c) := by
  show (cfg1.win 3).cut (grid1.coords t) ((dat1 V c).after 3 t) = _
  rw [after1_3]
  unfold out1_3
  rw [View.canon_unit_zero zeros1]
  simp only [View.ld_unit_zero (S := S256x2048) zeros1, View.ld_unit_zero (S := S2048x2048) zeros1]
  obtain ⟨e0, e1, e2, e3, e4, e5, e6, e7, e8, e9⟩ := idx_facts1 t
  funext j
  obtain ⟨p, n, rfl⟩ : ∃ (p : Fin 256) (n : Fin 2048), j = ix2 p n := ⟨j 0, j 1, eq_ix2 j⟩
  refine (k1_pay2_apply _ _ p n).trans ?_
  show (∑ k : Fin 2048, _) = ∑ k : Fin 2048, xArr1 V c (ix2 ((((cfg1.win 3).blk t).view.emb (ix2 p n)) 0 : Fin 16384) k) * w1Arr1 V c (ix2 ((((cfg1.win 3).blk t).view.emb (ix2 p n)) 1 : Fin 2048) k)
  refine Finset.sum_congr rfl fun k _ => ?_
  show xArr1 V c (((cfg1.win 0).blk t).view.emb (ix2 p k)) * w1Arr1 V c (((cfg1.win 1).blk t).view.emb (ix2 n k))
    = xArr1 V c (ix2 ((((cfg1.win 3).blk t).view.emb (ix2 p n)) 0 : Fin 16384) k) * w1Arr1 V c (ix2 ((((cfg1.win 3).blk t).view.emb (ix2 p n)) 1 : Fin 2048) k)
  have h0 : ((cfg1.win 0).blk t).view.emb (ix2 p k) = ix2 ((((cfg1.win 3).blk t).view.emb (ix2 p n)) 0 : Fin 16384) k := by
    funext a; apply Fin.ext
    match a with
    | ⟨0, _⟩ => show win1_0.index t (0 : Fin 2) * 256 + 1 * p.val = win1_3.index t (0 : Fin 2) * 256 + 1 * p.val; omega
    | ⟨1, _⟩ => show win1_0.index t (1 : Fin 2) * 2048 + 1 * k.val = k.val; omega
  have h1 : ((cfg1.win 1).blk t).view.emb (ix2 n k) = ix2 ((((cfg1.win 3).blk t).view.emb (ix2 p n)) 1 : Fin 2048) k := by
    funext a; apply Fin.ext
    match a with
    | ⟨0, _⟩ => show win1_1.index t (0 : Fin 2) * 2048 + 1 * n.val = win1_3.index t (1 : Fin 2) * 2048 + 1 * n.val; omega
    | ⟨1, _⟩ => show win1_1.index t (1 : Fin 2) * 2048 + 1 * k.val = k.val; omega
  rw [h0, h1]
  rfl

/-- An index of the array is in point t's block iff each coordinate is in the block's range on its axis. -/
theorem mem_blk1_3 (t : Fin cfg1.N) (i : S16384x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v8_0).slice (win1_3.rect t)).set ↔ _
  rw [View.set_slice_whole, Rect.mem_set_unit]
  exact Iff.rfl

/-- The 64 blocks of 256 rows tile the array: row r is in the block of point r / 256. -/
theorem tiles1_3 (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  have ht : (i 0).val / 256 < grid1.N := by rw [N_1]; omega
  obtain ⟨e0, e1, e2, e3, e4, e5, e6, e7, e8, e9⟩ := idx_facts1 ⟨(i 0).val / 256, ht⟩
  refine ⟨⟨(i 0).val / 256, ht⟩, flush1_3 _, ?_⟩
  rw [mem_blk1_3]
  intro a
  match a with
  | ⟨0, _⟩ =>
    show win1_3.index ⟨(i 0).val / 256, ht⟩ (0 : Fin 2) * 256 ≤ (i 0).val ∧ (i 0).val < win1_3.index ⟨(i 0).val / 256, ht⟩ (0 : Fin 2) * 256 + 256
    rw [e6]; show (i 0).val / 256 * 256 ≤ (i 0).val ∧ (i 0).val < (i 0).val / 256 * 256 + 256; omega
  | ⟨1, _⟩ =>
    show win1_3.index ⟨(i 0).val / 256, ht⟩ (1 : Fin 2) * 2048 ≤ (i 1).val ∧ (i 1).val < win1_3.index ⟨(i 0).val / 256, ht⟩ (1 : Fin 2) * 2048 + 2048
    rw [e7]; omega

/-- The array of output window 3 after the region is the projection of x by the first weight matrix. -/
theorem final1_3 (c : Dev nD) : (dat1 V c).arrAt 3 cfg1.N = fun i : S16384x2048.Idx =>
    ∑ k : Fin 2048, xArr1 V c (ix2 (i 0 : Fin 16384) k) * w1Arr1 V c (ix2 (i 1 : Fin 2048) k) :=
  (dat1 V c).arrAt_eq_of_cover 3 (proj1_3 V c) (fun t _ => flushed1_3_eq V c t) tiles1_3

/-! ## Output window 4: the projection by the second weight matrix -/

/-- The projection of x by the second weight matrix: entry (r, n) is the sum over k of x[r, k] · W[n, k], rows of x
    against rows of W. -/
def proj1_4 (c : Dev nD) : S16384x2048.Idx → EReal := fun i =>
  ∑ k : Fin 2048, xArr1 V c (ix2 (i 0 : Fin 16384) k) * w2Arr1 V c (ix2 (i 1 : Fin 2048) k)

/-- What point t writes back to window 4 is block t of that projection: entry (p, n) of the block is the sum over
    k of the x block's [p, k], which is x[256 t + p, k], times the weight block's [n, k], which is W[n, k]. -/
theorem flushed1_4_eq (c : Dev nD) (t : Fin cfg1.N) :
    (dat1 V c).flushed 4 t = ((cfg1.win 4).blk t).view.read (Elt Ideal) (proj1_4 V c) := by
  show (cfg1.win 4).cut (grid1.coords t) ((dat1 V c).after 4 t) = _
  rw [after1_4]
  unfold out1_4
  rw [View.canon_unit_zero zeros1]
  simp only [View.ld_unit_zero (S := S256x2048) zeros1, View.ld_unit_zero (S := S2048x2048) zeros1]
  obtain ⟨e0, e1, e2, e3, e4, e5, e6, e7, e8, e9⟩ := idx_facts1 t
  funext j
  obtain ⟨p, n, rfl⟩ : ∃ (p : Fin 256) (n : Fin 2048), j = ix2 p n := ⟨j 0, j 1, eq_ix2 j⟩
  refine (k1_pay3_apply _ _ p n).trans ?_
  show (∑ k : Fin 2048, _) = ∑ k : Fin 2048, xArr1 V c (ix2 ((((cfg1.win 4).blk t).view.emb (ix2 p n)) 0 : Fin 16384) k) * w2Arr1 V c (ix2 ((((cfg1.win 4).blk t).view.emb (ix2 p n)) 1 : Fin 2048) k)
  refine Finset.sum_congr rfl fun k _ => ?_
  show xArr1 V c (((cfg1.win 0).blk t).view.emb (ix2 p k)) * w2Arr1 V c (((cfg1.win 2).blk t).view.emb (ix2 n k))
    = xArr1 V c (ix2 ((((cfg1.win 4).blk t).view.emb (ix2 p n)) 0 : Fin 16384) k) * w2Arr1 V c (ix2 ((((cfg1.win 4).blk t).view.emb (ix2 p n)) 1 : Fin 2048) k)
  have h0 : ((cfg1.win 0).blk t).view.emb (ix2 p k) = ix2 ((((cfg1.win 4).blk t).view.emb (ix2 p n)) 0 : Fin 16384) k := by
    funext a; apply Fin.ext
    match a with
    | ⟨0, _⟩ => show win1_0.index t (0 : Fin 2) * 256 + 1 * p.val = win1_4.index t (0 : Fin 2) * 256 + 1 * p.val; omega
    | ⟨1, _⟩ => show win1_0.index t (1 : Fin 2) * 2048 + 1 * k.val = k.val; omega
  have h1 : ((cfg1.win 2).blk t).view.emb (ix2 n k) = ix2 ((((cfg1.win 4).blk t).view.emb (ix2 p n)) 1 : Fin 2048) k := by
    funext a; apply Fin.ext
    match a with
    | ⟨0, _⟩ => show win1_2.index t (0 : Fin 2) * 2048 + 1 * n.val = win1_4.index t (1 : Fin 2) * 2048 + 1 * n.val; omega
    | ⟨1, _⟩ => show win1_2.index t (1 : Fin 2) * 2048 + 1 * k.val = k.val; omega
  rw [h0, h1]
  rfl

/-- An index of the array is in point t's block iff each coordinate is in the block's range on its axis. -/
theorem mem_blk1_4 (t : Fin cfg1.N) (i : S16384x2048.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_v8_1).slice (win1_4.rect t)).set ↔ _
  rw [View.set_slice_whole, Rect.mem_set_unit]
  exact Iff.rfl

/-- The 64 blocks of 256 rows tile the array: row r is in the block of point r / 256. -/
theorem tiles1_4 (i : S16384x2048.Idx) : ∃ t : Fin cfg1.N, (cfg1.win 4).flush t = true ∧ i ∈ ((cfg1.win 4).blk t).view.set := by
  have hi0 : (i 0).val < 16384 := (i 0).isLt
  have hi1 : (i 1).val < 2048 := (i 1).isLt
  have ht : (i 0).val / 256 < grid1.N := by rw [N_1]; omega
  obtain ⟨e0, e1, e2, e3, e4, e5, e6, e7, e8, e9⟩ := idx_facts1 ⟨(i 0).val / 256, ht⟩
  refine ⟨⟨(i 0).val / 256, ht⟩, flush1_4 _, ?_⟩
  rw [mem_blk1_4]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    rw [e8]; show (i 0).val / 256 * 256 ≤ (i 0).val ∧ (i 0).val < (i 0).val / 256 * 256 + 256; omega
  | ⟨1, _⟩ =>
    show win1_4.index ⟨(i 0).val / 256, ht⟩ (1 : Fin 2) * 2048 ≤ (i 1).val ∧ (i 1).val < win1_4.index ⟨(i 0).val / 256, ht⟩ (1 : Fin 2) * 2048 + 2048
    rw [e9]; omega

/-- The array of output window 4 after the region is the projection of x by the second weight matrix. -/
theorem final1_4 (c : Dev nD) : (dat1 V c).arrAt 4 cfg1.N = fun i : S16384x2048.Idx =>
    ∑ k : Fin 2048, xArr1 V c (ix2 (i 0 : Fin 16384) k) * w2Arr1 V c (ix2 (i 1 : Fin 2048) k) :=
  (dat1 V c).arrAt_eq_of_cover 4 (proj1_4 V c) (fun t _ => flushed1_4_eq V c t) tiles1_4

end Cert.KernelIdeal.Hand

end
-- ==== Proof.KI.Val2.lean ====
/- Region 2, read at the ideal instance: after the region the output array is the projection of x by W,
   entry (r, n) the sum over k of x[r, k] · W[n, k]. At the ideal instance a change of float format is the
   identity, so the two roundings to bf16 in the body disappear. -/
import proofs.«118165_j36936718746194_2_alg».proof.Proof.KI.Reg2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the buffer contents when the region is entered, read at the ideal instance: every entry an extended real
variable (V : (c : Dev nD) → (b : Ref sig .tc) → Buf (Elt Ideal) ((c : Thread nD τ).loc b))

/-! ## The matrix product's operand indices -/

/-- The body's matrix product: [512, 2048] by [2048, 2048], contracting the last axis of both. -/
abbrev dims2 : DotDims S512x2048 S2048x2048 S512x2048 := dot_S512x2048_S2048x2048_S512x2048_1_1_0_0_n_n

/-- The left operand is read at the output's row … -/
theorem dims2_lhs0 (j : S512x2048.Idx) (q : dims2.contr.Idx) : (dims2.lhsIdx j q 0).val = (j 0).val := by
  unfold DotDims.lhsIdx
  rw [dif_neg (show ¬(0 : Fin S512x2048.rank) ∈ dims2.lhsBatch by decide), dif_pos (show (0 : Fin S512x2048.rank) ∈ dims2.lhsNonContracting by decide)]
  rfl
/-- … and the contraction position; -/
theorem dims2_lhs1 (j : S512x2048.Idx) (q : dims2.contr.Idx) : (dims2.lhsIdx j q 1).val = (q ⟨0, by decide⟩).val :=
  dims2.lhsIdx_val_of_single rfl j q
/-- the right operand at the output's column, which is a ROW of the weight matrix, … -/
theorem dims2_rhs0 (j : S512x2048.Idx) (q : dims2.contr.Idx) : (dims2.rhsIdx j q 0).val = (j 1).val := by
  unfold DotDims.rhsIdx
  rw [dif_neg (show ¬(0 : Fin S2048x2048.rank) ∈ dims2.rhsBatch by decide), dif_pos (show (0 : Fin S2048x2048.rank) ∈ dims2.rhsNonContracting by decide)]
  rfl
/-- … and the contraction position. -/
theorem dims2_rhs1 (j : S512x2048.Idx) (q : dims2.contr.Idx) : (dims2.rhsIdx j q 1).val = (q ⟨0, by decide⟩).val :=
  dims2.rhsIdx_val_of_single rfl j q

/-! ## The body's payload at an index -/

/-- Entry (p, n) of what the body stores is the sum over k of x[p, k] · W[n, k]: the roundings are the identity at
    the ideal instance, the cast of the weight block to its own shape is the identity, and the product accumulates
    into zero. -/
theorem pay2_apply (x0 : FVec Ideal S512x2048 .f32) (x1 : FVec Ideal S2048x2048 .bf16) (p : Fin 512) (n : Fin 2048) :
    k2_pay1 (F := Ideal) x0 x1 (ix2 p n) = ∑ k : Fin 2048, x0 (ix2 p k) * x1 (ix2 n k) := by
  unfold k2_pay1
  show FloatOps.matmul dims2 none (truncf .bf16 x0 bitsLt_bf16_f32) (shapeCast S2048x2048 x1 shapeCasts_S2048x2048_S2048x2048) (constant (F := Ideal) S512x2048 .f32 0x00000000#32) (ix2 p n) = _
  rw [shapeCast_self, Ideal.matmul_constant_zero_apply, ← Equiv.sum_comp (contrEquiv1 dims2 2048 rfl rfl).symm]
  refine Finset.sum_congr rfl fun k _ => ?_
  have hk := contrEquiv1_symm_val dims2 2048 rfl rfl k
  have el : dims2.lhsIdx (ix2 p n) ((contrEquiv1 dims2 2048 rfl rfl).symm k) = ix2 p k := funext fun a => Fin.ext (by
    match a with
    | ⟨0, _⟩ => exact dims2_lhs0 _ _
    | ⟨1, _⟩ => exact (dims2_lhs1 _ _).trans hk)
  have er : dims2.rhsIdx (ix2 p n) ((contrEquiv1 dims2 2048 rfl rfl).symm k) = ix2 n k := funext fun a => Fin.ext (by
    match a with
    | ⟨0, _⟩ => exact dims2_rhs0 _ _
    | ⟨1, _⟩ => exact (dims2_rhs1 _ _).trans hk)
  rw [el, er]
  rfl

/-! ## From blocks to the array -/

theorem zeros2 : (![0, 0] : Fin 2 → Nat) = fun _ => 0 := funext fun a => by fin_cases a <;> rfl

/-- The x array, [16384, 2048], as the region finds it, every entry an extended real. -/
abbrev xArr2 (c : Dev nD) : S16384x2048.Idx → EReal := V c (Pipeline.arrRef spec2 0)
/-- The weight array, [2048, 2048], as the region finds it. -/
abbrev wArr2 (c : Dev nD) : S2048x2048.Idx → EReal := V c (Pipeline.arrRef spec2 1)

/-- The projection of x by W: entry (r, n) is the sum over k of x[r, k] · W[n, k], rows of x against rows of W. -/
def proj2 (c : Dev nD) : S16384x2048.Idx → EReal := fun i =>
  ∑ k : Fin 2048, xArr2 V c (ix2 (i 0 : Fin 16384) k) * wArr2 V c (ix2 (i 1 : Fin 2048) k)

/-- The printed index maps, decided over the 32 points: the x window and the output window sit on row block t,
    the point's own number; every other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the projection: entry (p, n) of the block is the sum over k of the x
    block's [p, k], which is x[512 t + p, k], times the weight block's [n, k], which is W[n, k]. -/
theorem flushed2_2_eq (c : Dev nD) (t : Fin cfg2.N) :
    (dat2 V c).flushed 2 t = ((cfg2.win 2).blk t).view.read (Elt Ideal) (proj2 V c) := by
  show (cfg2.win 2).cut (grid2.coords t) ((dat2 V c).after 2 t) = _
  rw [after2_2]
  unfold out2_2
  rw [View.canon_unit_zero zeros2]
  simp only [View.ld_unit_zero (S := S512x2048) zeros2, View.ld_unit_zero (S := S2048x2048) zeros2]
  obtain ⟨e0, e1, e2, e3, e4, e5⟩ := idx_facts2 t
  funext j
  obtain ⟨p, n, rfl⟩ : ∃ (p : Fin 512) (n : Fin 2048), j = ix2 p n := ⟨j 0, j 1, eq_ix2 j⟩
  refine (pay2_apply _ _ p n).trans ?_
  show (∑ k : Fin 2048, _) = ∑ k : Fin 2048, xArr2 V c (ix2 ((((cfg2.win 2).blk t).view.emb (ix2 p n)) 0 : Fin 16384) k) * wArr2 V c (ix2 ((((cfg2.win 2).blk t).view.emb (ix2 p n)) 1 : Fin 2048) k)
  refine Finset.sum_congr rfl fun k _ => ?_
  show xArr2 V c (((cfg2.win 0).blk t).view.emb (ix2 p k)) * wArr2 V c (((cfg2.win 1).blk t).view.emb (ix2 n k))
    = xArr2 V c (ix2 ((((cfg2.win 2).blk t).view.emb (ix2 p n)) 0 : Fin 16384) k) * wArr2 V c (ix2 ((((cfg2.win 2).blk t).view.emb (ix2 p n)) 1 : Fin 2048) k)
  have h0 : ((cfg2.win 0).blk t).view.emb (ix2 p k) = ix2 ((((cfg2.win 2).blk t).view.emb (ix2 p n)) 0 : Fin 16384) k := by
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 2048 + 1 * k.val = k.val; omega
  have h1 : ((cfg2.win 1).blk t).view.emb (ix2 n k) = ix2 ((((cfg2.win 2).blk t).view.emb (ix2 p n)) 1 : Fin 2048) k := by
    funext a; apply Fin.ext
    match a with
    | ⟨0, _⟩ => show win2_1.index t (0 : Fin 2) * 2048 + 1 * n.val = win2_2.index t (1 : Fin 2) * 2048 + 1 * n.val; omega
    | ⟨1, _⟩ => show win2_1.index t (1 : Fin 2) * 2048 + 1 * k.val = k.val; omega
  rw [h0, h1]
  rfl

/-- An index of the array is in point t's block iff each coordinate is in the block's range on its axis. -/
theorem mem_blk2_2 (t : Fin cfg2.N) (i : S16384x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v9).slice (win2_2.rect t)).set ↔ _
  rw [View.set_slice_whole, Rect.mem_set_unit]
  exact Iff.rfl

/-- The 32 blocks of 512 rows tile the array: row r is in the block of point r / 512. -/
theorem tiles2_2 (i : S16384x2048.Idx) : ∃ t : Fin cfg2.N, (cfg2.win 2).flush t = true ∧ i ∈ ((cfg2.win 2).blk t).view.set := by
  have hi0 : (i 0).val < 16384 := (i 0).isLt
  have hi1 : (i 1).val < 2048 := (i 1).isLt
  have ht : (i 0).val / 512 < grid2.N := by rw [N_2]; omega
  obtain ⟨e0, e1, e2, e3, e4, e5⟩ := idx_facts2 ⟨(i 0).val / 512, ht⟩
  refine ⟨⟨(i 0).val / 512, ht⟩, flush2_2 _, ?_⟩
  rw [mem_blk2_2]
  intro a
  match a with
  | ⟨0, _⟩ =>
    show win2_2.index ⟨(i 0).val / 512, ht⟩ (0 : Fin 2) * 512 ≤ (i 0).val ∧ (i 0).val < win2_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win2_2.index ⟨(i 0).val / 512, ht⟩ (1 : Fin 2) * 2048 ≤ (i 1).val ∧ (i 1).val < win2_2.index ⟨(i 0).val / 512, ht⟩ (1 : Fin 2) * 2048 + 2048
    rw [e5]; omega

/-- The output array after the region is the projection of x by W. -/
theorem final2_2 (c : Dev nD) : (dat2 V c).arrAt 2 cfg2.N = fun i : S16384x2048.Idx =>
    ∑ k : Fin 2048, xArr2 V c (ix2 (i 0 : Fin 16384) k) * wArr2 V c (ix2 (i 1 : Fin 2048) k) :=
  (dat2 V c).arrAt_eq_of_cover 2 (proj2 V c) (fun t _ => flushed2_2_eq V c t) tiles2_2

end Cert.KernelIdeal.Hand

end
-- ==== Proof.KI.Proj.lean ====
/-
  The five projections as the fused region and the final region find them: reshaped to eight heads, each entry is the
  product of one input row with one weight row, which is the specification's `proj`.
-/
import proofs.«118165_j36936718746194_2_alg».proof.Proof.KI.Chain
import proofs.«118165_j36936718746194_2_alg».proof.Proof.KI.Val0
import proofs.«118165_j36936718746194_2_alg».proof.Proof.KI.Val1
import proofs.«118165_j36936718746194_2_alg».proof.Proof.KI.Val2

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen Idealize.ShloMosaic.ValueIdx

variable (m : (ℓ : Loc nD τ sig) → Buf (Elt Ideal) ℓ) (ρ : Dev nD → PrngReg)

/-- The reshaped projection `main_v10` at head `h`, row `s`, column `e`: the product of row `2048 h + s` of the input
    with row `e` of weight argument 1. -/
theorem q1_at (c : Dev nD) (h : Fin 8) (s e : Fin 2048) :
    (W5 m ρ c (Proc.devRef .tc main_v10) : S8x2048x2048.Idx → EReal) (ix3 h s e)
      = BiSoftmax.proj (m ((c : Thread nD τ).loc main_arg0)) (m ((c : Thread nD τ).loc main_arg1)) h s e := by
  rw [W5_main_v10 m ρ c h s e]
  have hx : (xArr0 (V1 m ρ) c : S16384x2048.Idx → EReal) = (m ((c : Thread nD τ).loc main_arg0) : S16384x2048.Idx → EReal) :=
    W1_main_arg0 m ρ c
  have hw : (w1Arr0 (V1 m ρ) c : S2048x2048.Idx → EReal) = (m ((c : Thread nD τ).loc main_arg1) : S2048x2048.Idx → EReal) :=
    W1_main_v0 m ρ c
  have hfin := congrFun (((W4_main_v7_0 m ρ c).trans (final0_3 (V1 m ρ) c))) (ix2 (BiSoftmax.row h s) e)
  refine hfin.trans ?_
  unfold BiSoftmax.proj
  simp only [hx, hw]

/-- The reshaped projection `main_v11` at head `h`, row `s`, column `e`: the product of row `2048 h + s` of the input
    with row `e` of weight argument 2. -/
theorem k1_at (c : Dev nD) (h : Fin 8) (s e : Fin 2048) :
    (W5 m ρ c (Proc.devRef .tc main_v11) : S8x2048x2048.Idx → EReal) (ix3 h s e)
      = BiSoftmax.proj (m ((c : Thread nD τ).loc main_arg0)) (m ((c : Thread nD τ).loc main_arg2)) h s e := by
  rw [W5_main_v11 m ρ c h s e]
  have hx : (xArr0 (V1 m ρ) c : S16384x2048.Idx → EReal) = (m ((c : Thread nD τ).loc main_arg0) : S16384x2048.Idx → EReal) :=
    W1_main_arg0 m ρ c
  have hw : (w2Arr0 (V1 m ρ) c : S2048x2048.Idx → EReal) = (m ((c : Thread nD τ).loc main_arg2) : S2048x2048.Idx → EReal) :=
    W1_main_v1 m ρ c
  have hfin := congrFun (((W4_main_v7_1 m ρ c).trans (final0_4 (V1 m ρ) c))) (ix2 (BiSoftmax.row h s) e)
  refine hfin.trans ?_
  unfold BiSoftmax.proj
  simp only [hx, hw]

/-- The reshaped projection `main_v12` at head `h`, row `s`, column `e`: the product of row `2048 h + s` of the input
    with row `e` of weight argument 3. -/
theorem q2_at (c : Dev nD) (h : Fin 8) (s e : Fin 2048) :
    (W5 m ρ c (Proc.devRef .tc main_v12) : S8x2048x2048.Idx → EReal) (ix3 h s e)
      = BiSoftmax.proj (m ((c : Thread nD τ).loc main_arg0)) (m ((c : Thread nD τ).loc main_arg3)) h s e := by
  rw [W5_main_v12 m ρ c h s e]
  have hx : (xArr1 (V2 m ρ) c : S16384x2048.Idx → EReal) = (m ((c : Thread nD τ).loc main_arg0) : S16384x2048.Idx → EReal) :=
    W2_main_arg0 m ρ c
  have hw : (w1Arr1 (V2 m ρ) c : S2048x2048.Idx → EReal) = (m ((c : Thread nD τ).loc main_arg3) : S2048x2048.Idx → EReal) :=
    (W2_main_v2 m ρ c).trans (W1_main_v2 m ρ c)
  have hfin := congrFun (((W4_main_v8_0 m ρ c).trans (final1_3 (V2 m ρ) c))) (ix2 (BiSoftmax.row h s) e)
  refine hfin.trans ?_
  unfold BiSoftmax.proj
  simp only [hx, hw]

/-- The reshaped projection `main_v13` at head `h`, row `s`, column `e`: the product of row `2048 h + s` of the input
    with row `e` of weight argument 4. -/
theorem k2_at (c : Dev nD) (h : Fin 8) (s e : Fin 2048) :
    (W5 m ρ c (Proc.devRef .tc main_v13) : S8x2048x2048.Idx → EReal) (ix3 h s e)
      = BiSoftmax.proj (m ((c : Thread nD τ).loc main_arg0)) (m ((c : Thread nD τ).loc main_arg4)) h s e := by
  rw [W5_main_v13 m ρ c h s e]
  have hx : (xArr1 (V2 m ρ) c : S16384x2048.Idx → EReal) = (m ((c : Thread nD τ).loc main_arg0) : S16384x2048.Idx → EReal) :=
    W2_main_arg0 m ρ c
  have hw : (w2Arr1 (V2 m ρ) c : S2048x2048.Idx → EReal) = (m ((c : Thread nD τ).loc main_arg4) : S2048x2048.Idx → EReal) :=
    (W2_main_v3 m ρ c).trans (W1_main_v3 m ρ c)
  have hfin := congrFun (((W4_main_v8_1 m ρ c).trans (final1_4 (V2 m ρ) c))) (ix2 (BiSoftmax.row h s) e)
  refine hfin.trans ?_
  unfold BiSoftmax.proj
  simp only [hx, hw]

/-- The reshaped projection `main_v14` at head `h`, row `s`, column `e`: the product of row `2048 h + s` of the input
    with row `e` of weight argument 5. -/
theorem v_at (c : Dev nD) (h : Fin 8) (s e : Fin 2048) :
    (W5 m ρ c (Proc.devRef .tc main_v14) : S8x2048x2048.Idx → EReal) (ix3 h s e)
      = BiSoftmax.proj (m ((c : Thread nD τ).loc main_arg0)) (m ((c : Thread nD τ).loc main_arg5)) h s e := by
  rw [W5_main_v14 m ρ c h s e]
  have hx : (xArr2 (V3 m ρ) c : S16384x2048.Idx → EReal) = (m ((c : Thread nD τ).loc main_arg0) : S16384x2048.Idx → EReal) :=
    W3_main_arg0 m ρ c
  have hw : (wArr2 (V3 m ρ) c : S2048x2048.Idx → EReal) = (m ((c : Thread nD τ).loc main_arg5) : S2048x2048.Idx → EReal) :=
    (W3_main_v4 m ρ c).trans (W1_main_v4 m ρ c)
  have hfin := congrFun (((W4_main_v9 m ρ c).trans (final2_2 (V3 m ρ) c))) (ix2 (BiSoftmax.row h s) e)
  refine hfin.trans ?_
  unfold BiSoftmax.proj
  simp only [hx, hw]

end Cert.KernelIdeal.Hand

end
-- ==== Proof.KI.Val4.lean ====
/- Region 4, read at the ideal instance: after the region the output array is, head by head, the product of the
   squared score differences (the fused region's output) with the values, entry (h, s, d) the sum over t of
   d[h, s, t] · v[h, t, d]. The body drops the blocks' leading unit axis, multiplies, and puts the axis back; none
   of that changes an entry. -/
import proofs.«118165_j36936718746194_2_alg».proof.Proof.KI.Reg4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the buffer contents when the region is entered, read at the ideal instance: every entry an extended real
variable (V : (c : Dev nD) → (b : Ref sig .tc) → Buf (Elt Ideal) ((c : Thread nD τ).loc b))

/-! ## The matrix product's operand indices -/

/-- The body's matrix product: [512, 2048] by [2048, 2048], contracting the last axis of the left operand with
    the FIRST axis of the right one. -/
abbrev dims4 : DotDims S512x2048 S2048x2048 S512x2048 := dot_S512x2048_S2048x2048_S512x2048_1_0_0_1_n_n

/-- The left operand is read at the output's row … -/
theorem dims4_lhs0 (j : S512x2048.Idx) (q : dims4.contr.Idx) : (dims4.lhsIdx j q 0).val = (j 0).val := by
  unfold DotDims.lhsIdx
  rw [dif_neg (show ¬(0 : Fin S512x2048.rank) ∈ dims4.lhsBatch by decide), dif_pos (show (0 : Fin S512x2048.rank) ∈ dims4.lhsNonContracting by decide)]
  rfl
/-- … and the contraction position; -/
theorem dims4_lhs1 (j : S512x2048.Idx) (q : dims4.contr.Idx) : (dims4.lhsIdx j q 1).val = (q ⟨0, by decide⟩).val :=
  dims4.lhsIdx_val_of_single rfl j q
/-- the right operand at the contraction position … -/
theorem dims4_rhs0 (j : S512x2048.Idx) (q : dims4.contr.Idx) : (dims4.rhsIdx j q 0).val = (q ⟨0, by decide⟩).val :=
  dims4.rhsIdx_val_of_single rfl j q
/-- … and the output's column. -/
theorem dims4_rhs1 (j : S512x2048.Idx) (q : dims4.contr.Idx) : (dims4.rhsIdx j q 1).val = (j 1).val := by
  unfold DotDims.rhsIdx
  rw [dif_neg (show ¬(1 : Fin S2048x2048.rank) ∈ dims4.rhsBatch by decide), dif_pos (show (1 : Fin S2048x2048.rank) ∈ dims4.rhsNonContracting by decide)]
  rfl

/-! ## The body's payload at an index -/

/-- Entry (u, p, d) of what the body stores is the sum over k of d[0, p, k] · v[0, k, d]: the casts that drop and
    restore the leading unit axis read the same entry, and the product accumulates into zero. -/
theorem k4_pay1_apply (x0 : FVec Ideal S1x512x2048 .bf16) (x1 : FVec Ideal S1x2048x2048 .bf16) (u : Fin 1) (p : Fin 512) (d : Fin 2048) :
    k4_pay1 (F := Ideal) x0 x1 (ix3 u p d) = ∑ k : Fin 2048, x0 (ix3 (0 : Fin 1) p k) * x1 (ix3 (0 : Fin 1) k d) := by
  unfold k4_pay1
  show shapeCast S1x512x2048 (FloatOps.matmul dims4 none (shapeCast S512x2048 x0 shapeCasts_S1x512x2048_S512x2048) (shapeCast S2048x2048 x1 shapeCasts_S1x2048x2048_S2048x2048) (constant (F := Ideal) S512x2048 .f32 0x00000000#32)) shapeCasts_S512x2048_S1x512x2048 (ix3 u p d) = _
  rw [shapeCast_ab_1ab_apply, Ideal.matmul_constant_zero_apply, ← Equiv.sum_comp (contrEquiv1 dims4 2048 rfl rfl).symm]
  refine Finset.sum_congr rfl fun k _ => ?_
  have hk := contrEquiv1_symm_val dims4 2048 rfl rfl k
  have el : dims4.lhsIdx (ix2 p d) ((contrEquiv1 dims4 2048 rfl rfl).symm k) = ix2 p k := funext fun a => Fin.ext (by
    match a with
    | ⟨0, _⟩ => exact dims4_lhs0 _ _
    | ⟨1, _⟩ => exact (dims4_lhs1 _ _).trans hk)
  have er : dims4.rhsIdx (ix2 p d) ((contrEquiv1 dims4 2048 rfl rfl).symm k) = ix2 k d := funext fun a => Fin.ext (by
    match a with
    | ⟨0, _⟩ => exact (dims4_rhs0 _ _).trans hk
    | ⟨1, _⟩ => exact dims4_rhs1 _ _)
  rw [el, er, shapeCast_1ab_ab_apply, shapeCast_1ab_ab_apply]

/-! ## From blocks to the array -/

theorem zeros4 : (![0, 0, 0] : Fin 3 → Nat) = fun _ => 0 := funext fun a => by fin_cases a <;> rfl

/-- The array of squared score differences (the fused region's output), [8, 2048, 2048], as the region finds it,
    every entry an extended real. -/
abbrev sArr4 (c : Dev nD) : S8x2048x2048.Idx → EReal := V c (Pipeline.arrRef spec4 0)
/-- The value array, [8, 2048, 2048], as the region finds it. -/
abbrev vArr4 (c : Dev nD) : S8x2048x2048.Idx → EReal := V c (Pipeline.arrRef spec4 1)

/-- The product of the squared score differences with the values, head by head: entry (h, s, d) is the sum over
    t of d[h, s, t] · v[h, t, d]. -/
def prod4 (c : Dev nD) : S8x2048x2048.Idx → EReal := fun i =>
  ∑ k : Fin 2048, sArr4 V c (ix3 (i 0 : Fin 8) (i 1 : Fin 2048) k) * vArr4 V c (ix3 (i 0 : Fin 8) k (i 2 : Fin 2048))

/-- The printed index maps, decided over the 32 points: point t is head t / 4 and row block t mod 4; the first
    window and the output window sit on that head and row block, the value window on that head's whole matrix. -/
theorem idx_facts4 : ∀ t : Fin cfg4.N, win4_0.index t (0 : Fin 3) = t.val / 4 ∧ win4_0.index t (1 : Fin 3) = t.val % 4 ∧ win4_0.index t (2 : Fin 3) = 0
    ∧ win4_1.index t (0 : Fin 3) = t.val / 4 ∧ win4_1.index t (1 : Fin 3) = 0 ∧ win4_1.index t (2 : Fin 3) = 0
    ∧ win4_2.index t (0 : Fin 3) = t.val / 4 ∧ win4_2.index t (1 : Fin 3) = t.val % 4 ∧ win4_2.index t (2 : Fin 3) = 0 :=
  (by decide +kernel : ∀ t : Fin grid4.N, _)

/-- What point t writes back is block t of the product: entry (0, p, d) of the block is the sum over k of the first
    block's [0, p, k], which is d[h, 512 i + p, k], times the value block's [0, k, d], which is v[h, k, d]. -/
theorem flushed4_2_eq (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero zeros4]
  simp only [View.ld_unit_zero (S := S1x512x2048) zeros4, View.ld_unit_zero (S := S1x2048x2048) zeros4]
  obtain ⟨e0, e1, e2, e3, e4, e5, e6, e7, e8⟩ := idx_facts4 t
  funext j
  obtain ⟨u, p, d, rfl⟩ : ∃ (u : Fin 1) (p : Fin 512) (d : Fin 2048), j = ix3 u p d := ⟨j 0, j 1, j 2, eq_ix3 j⟩
  have hu : u.val = 0 := by omega
  refine (k4_pay1_apply _ _ u p d).trans ?_
  show (∑ k : Fin 2048, _) = ∑ k : Fin 2048, sArr4 V c (ix3 ((((cfg4.win 2).blk t).view.emb (ix3 u p d)) 0 : Fin 8) ((((cfg4.win 2).blk t).view.emb (ix3 u p d)) 1 : Fin 2048) k) * vArr4 V c (ix3 ((((cfg4.win 2).blk t).view.emb (ix3 u p d)) 0 : Fin 8) k ((((cfg4.win 2).blk t).view.emb (ix3 u p d)) 2 : Fin 2048))
  refine Finset.sum_congr rfl fun k _ => ?_
  show sArr4 V c (((cfg4.win 0).blk t).view.emb (ix3 (0 : Fin 1) p k)) * vArr4 V c (((cfg4.win 1).blk t).view.emb (ix3 (0 : Fin 1) k d))
    = sArr4 V c (ix3 ((((cfg4.win 2).blk t).view.emb (ix3 u p d)) 0 : Fin 8) ((((cfg4.win 2).blk t).view.emb (ix3 u p d)) 1 : Fin 2048) k) * vArr4 V c (ix3 ((((cfg4.win 2).blk t).view.emb (ix3 u p d)) 0 : Fin 8) k ((((cfg4.win 2).blk t).view.emb (ix3 u p d)) 2 : Fin 2048))
  have h0 : ((cfg4.win 0).blk t).view.emb (ix3 (0 : Fin 1) p k) = ix3 ((((cfg4.win 2).blk t).view.emb (ix3 u p d)) 0 : Fin 8) ((((cfg4.win 2).blk t).view.emb (ix3 u p d)) 1 : Fin 2048) k := by
    funext a; apply Fin.ext
    match a with
    | ⟨0, _⟩ => show win4_0.index t (0 : Fin 3) * 1 + 1 * 0 = win4_2.index t (0 : Fin 3) * 1 + 1 * u.val; omega
    | ⟨1, _⟩ => show win4_0.index t (1 : Fin 3) * 512 + 1 * p.val = win4_2.index t (1 : Fin 3) * 512 + 1 * p.val; omega
    | ⟨2, _⟩ => show win4_0.index t (2 : Fin 3) * 2048 + 1 * k.val = k.val; omega
  have h1 : ((cfg4.win 1).blk t).view.emb (ix3 (0 : Fin 1) k d) = ix3 ((((cfg4.win 2).blk t).view.emb (ix3 u p d)) 0 : Fin 8) k ((((cfg4.win 2).blk t).view.emb (ix3 u p d)) 2 : Fin 2048) := by
    funext a; apply Fin.ext
    match a with
    | ⟨0, _⟩ => show win4_1.index t (0 : Fin 3) * 1 + 1 * 0 = win4_2.index t (0 : Fin 3) * 1 + 1 * u.val; omega
    | ⟨1, _⟩ => show win4_1.index t (1 : Fin 3) * 2048 + 1 * k.val = k.val; omega
    | ⟨2, _⟩ => show win4_1.index t (2 : Fin 3) * 2048 + 1 * d.val = win4_2.index t (2 : Fin 3) * 2048 + 1 * d.val; omega
  rw [h0, h1]
  rfl

/-- An index of the array is in point t's block iff each coordinate is in the block's range on its axis. -/
theorem mem_blk4_2 (t : Fin cfg4.N) (i : S8x2048x2048.Idx) :
    i ∈ ((cfg4.win 2).blk t).view.set ↔ ∀ a : Fin 3, win4_2.index t a * S1x512x2048.size a ≤ (i a).val ∧ (i a).val < win4_2.index t a * S1x512x2048.size a + S1x512x2048.size a := by
  show i ∈ ((View.whole main_v16).slice (win4_2.rect t)).set ↔ _
  rw [View.set_slice_whole, Rect.mem_set_unit]
  exact Iff.rfl

/-- The 32 blocks tile the array: entry (h, s, d) is in the block of point 4 h + s / 512. -/
theorem tiles4_2 (i : S8x2048x2048.Idx) : ∃ t : Fin cfg4.N, (cfg4.win 2).flush t = true ∧ i ∈ ((cfg4.win 2).blk t).view.set := by
  have hi0 : (i 0).val < 8 := (i 0).isLt
  have hi1 : (i 1).val < 2048 := (i 1).isLt
  have hi2 : (i 2).val < 2048 := (i 2).isLt
  have ht : 4 * (i 0).val + (i 1).val / 512 < grid4.N := by rw [N_4]; omega
  obtain ⟨e0, e1, e2, e3, e4, e5, e6, e7, e8⟩ := idx_facts4 ⟨4 * (i 0).val + (i 1).val / 512, ht⟩
  refine ⟨⟨4 * (i 0).val + (i 1).val / 512, ht⟩, flush4_2 _, ?_⟩
  rw [mem_blk4_2]
  intro a
  match a with
  | ⟨0, _⟩ =>
    show win4_2.index ⟨4 * (i 0).val + (i 1).val / 512, ht⟩ (0 : Fin 3) * 1 ≤ (i 0).val ∧ (i 0).val < win4_2.index ⟨4 * (i 0).val + (i 1).val / 512, ht⟩ (0 : Fin 3) * 1 + 1
    rw [e6]; show (4 * (i 0).val + (i 1).val / 512) / 4 * 1 ≤ (i 0).val ∧ (i 0).val < (4 * (i 0).val + (i 1).val / 512) / 4 * 1 + 1; omega
  | ⟨1, _⟩ =>
    show win4_2.index ⟨4 * (i 0).val + (i 1).val / 512, ht⟩ (1 : Fin 3) * 512 ≤ (i 1).val ∧ (i 1).val < win4_2.index ⟨4 * (i 0).val + (i 1).val / 512, ht⟩ (1 : Fin 3) * 512 + 512
    rw [e7]; show (4 * (i 0).val + (i 1).val / 512) % 4 * 512 ≤ (i 1).val ∧ (i 1).val < (4 * (i 0).val + (i 1).val / 512) % 4 * 512 + 512; omega
  | ⟨2, _⟩ =>
    show win4_2.index ⟨4 * (i 0).val + (i 1).val / 512, ht⟩ (2 : Fin 3) * 2048 ≤ (i 2).val ∧ (i 2).val < win4_2.index ⟨4 * (i 0).val + (i 1).val / 512, ht⟩ (2 : Fin 3) * 2048 + 2048
    rw [e8]; omega

/-- The output array after the region is the product of the squared score differences (the fused region's output)
    with the values, head by head. -/
theorem final4_2 (c : Dev nD) : (dat4 V c).arrAt 2 cfg4.N = fun i : S8x2048x2048.Idx =>
    ∑ k : Fin 2048, sArr4 V c (ix3 (i 0 : Fin 8) (i 1 : Fin 2048) k) * vArr4 V c (ix3 (i 0 : Fin 8) k (i 2 : Fin 2048)) :=
  (dat4 V c).arrAt_eq_of_cover 2 (prod4 V c) (fun t _ => flushed4_2_eq V c t) tiles4_2

end Cert.KernelIdeal.Hand

end
-- ==== Proof.KI.Blk3.lean ====
/- Region 3, the parts that depend on no proof data: where each window's block sits in its array at each of the
   512 grid points, and how the output array is made of its blocks. The grid is 8 x 8 x 8: point
   t = (8 h + q) 8 + s is head h = t / 64, query tile q = t / 8 mod 8 and key chunk s = t mod 8. The two query
   windows and the output window sit on rows 256 q .. 256 q + 255 of head h; the two key windows on rows
   256 s .. 256 s + 255 of head h; the two mixing-weight windows are their whole arrays; inside the body a block of
   256 columns of each mixing weight is read at column offset 256 s. The output is written back when s = 7.
   Everything is read at the ideal instance, every entry an extended real. -/
import proofs.«118165_j36936718746194_2_alg».proof.Proof.Gen.KernelIdeal.Launch
import proofs.«118165_j36936718746194_2_alg».proof.Proof.Gen.KernelIdeal.Points
import proofs.«118165_j36936718746194_2_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Idealize.ShloMosaic.Rounds

/-! ## (i) The printed index maps, decided over the 512 points -/

/-- A point's number is below 512. -/
theorem blk3_lt (t : Fin cfg3.N) : t.val < 512 := lt_of_lt_of_eq t.isLt N_3

/-- The first query window sits on head t / 64, row block t / 8 mod 8. -/
theorem blk3_idx0 : ∀ t : Fin cfg3.N, win3_0.index t (0 : Fin 3) = t.val / 64 ∧ win3_0.index t (1 : Fin 3) = t.val / 8 % 8 ∧ win3_0.index t (2 : Fin 3) = 0 :=
  (by decide +kernel : ∀ t : Fin grid3.N, _)
/-- The second query window likewise. -/
theorem blk3_idx1 : ∀ t : Fin cfg3.N, win3_1.index t (0 : Fin 3) = t.val / 64 ∧ win3_1.index t (1 : Fin 3) = t.val / 8 % 8 ∧ win3_1.index t (2 : Fin 3) = 0 :=
  (by decide +kernel : ∀ t : Fin grid3.N, _)
/-- The first key window sits on head t / 64, row block t mod 8. -/
theorem blk3_idx2 : ∀ t : Fin cfg3.N, win3_2.index t (0 : Fin 3) = t.val / 64 ∧ win3_2.index t (1 : Fin 3) = t.val % 8 ∧ win3_2.index t (2 : Fin 3) = 0 :=
  (by decide +kernel : ∀ t : Fin grid3.N, _)
/-- The second key window likewise. -/
theorem blk3_idx3 : ∀ t : Fin cfg3.N, win3_3.index t (0 : Fin 3) = t.val / 64 ∧ win3_3.index t (1 : Fin 3) = t.val % 8 ∧ win3_3.index t (2 : Fin 3) = 0 :=
  (by decide +kernel : ∀ t : Fin grid3.N, _)
/-- The mixing-weight windows are their whole arrays. -/
theorem blk3_idx4 : ∀ t : Fin cfg3.N, win3_4.index t (0 : Fin 2) = 0 ∧ win3_4.index t (1 : Fin 2) = 0 :=
  (by decide +kernel : ∀ t : Fin grid3.N, _)
theorem blk3_idx5 : ∀ t : Fin cfg3.N, win3_5.index t (0 : Fin 2) = 0 ∧ win3_5.index t (1 : Fin 2) = 0 :=
  (by decide +kernel : ∀ t : Fin grid3.N, _)
/-- The output window sits where the query windows do. -/
theorem blk3_idx6 : ∀ t : Fin cfg3.N, win3_6.index t (0 : Fin 3) = t.val / 64 ∧ win3_6.index t (1 : Fin 3) = t.val / 8 % 8 ∧ win3_6.index t (2 : Fin 3) = 0 :=
  (by decide +kernel : ∀ t : Fin grid3.N, _)
/-- The point's innermost grid coordinate, the key chunk, is t mod 8. -/
theorem blk3_coord2 : ∀ t : Fin cfg3.N, ((grid3.coords t) 2).val = t.val % 8 :=
  (by decide +kernel : ∀ t : Fin grid3.N, _)

/-- All of them at once. -/
theorem idx_facts3 (t : Fin cfg3.N) :
    (win3_0.index t (0 : Fin 3) = t.val / 64 ∧ win3_0.index t (1 : Fin 3) = t.val / 8 % 8 ∧ win3_0.index t (2 : Fin 3) = 0)
    ∧ (win3_1.index t (0 : Fin 3) = t.val / 64 ∧ win3_1.index t (1 : Fin 3) = t.val / 8 % 8 ∧ win3_1.index t (2 : Fin 3) = 0)
    ∧ (win3_2.index t (0 : Fin 3) = t.val / 64 ∧ win3_2.index t (1 : Fin 3) = t.val % 8 ∧ win3_2.index t (2 : Fin 3) = 0)
    ∧ (win3_3.index t (0 : Fin 3) = t.val / 64 ∧ win3_3.index t (1 : Fin 3) = t.val % 8 ∧ win3_3.index t (2 : Fin 3) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 3) = t.val / 64 ∧ win3_6.index t (1 : Fin 3) = t.val / 8 % 8 ∧ win3_6.index t (2 : Fin 3) = 0) :=
  ⟨blk3_idx0 t, blk3_idx1 t, blk3_idx2 t, blk3_idx3 t, blk3_idx4 t, blk3_idx5 t, blk3_idx6 t⟩

/-- The head of point t, -/
abbrev blk3_head (t : Fin cfg3.N) : Fin 8 := ⟨t.val / 64, by have := blk3_lt t; omega⟩
/-- row r of its query tile as a row of the head's matrix, -/
abbrev blk3_qrow (t : Fin cfg3.N) (r : Fin 256) : Fin 2048 := ⟨256 * (t.val / 8 % 8) + r.val, by omega⟩
/-- and row j of its key chunk as a row of the head's matrix: also column j of the mixing weights' column block. -/
abbrev blk3_krow (t : Fin cfg3.N) (j : Fin 256) : Fin 2048 := ⟨256 * (t.val % 8) + j.val, by omega⟩

/-! ## (ii) The blocks read at an index

Each statement is for an arbitrary array of the window's array shape with extended-real entries; it applies to the
region's entry contents of that window's array by definitional unfolding. -/

/-- Entry (0, r, e) of the first query window's block at point t is entry (h, 256 q + r, e) of its array. -/
theorem blk3_q1 (X : S8x2048x2048.Idx → EReal) (t : Fin cfg3.N) (r : Fin 256) (e : Fin 2048) :
    ((cfg3.win 0).blk t).view.read (Elt Ideal) X (ix3 (0 : Fin 1) r e) = X (ix3 (blk3_head t) (blk3_qrow t r) e) := by
  obtain ⟨e0, e1, e2⟩ := blk3_idx0 t
  show X (((cfg3.win 0).blk t).view.emb (ix3 (0 : Fin 1) r e)) = _
  refine congrArg X (funext fun a => Fin.ext ?_)
  match a with
  | ⟨0, _⟩ => show win3_0.index t (0 : Fin 3) * 1 + 1 * 0 = t.val / 64; omega
  | ⟨1, _⟩ => show win3_0.index t (1 : Fin 3) * 256 + 1 * r.val = 256 * (t.val / 8 % 8) + r.val; omega
  | ⟨2, _⟩ => show win3_0.index t (2 : Fin 3) * 2048 + 1 * e.val = e.val; omega

/-- The same of the second query window. -/
theorem blk3_q2 (X : S8x2048x2048.Idx → EReal) (t : Fin cfg3.N) (r : Fin 256) (e : Fin 2048) :
    ((cfg3.win 1).blk t).view.read (Elt Ideal) X (ix3 (0 : Fin 1) r e) = X (ix3 (blk3_head t) (blk3_qrow t r) e) := by
  obtain ⟨e0, e1, e2⟩ := blk3_idx1 t
  show X (((cfg3.win 1).blk t).view.emb (ix3 (0 : Fin 1) r e)) = _
  refine congrArg X (funext fun a => Fin.ext ?_)
  match a with
  | ⟨0, _⟩ => show win3_1.index t (0 : Fin 3) * 1 + 1 * 0 = t.val / 64; omega
  | ⟨1, _⟩ => show win3_1.index t (1 : Fin 3) * 256 + 1 * r.val = 256 * (t.val / 8 % 8) + r.val; omega
  | ⟨2, _⟩ => show win3_1.index t (2 : Fin 3) * 2048 + 1 * e.val = e.val; omega

/-- Entry (0, j, e) of the first key window's block at point t is entry (h, 256 s + j, e) of its array. -/
theorem blk3_k1 (X : S8x2048x2048.Idx → EReal) (t : Fin cfg3.N) (j : Fin 256) (e : Fin 2048) :
    ((cfg3.win 2).blk t).view.read (Elt Ideal) X (ix3 (0 : Fin 1) j e) = X (ix3 (blk3_head t) (blk3_krow t j) e) := by
  obtain ⟨e0, e1, e2⟩ := blk3_idx2 t
  show X (((cfg3.win 2).blk t).view.emb (ix3 (0 : Fin 1) j e)) = _
  refine congrArg X (funext fun a => Fin.ext ?_)
  match a with
  | ⟨0, _⟩ => show win3_2.index t (0 : Fin 3) * 1 + 1 * 0 = t.val / 64; omega
  | ⟨1, _⟩ => show win3_2.index t (1 : Fin 3) * 256 + 1 * j.val = 256 * (t.val % 8) + j.val; omega
  | ⟨2, _⟩ => show win3_2.index t (2 : Fin 3) * 2048 + 1 * e.val = e.val; omega

/-- The same of the second key window. -/
theorem blk3_k2 (X : S8x2048x2048.Idx → EReal) (t : Fin cfg3.N) (j : Fin 256) (e : Fin 2048) :
    ((cfg3.win 3).blk t).view.read (Elt Ideal) X (ix3 (0 : Fin 1) j e) = X (ix3 (blk3_head t) (blk3_krow t j) e) := by
  obtain ⟨e0, e1, e2⟩ := blk3_idx3 t
  show X (((cfg3.win 3).blk t).view.emb (ix3 (0 : Fin 1) j e)) = _
  refine congrArg X (funext fun a => Fin.ext ?_)
  match a with
  | ⟨0, _⟩ => show win3_3.index t (0 : Fin 3) * 1 + 1 * 0 = t.val / 64; omega
  | ⟨1, _⟩ => show win3_3.index t (1 : Fin 3) * 256 + 1 * j.val = 256 * (t.val % 8) + j.val; omega
  | ⟨2, _⟩ => show win3_3.index t (2 : Fin 3) * 2048 + 1 * e.val = e.val; omega

/-- Entry (0, r, u) of the output window's block at point t is entry (h, 256 q + r, u) of its array. -/
theorem blk3_o (X : S8x2048x2048.Idx → EReal) (t : Fin cfg3.N) (r : Fin 256) (e : Fin 2048) :
    ((cfg3.win 6).blk t).view.read (Elt Ideal) X (ix3 (0 : Fin 1) r e) = X (ix3 (blk3_head t) (blk3_qrow t r) e) := by
  obtain ⟨e0, e1, e2⟩ := blk3_idx6 t
  show X (((cfg3.win 6).blk t).view.emb (ix3 (0 : Fin 1) r e)) = _
  refine congrArg X (funext fun a => Fin.ext ?_)
  match a with
  | ⟨0, _⟩ => show win3_6.index t (0 : Fin 3) * 1 + 1 * 0 = t.val / 64; omega
  | ⟨1, _⟩ => show win3_6.index t (1 : Fin 3) * 256 + 1 * r.val = 256 * (t.val / 8 % 8) + r.val; omega
  | ⟨2, _⟩ => show win3_6.index t (2 : Fin 3) * 2048 + 1 * e.val = e.val; omega

/-- The first mixing-weight window's block is its whole array, at every point. -/
theorem blk3_w1 (Y : S2048x2048.Idx → EReal) (t : Fin cfg3.N) :
    ((cfg3.win 4).blk t).view.read (Elt Ideal) Y = Y := by
  obtain ⟨e0, e1⟩ := blk3_idx4 t
  funext y
  show Y (((cfg3.win 4).blk t).view.emb y) = Y y
  refine congrArg Y (funext fun a => Fin.ext ?_)
  match a with
  | ⟨0, _⟩ => show win3_4.index t (0 : Fin 2) * 2048 + 1 * (y 0).val = (y 0).val; omega
  | ⟨1, _⟩ => show win3_4.index t (1 : Fin 2) * 2048 + 1 * (y 1).val = (y 1).val; omega

/-- The same of the second mixing-weight window. -/
theorem blk3_w2 (Y : S2048x2048.Idx → EReal) (t : Fin cfg3.N) :
    ((cfg3.win 5).blk t).view.read (Elt Ideal) Y = Y := by
  obtain ⟨e0, e1⟩ := blk3_idx5 t
  funext y
  show Y (((cfg3.win 5).blk t).view.emb y) = Y y
  refine congrArg Y (funext fun a => Fin.ext ?_)
  match a with
  | ⟨0, _⟩ => show win3_5.index t (0 : Fin 2) * 2048 + 1 * (y 0).val = (y 0).val; omega
  | ⟨1, _⟩ => show win3_5.index t (1 : Fin 2) * 2048 + 1 * (y 1).val = (y 1).val; omega

/-! ## (iii) The body's column block of a mixing weight -/

/-- The body reads, of a whole 2048 x 2048 mixing-weight block, the 256 columns from column 256 s on: entry (u, j)
    of what it loads is entry (u, 256 s + j) of the block. The offset is computed in the body by word arithmetic from
    the point's innermost coordinate; its closed form is ![0, 256 s]. -/
theorem blk3_cols (Y : Vec Ideal S2048x2048 .bf16) (t : Fin cfg3.N) (u : Fin 2048) (j : Fin 256) :
    View.ld Y (Rect.unit (s := S2048x2048) (k3_off1 (grid3.coords t)) S2048x256.size (k3_off1_inb (grid3.coords t))) (ix2 u j)
      = Y (ix2 u (blk3_krow t j)) := by
  show Y ((Rect.unit (s := S2048x2048) (k3_off1 (grid3.coords t)) S2048x256.size (k3_off1_inb (grid3.coords t))).idx (ix2 u j)) = _
  refine congrArg Y (funext fun a => Fin.ext ?_)
  match a with
  | ⟨0, _⟩ =>
    show k3_off1 (grid3.coords t) 0 + 1 * u.val = u.val
    rw [k3_off1_eq]; show 0 + 1 * u.val = u.val; omega
  | ⟨1, _⟩ =>
    show k3_off1 (grid3.coords t) 1 + 1 * j.val = 256 * (t.val % 8) + j.val
    rw [k3_off1_eq]; show 256 * ((grid3.coords t) 2).val + 1 * j.val = 256 * (t.val % 8) + j.val
    rw [blk3_coord2 t]; omega

/-! ## (iv) The output array from its blocks -/

/-- An index of the output array is in point t's block iff each coordinate is in the block's range on its axis. -/
theorem blk3_mem_o (t : Fin cfg3.N) (i : S8x2048x2048.Idx) :
    i ∈ ((cfg3.win 6).blk t).view.set ↔ ∀ a : Fin 3, win3_6.index t a * S1x256x2048.size a ≤ (i a).val ∧ (i a).val < win3_6.index t a * S1x256x2048.size a + S1x256x2048.size a := by
  show i ∈ ((View.whole main_v15).slice (win3_6.rect t)).set ↔ _
  rw [View.set_slice_whole, Rect.mem_set_unit]
  exact Iff.rfl

/-- The blocks written back tile the array: entry (h, s, d) is in the block of the LAST key chunk of head h and
    query tile s / 256, the point (8 h + s / 256) 8 + 7, which writes back. -/
theorem blk3_tiles_o (i : S8x2048x2048.Idx) : ∃ t : Fin cfg3.N, (cfg3.win 6).flush t = true ∧ i ∈ ((cfg3.win 6).blk t).view.set := by
  have hi0 : (i 0).val < 8 := (i 0).isLt
  have hi1 : (i 1).val < 2048 := (i 1).isLt
  have hi2 : (i 2).val < 2048 := (i 2).isLt
  have ht : ((i 0).val * 8 + (i 1).val / 256) * 8 + 7 < grid3.N := by rw [N_3]; omega
  obtain ⟨e0, e1, e2⟩ := blk3_idx6 ⟨((i 0).val * 8 + (i 1).val / 256) * 8 + 7, ht⟩
  refine ⟨⟨((i 0).val * 8 + (i 1).val / 256) * 8 + 7, ht⟩, (flush3_6 _).mpr ?_, ?_⟩
  · show (((i 0).val * 8 + (i 1).val / 256) * 8 + 7) % 8 = 7; omega
  rw [blk3_mem_o]
  intro a
  match a with
  | ⟨0, _⟩ =>
    show win3_6.index ⟨((i 0).val * 8 + (i 1).val / 256) * 8 + 7, ht⟩ (0 : Fin 3) * 1 ≤ (i 0).val ∧ (i 0).val < win3_6.index ⟨((i 0).val * 8 + (i 1).val / 256) * 8 + 7, ht⟩ (0 : Fin 3) * 1 + 1
    rw [e0]; show (((i 0).val * 8 + (i 1).val / 256) * 8 + 7) / 64 * 1 ≤ (i 0).val ∧ (i 0).val < (((i 0).val * 8 + (i 1).val / 256) * 8 + 7) / 64 * 1 + 1; omega
  | ⟨1, _⟩ =>
    show win3_6.index ⟨((i 0).val * 8 + (i 1).val / 256) * 8 + 7, ht⟩ (1 : Fin 3) * 256 ≤ (i 1).val ∧ (i 1).val < win3_6.index ⟨((i 0).val * 8 + (i 1).val / 256) * 8 + 7, ht⟩ (1 : Fin 3) * 256 + 256
    rw [e1]; show (((i 0).val * 8 + (i 1).val / 256) * 8 + 7) / 8 % 8 * 256 ≤ (i 1).val ∧ (i 1).val < (((i 0).val * 8 + (i 1).val / 256) * 8 + 7) / 8 % 8 * 256 + 256; omega
  | ⟨2, _⟩ =>
    show win3_6.index ⟨((i 0).val * 8 + (i 1).val / 256) * 8 + 7, ht⟩ (2 : Fin 3) * 2048 ≤ (i 2).val ∧ (i 2).val < win3_6.index ⟨((i 0).val * 8 + (i 1).val / 256) * 8 + 7, ht⟩ (2 : Fin 3) * 2048 + 2048
    rw [e2]; omega

/-- The output array after the region, for ANY proof data of the region's pipeline: if every point that writes back
    (the points with t mod 8 = 7) writes block t of one function G of the array's indices, the array ends as G. -/
theorem blk3_final_o {c : Dev nD} (dat : Dat τ (Elt Ideal) Unit ℕ (UR sig nD τ) ℕ cfg3 c) (G : S8x2048x2048.Idx → EReal)
    (hG : ∀ t : Fin cfg3.N, t.val % 8 = 7 → dat.flushed 6 t = ((cfg3.win 6).blk t).view.read (Elt Ideal) G) :
    dat.arrAt 6 cfg3.N = G :=
  dat.arrAt_eq_of_cover 6 G (fun t hf => hG t ((flush3_6 t).mp hf)) blk3_tiles_o

end Cert.KernelIdeal.Hand

end
-- ==== Proof.KI.Pay3.lean ====
/-
  The fused dual online-softmax body, read at an index over the extended reals: each value the body computes from the
  blocks it loads — the scaled scores of a query block against a key chunk, the running row maximum, the rescaling
  factor, the exponential weights, the running row sum and the running weighted accumulator, for each of the two
  softmaxes, and the squared difference of the two normalised accumulators it writes out — as a formula in the
  elements of its operands.
-/
import proofs.«118165_j36936718746194_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand.Pay3

open Idealize.ShloMosaic Idealize.SL.Sem Idealize.ShloMosaic.ValueIdx
open Cert.KernelIdeal Cert.KernelIdeal.Gen

/-! ## The two contractions -/

theorem scoreDot_lhs0 (i : S256x256.Idx) (q : dot_S256x2048_S256x2048_S256x256_1_1_0_0_n_n.contr.Idx) : (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide),
    dif_pos (show (0 : Fin S256x2048.rank) ∈ dot_S256x2048_S256x2048_S256x256_1_1_0_0_n_n.lhsNonContracting by decide)]
  rfl
theorem scoreDot_lhs1 (i : S256x256.Idx) (q : dot_S256x2048_S256x2048_S256x256_1_1_0_0_n_n.contr.Idx) : (dot_S256x2048_S256x2048_S256x256_1_1_0_0_n_n.lhsIdx i q 1).val = (q ⟨0, by decide⟩).val :=
  dot_S256x2048_S256x2048_S256x256_1_1_0_0_n_n.lhsIdx_val_of_single rfl i q
theorem scoreDot_rhs0 (i : S256x256.Idx) (q : dot_S256x2048_S256x2048_S256x256_1_1_0_0_n_n.contr.Idx) : (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide),
    dif_pos (show (0 : Fin S256x2048.rank) ∈ dot_S256x2048_S256x2048_S256x256_1_1_0_0_n_n.rhsNonContracting by decide)]
  rfl
theorem scoreDot_rhs1 (i : S256x256.Idx) (q : dot_S256x2048_S256x2048_S256x256_1_1_0_0_n_n.contr.Idx) : (dot_S256x2048_S256x2048_S256x256_1_1_0_0_n_n.rhsIdx i q 1).val = (q ⟨0, by decide⟩).val :=
  dot_S256x2048_S256x2048_S256x256_1_1_0_0_n_n.rhsIdx_val_of_single rfl i q

/-- The score contraction (rows of a `[256, 2048]` block against rows of another) at `(r, j)`: the sum over the
    2048 features of the products of row `r` of the left block and row `j` of the right one. -/
theorem scoreDot_apply (a b : FVec Ideal S256x2048 .bf16) (r j : Fin 256) :
    matmul dot_S256x2048_S256x2048_S256x256_1_1_0_0_n_n none a b (constant (F := Ideal) S256x256 .f32 0x00000000#32) (ix2 r j)
      = ∑ e : Fin 2048, a (ix2 r e) * b (ix2 j e) := by
  simp only [matmul]
  rw [Ideal.matmul_constant_zero_apply, ← Equiv.sum_comp (contrEquiv1 dot_S256x2048_S256x2048_S256x256_1_1_0_0_n_n 2048 rfl rfl).symm]
  refine Finset.sum_congr rfl fun e _ => ?_
  have hk := contrEquiv1_symm_val dot_S256x2048_S256x2048_S256x256_1_1_0_0_n_n 2048 rfl rfl e
  have el : dot_S256x2048_S256x2048_S256x256_1_1_0_0_n_n.lhsIdx (ix2 r j) ((contrEquiv1 dot_S256x2048_S256x2048_S256x256_1_1_0_0_n_n 2048 rfl rfl).symm e) = ix2 r e :=
    funext fun c => Fin.ext (by
      match c with
      | ⟨0, _⟩ => exact scoreDot_lhs0 _ _
      | ⟨1, _⟩ => exact (scoreDot_lhs1 _ _).trans hk)
  have er : dot_S256x2048_S256x2048_S256x256_1_1_0_0_n_n.rhsIdx (ix2 r j) ((contrEquiv1 dot_S256x2048_S256x2048_S256x256_1_1_0_0_n_n 2048 rfl rfl).symm e) = ix2 j e :=
    funext fun c => Fin.ext (by
      match c with
      | ⟨0, _⟩ => exact scoreDot_rhs0 _ _
      | ⟨1, _⟩ => exact (scoreDot_rhs1 _ _).trans hk)
  rw [el, er]

theorem mixDot_lhs0 (i : S256x2048.Idx) (q : dot_S256x256_S2048x256_S256x2048_1_1_0_0_n_n.contr.Idx) : (dot_S256x256_S2048x256_S256x2048_1_1_0_0_n_n.lhsIdx i q 0).val = (i 0).val := by
  unfold DotDims.lhsIdx
  rw [dif_neg (show ¬(0 : Fin S256x256.rank) ∈ dot_S256x256_S2048x256_S256x2048_1_1_0_0_n_n.lhsBatch by decide),
    dif_pos (show (0 : Fin S256x256.rank) ∈ dot_S256x256_S2048x256_S256x2048_1_1_0_0_n_n.lhsNonContracting by decide)]
  rfl
theorem mixDot_lhs1 (i : S256x2048.Idx) (q : dot_S256x256_S2048x256_S256x2048_1_1_0_0_n_n.contr.Idx) : (dot_S256x256_S2048x256_S256x2048_1_1_0_0_n_n.lhsIdx i q 1).val = (q ⟨0, by decide⟩).val :=
  dot_S256x256_S2048x256_S256x2048_1_1_0_0_n_n.lhsIdx_val_of_single rfl i q
theorem mixDot_rhs0 (i : S256x2048.Idx) (q : dot_S256x256_S2048x256_S256x2048_1_1_0_0_n_n.contr.Idx) : (dot_S256x256_S2048x256_S256x2048_1_1_0_0_n_n.rhsIdx i q 0).val = (i 1).val := by
  unfold DotDims.rhsIdx
  rw [dif_neg (show ¬(0 : Fin S2048x256.rank) ∈ dot_S256x256_S2048x256_S256x2048_1_1_0_0_n_n.rhsBatch by decide),
    dif_pos (show (0 : Fin S2048x256.rank) ∈ dot_S256x256_S2048x256_S256x2048_1_1_0_0_n_n.rhsNonContracting by decide)]
  rfl
theorem mixDot_rhs1 (i : S256x2048.Idx) (q : dot_S256x256_S2048x256_S256x2048_1_1_0_0_n_n.contr.Idx) : (dot_S256x256_S2048x256_S256x2048_1_1_0_0_n_n.rhsIdx i q 1).val = (q ⟨0, by decide⟩).val :=
  dot_S256x256_S2048x256_S256x2048_1_1_0_0_n_n.rhsIdx_val_of_single rfl i q

/-- The mixing contraction (a `[256, 256]` block of softmax weights against 256 mixing-weight columns, a `[2048, 256]`
    block) at `(r, u)`: the sum over the 256 chunk positions of the softmax weight at `(r, j)` times the mixing weight
    at `(u, j)`. -/
theorem mixDot_apply (p : FVec Ideal S256x256 .bf16) (w : FVec Ideal S2048x256 .bf16) (r : Fin 256) (u : Fin 2048) :
    matmul dot_S256x256_S2048x256_S256x2048_1_1_0_0_n_n none p w (constant (F := Ideal) S256x2048 .f32 0x00000000#32) (ix2 r u)
      = ∑ j : Fin 256, p (ix2 r j) * w (ix2 u j) := by
  simp only [matmul]
  rw [Ideal.matmul_constant_zero_apply, ← Equiv.sum_comp (contrEquiv1 dot_S256x256_S2048x256_S256x2048_1_1_0_0_n_n 256 rfl rfl).symm]
  refine Finset.sum_congr rfl fun e _ => ?_
  have hk := contrEquiv1_symm_val dot_S256x256_S2048x256_S256x2048_1_1_0_0_n_n 256 rfl rfl e
  have el : dot_S256x256_S2048x256_S256x2048_1_1_0_0_n_n.lhsIdx (ix2 r u) ((contrEquiv1 dot_S256x256_S2048x256_S256x2048_1_1_0_0_n_n 256 rfl rfl).symm e) = ix2 r e :=
    funext fun c => Fin.ext (by
      match c with
      | ⟨0, _⟩ => exact mixDot_lhs0 _ _
      | ⟨1, _⟩ => exact (mixDot_lhs1 _ _).trans hk)
  have er : dot_S256x256_S2048x256_S256x2048_1_1_0_0_n_n.rhsIdx (ix2 r u) ((contrEquiv1 dot_S256x256_S2048x256_S256x2048_1_1_0_0_n_n 256 rfl rfl).symm e) = ix2 u e :=
    funext fun c => Fin.ext (by
      match c with
      | ⟨0, _⟩ => exact mixDot_rhs0 _ _
      | ⟨1, _⟩ => exact (mixDot_rhs1 _ _).trans hk)
  rw [el, er]

/-! ## The scores -/

/-- The softmax scale as the kernel writes it: the value of the f32 word `0x3CB504F3` (the single-precision rounding of
    `1 / sqrt 2048`). -/
def scale : Ideal .f32 := Ideal.ofBits .f32 0x3CB504F3#32
theorem scale_eq : scale = Ideal.ofBits .f32 0x3CB504F3#32 := rfl

/-- Scores of the first softmax at `(r, j)`: the dot product of row `r` of the query block with row `j` of the key
    chunk, times the scale. -/
theorem pay15_apply (q k : Vec Ideal S1x256x2048 .bf16) (r j : Fin 256) :
    k3_pay15 (F := Ideal) q k (ix2 r j) = (∑ e : Fin 2048, q (ix3 0 r e) * k (ix3 0 j e)) * scale := by
  unfold k3_pay15
  simp only [mulf_apply, broadcast_apply, scoreDot_apply, shapeCast_1ab_ab_apply]
  rfl

/-- Scores of the second softmax at `(r, j)`, over the two blocks already cast to `[256, 2048]`. -/
theorem pay22_apply (a b : FVec Ideal S256x2048 .bf16) (r j : Fin 256) :
    k3_pay22 (F := Ideal) a b (ix2 r j) = (∑ e : Fin 2048, a (ix2 r e) * b (ix2 j e)) * scale := by
  unfold k3_pay22
  simp only [mulf_apply, broadcast_apply, scoreDot_apply]
  rfl

/-! ## The column layouts and the lane reductions -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Every index of a column is `(i, 0)`. -/
theorem col_ix {a : ℕ} (i : (⟨2, ![a, 1]⟩ : Shape).Idx) : i = ix2 (i 0) (0 : Fin 1) :=
  (eq_ix2 i).trans (congrArg (ix2 (i 0)) (Subsingleton.elim (α := Fin 1) (i 1) 0))

/-- Row index `r` of the lane reduction with lane coordinate `j` put back is `(r, j)`. -/
theorem lift_row (h : S256x256.Reduces [1] S256) (r j : Fin 256) : h.lift (ix1 r) j = ix2 r j :=
  funext fun c => Fin.ext (by
    match c with
    | ⟨0, _⟩ => rfl
    | ⟨1, _⟩ => rfl)

/-- The lane sum of a `[256, 256]` block at row `r`: the sum over the 256 lanes. -/
theorem rowSum_apply (p : FVec Ideal S256x256 .f32) (h : S256x256.Reduces [1] S256) (hφ : FKind.Formats .f32)
    (hacc : (0x00000000#32 : BitVec 32) = 0x00000000#32) (r : Fin 256) :
    multiReduction (F := Ideal) .add [1] S256 p 0x00000000#32 h hφ hacc (ix1 r) = ∑ j : Fin 256, p (ix2 r j) := by
  refine (Ideal.multiReduction_add_single p 0x00000000#32 h hφ hacc (ix1 r)).trans ?_
  exact Finset.sum_congr rfl fun j _ => congrArg p (lift_row h r j)

/-- The word `0xFF800000` is minus infinity, the least extended real. -/
theorem ofBits_neg_inf : Ideal.ofBits .f32 0xFF800000#32 = (⊥ : EReal) := by simp [Ideal.ofBits, Ideal.ieee]

/-- The lane maximum of a `[256, 256]` block at row `r`: the supremum over the 256 lanes (from minus infinity). -/
theorem rowMax_apply (s : FVec Ideal S256x256 .f32) (h : S256x256.Reduces [1] S256) (hφ : FKind.Formats .f32)
    (hacc : (0xFF800000#32 : BitVec 32) = 0xFF800000#32) (r : Fin 256) :
    multiReduction (F := Ideal) .maximumf [1] S256 s 0xFF800000#32 h hφ hacc (ix1 r)
      = (Finset.univ : Finset (Fin 256)).sup fun j => (s (ix2 r j) : EReal) := by
  refine (Ideal.multiReduction_maximumf_single s 0xFF800000#32 h hφ hacc (ix1 r)).trans ?_
  have e : (s ∘ h.lift (ix1 r)) = fun j : Fin 256 => s (ix2 r j) := funext fun j => congrArg s (lift_row h r j)
  have hb : FloatOps.ofBits (F := Ideal) .f32 0xFF800000#32 = (⊥ : EReal) := ofBits_neg_inf
  rw [e, hb]
  rfl

/-! ## The first softmax's step -/

/-- New running maximum of row `r`: the larger of the old one and the row's largest score. -/
theorem pay16_apply (q k : Vec Ideal S1x256x2048 .bf16) (m : Vec Ideal S256x1 .f32) (r : Fin 256) :
    k3_pay16 (F := Ideal) q k m (ix2 r (0 : Fin 1))
      = max (m (ix2 r (0 : Fin 1))) ((Finset.univ : Finset (Fin 256)).sup fun j => (k3_pay15 (F := Ideal) q k (ix2 r j) : EReal)) := by
  unfold k3_pay16
  simp only [maximumf_apply, shapeCast_a_a1_apply]
  exact congrArg (max (m (ix2 r (0 : Fin 1)))) (rowMax_apply (k3_pay15 (F := Ideal) q k) _ _ _ r)

/-- Rescaling factor of row `r`: the exponential of the old maximum (as loaded a second time) minus the new one. -/
theorem pay17_apply (q k : Vec Ideal S1x256x2048 .bf16) (m m' : Vec Ideal S256x1 .f32) (r : Fin 256) :
    k3_pay17 (F := Ideal) q k m m' (ix2 r (0 : Fin 1))
      = Ideal.exp (m' (ix2 r (0 : Fin 1)) - k3_pay16 (F := Ideal) q k m (ix2 r (0 : Fin 1))) := rfl

/-- Weight at `(r, j)`: the exponential of the score minus the row's new maximum. -/
theorem pay18_apply (q k : Vec Ideal S1x256x2048 .bf16) (m : Vec Ideal S256x1 .f32) (r j : Fin 256) :
    k3_pay18 (F := Ideal) q k m (ix2 r j)
      = Ideal.exp (k3_pay15 (F := Ideal) q k (ix2 r j) - k3_pay16 (F := Ideal) q k m (ix2 r (0 : Fin 1))) := by
  unfold k3_pay18
  show Ideal.exp (k3_pay15 (F := Ideal) q k (ix2 r j)
    - broadcastTo S256x256 (k3_pay16 (F := Ideal) q k m) broadcasts_S256x1_S256x256 (ix2 r j)) = _
  rw [broadcastTo_a1_ab_apply]

/-- New running sum of row `r`: the rescaled old sum plus the sum of the row's weights. -/
theorem pay19_apply (rr : FVec Ideal S256x1 .f32) (p : FVec Ideal S256x256 .f32) (l : Vec Ideal S256x1 .f32) (r : Fin 256) :
    k3_pay19 (F := Ideal) rr p l (ix2 r (0 : Fin 1))
      = rr (ix2 r (0 : Fin 1)) * l (ix2 r (0 : Fin 1)) + ∑ j : Fin 256, p (ix2 r j) := by
  unfold k3_pay19
  simp only [shapeCast_self, addf_apply, mulf_apply, shapeCast_a_a1_apply]
  exact congrArg (rr (ix2 r (0 : Fin 1)) * l (ix2 r (0 : Fin 1)) + ·) (rowSum_apply p _ _ _ r)

/-- New accumulator at `(r, u)`: the rescaled old one plus the softmax weights of row `r` against row `u` of the
    mixing-weight columns. -/
theorem pay20_apply (wc : FVec Ideal S2048x256 .bf16) (rr : FVec Ideal S256x1 .f32) (p : FVec Ideal S256x256 .f32)
    (acc : Vec Ideal S256x2048 .f32) (r : Fin 256) (u : Fin 2048) :
    k3_pay20 (F := Ideal) wc rr p acc (ix2 r u)
      = rr (ix2 r (0 : Fin 1)) * acc (ix2 r u) + ∑ j : Fin 256, p (ix2 r j) * wc (ix2 u j) := by
  unfold k3_pay20
  simp only [shapeCast_self, addf_apply, mulf_apply, broadcastTo_a1_ab_apply, mixDot_apply, truncf_apply]

/-- The stored maximum is the new maximum. -/
theorem pay21_eq (v : FVec Ideal S256x1 .f32) : k3_pay21 (F := Ideal) v = v := shapeCast_self _ _

/-! ## The second softmax's step -/

/-- New running maximum of row `r` of the second softmax. -/
theorem pay23_apply (a b : FVec Ideal S256x2048 .bf16) (m : Vec Ideal S256x1 .f32) (r : Fin 256) :
    k3_pay23 (F := Ideal) a b m (ix2 r (0 : Fin 1))
      = max (m (ix2 r (0 : Fin 1))) ((Finset.univ : Finset (Fin 256)).sup fun j => (k3_pay22 (F := Ideal) a b (ix2 r j) : EReal)) := by
  unfold k3_pay23
  simp only [maximumf_apply, shapeCast_a_a1_apply]
  exact congrArg (max (m (ix2 r (0 : Fin 1)))) (rowMax_apply (k3_pay22 (F := Ideal) a b) _ _ _ r)

/-- Rescaling factor of row `r` of the second softmax. -/
theorem pay24_apply (a b : FVec Ideal S256x2048 .bf16) (m m' : Vec Ideal S256x1 .f32) (r : Fin 256) :
    k3_pay24 (F := Ideal) a b m m' (ix2 r (0 : Fin 1))
      = Ideal.exp (m' (ix2 r (0 : Fin 1)) - k3_pay23 (F := Ideal) a b m (ix2 r (0 : Fin 1))) := rfl

/-- Weight at `(r, j)` of the second softmax. -/
theorem pay25_apply (a b : FVec Ideal S256x2048 .bf16) (m : Vec Ideal S256x1 .f32) (r j : Fin 256) :
    k3_pay25 (F := Ideal) a b m (ix2 r j)
      = Ideal.exp (k3_pay22 (F := Ideal) a b (ix2 r j) - k3_pay23 (F := Ideal) a b m (ix2 r (0 : Fin 1))) := by
  unfold k3_pay25
  show Ideal.exp (k3_pay22 (F := Ideal) a b (ix2 r j)
    - broadcastTo S256x256 (k3_pay23 (F := Ideal) a b m) broadcasts_S256x1_S256x256 (ix2 r j)) = _
  rw [broadcastTo_a1_ab_apply]

/-- The rescaled old sum of row `r` of the second softmax. -/
theorem pay26_apply (a b : FVec Ideal S256x2048 .bf16) (m m' l : Vec Ideal S256x1 .f32) (r : Fin 256) :
    k3_pay26 (F := Ideal) a b m m' l (ix2 r (0 : Fin 1))
      = k3_pay24 (F := Ideal) a b m m' (ix2 r (0 : Fin 1)) * l (ix2 r (0 : Fin 1)) := rfl

/-- New running sum of row `r` of the second softmax: the rescaled old sum plus the sum of the row's weights. -/
theorem pay1_apply (p : FVec Ideal S256x256 .f32) (rl : FVec Ideal S256x1 .f32) (r : Fin 256) :
    k3_pay1 (F := Ideal) p rl (ix2 r (0 : Fin 1)) = rl (ix2 r (0 : Fin 1)) + ∑ j : Fin 256, p (ix2 r j) := by
  unfold k3_pay1
  simp only [shapeCast_self, addf_apply, shapeCast_a_a1_apply]
  exact congrArg (rl (ix2 r (0 : Fin 1)) + ·) (rowSum_apply p _ _ _ r)

/-- New accumulator at `(r, u)` of the second softmax, against its own mixing-weight columns. -/
theorem pay2_apply (wc : FVec Ideal S2048x256 .bf16) (rr : FVec Ideal S256x1 .f32) (p : FVec Ideal S256x256 .f32)
    (acc : Vec Ideal S256x2048 .f32) (r : Fin 256) (u : Fin 2048) :
    k3_pay2 (F := Ideal) wc rr p acc (ix2 r u)
      = rr (ix2 r (0 : Fin 1)) * acc (ix2 r u) + ∑ j : Fin 256, p (ix2 r j) * wc (ix2 u j) := by
  unfold k3_pay2
  simp only [shapeCast_self, addf_apply, mulf_apply, broadcastTo_a1_ab_apply, mixDot_apply, truncf_apply]

/-- The stored maximum of the second softmax is the new maximum. -/
theorem pay3_eq (v : FVec Ideal S256x1 .f32) : k3_pay3 (F := Ideal) v = v := shapeCast_self _ _

/-! ## The loaded blocks, the initial values and the output -/

/-- A `[1, 256, 2048]` block cast to `[256, 2048]` reads `(0, r, e)` at `(r, e)`. -/
theorem pay11_apply (v : Vec Ideal S1x256x2048 .bf16) (r : Fin 256) (e : Fin 2048) :
    k3_pay11 (F := Ideal) v (ix2 r e) = v (ix3 (0 : Fin 1) r e) := by
  unfold k3_pay11
  exact shapeCast_1ab_ab_apply v _ r e
theorem pay12_apply (v : Vec Ideal S1x256x2048 .bf16) (r : Fin 256) (e : Fin 2048) :
    k3_pay12 (F := Ideal) v (ix2 r e) = v (ix3 (0 : Fin 1) r e) := by
  unfold k3_pay12
  exact shapeCast_1ab_ab_apply v _ r e
/-- The mixing-weight columns are cast to their own shape. -/
theorem pay13_eq (v : Vec Ideal S2048x256 .bf16) : k3_pay13 (F := Ideal) v = v := shapeCast_self _ _
theorem pay14_eq (v : Vec Ideal S2048x256 .bf16) : k3_pay14 (F := Ideal) v = v := shapeCast_self _ _

/-- The running maxima start at minus infinity. -/
theorem pay5_apply (i : S256x1.Idx) : k3_pay5 (F := Ideal) i = (⊥ : EReal) := by
  unfold k3_pay5
  simp only [shapeCast_self, broadcast_apply]
  exact ofBits_neg_inf
theorem pay8_apply (i : S256x1.Idx) : k3_pay8 (F := Ideal) i = (⊥ : EReal) := by
  unfold k3_pay8
  simp only [shapeCast_self, broadcast_apply]
  exact ofBits_neg_inf
/-- The running sums and accumulators start at zero. -/
theorem pay6_apply (i : S256x1.Idx) : k3_pay6 (F := Ideal) i = (0 : EReal) := by
  unfold k3_pay6
  simp only [shapeCast_self, broadcast_apply]
  exact Ideal.ofBits_zero_f32
theorem pay9_apply (i : S256x1.Idx) : k3_pay9 (F := Ideal) i = (0 : EReal) := by
  unfold k3_pay9
  simp only [shapeCast_self, broadcast_apply]
  exact Ideal.ofBits_zero_f32
theorem pay7_apply (i : S256x2048.Idx) : k3_pay7 (F := Ideal) i = (0 : EReal) := by
  unfold k3_pay7
  simp only [shapeCast_self, broadcast_apply]
  exact Ideal.ofBits_zero_f32
theorem pay10_apply (i : S256x2048.Idx) : k3_pay10 (F := Ideal) i = (0 : EReal) := by
  unfold k3_pay10
  simp only [shapeCast_self, broadcast_apply]
  exact Ideal.ofBits_zero_f32

/-- The output at `(0, r, u)`: the square of the difference of the two accumulators, each divided by its row's sum. -/
theorem pay4_apply (a1 : Vec Ideal S256x2048 .f32) (l1 : Vec Ideal S256x1 .f32) (a2 : Vec Ideal S256x2048 .f32)
    (l2 : Vec Ideal S256x1 .f32) (z : Fin 1) (r : Fin 256) (u : Fin 2048) :
    k3_pay4 (F := Ideal) a1 l1 a2 l2 (ix3 z r u)
      = (Ideal.div (a1 (ix2 r u)) (l1 (ix2 r (0 : Fin 1))) - Ideal.div (a2 (ix2 r u)) (l2 (ix2 r (0 : Fin 1))))
        * (Ideal.div (a1 (ix2 r u)) (l1 (ix2 r (0 : Fin 1))) - Ideal.div (a2 (ix2 r u)) (l2 (ix2 r (0 : Fin 1)))) := by
  unfold k3_pay4
  simp only [shapeCast_ab_1ab_apply, truncf_apply, mulf_apply, subf_apply, divf_apply, broadcastTo_a1_ab_apply]
-- ==== Proof.LibOnlineSoftmax.lean ====
import Mathlib.Analysis.SpecialFunctions.Exp
import Mathlib.Algebra.BigOperators.Fin
import Mathlib.Algebra.BigOperators.Field
import Mathlib.Data.Fintype.BigOperators
import Mathlib.Logic.Equiv.Fin.Basic

/-!
# The online softmax recurrence over the reals

Softmax of scores `σ t` followed by a weighting `ω t` is
`(∑ t, exp (σ t - M) / L * ω t)` with `M = max_t σ t` and `L = ∑ t, exp (σ t - M)`.
The *online* form never sees all scores at once. It visits them chunk by chunk and
carries a state `(m, l, a)`: after a chunk with scores `s i` and weights `w i`

  `m' = max m (max_i s i)`,
  `l' = exp (m - m') * l + ∑ i, exp (s i - m')`,
  `a' = exp (m - m') * a + ∑ i, exp (s i - m') * w i`,

and at the end answers `a / l`.

This file proves, over `ℝ`, that after the chunks `0, …, k` the state is
`(M, ∑ exp (σ - M), ∑ exp (σ - M) * ω)` taken over all scores seen so far, and that
`a / l` is the softmax-weighted sum. Three layers, each usable alone:

* **Rescaling** (`sum_exp_rescale`, `sum_exp_union`): for *any* two reference points
  `m, m'` one has `∑_T exp (σ - m') * ω = exp (m - m') * ∑_T exp (σ - m) * ω`; so one step of
  the recurrence extends the sums from a set `T` to `T ∪ C`. No maximum is involved: the
  reference points only have to be real numbers.
* **The recurrence** (`runMax`, `runSum`, `runAcc` and their closed forms): chunks are
  numbered by `ℕ`, positions inside a chunk by a finite nonempty type `γ`. The recurrence
  starts from the state after the FIRST chunk, `(max s₀, ∑ exp (s₀ - max s₀), …)`: the customary
  start `(-∞, 0, 0)` is not a real state, and its first step (`exp (-∞ - m') = 0`,
  `0 * 0 + x = x`) produces exactly that state.
* **Flattening** (`sum_chunks`, `chunk_bijective`, `run*_flat`): when the chunk/position pairs
  `(j, i)`, `j < n`, enumerate an index type `ι` bijectively (for instance
  `t = c * j + i : Fin (n * c)`), the closed forms are sums and a maximum over all of `ι`.

Finally `sum_mul_div` is the quotient law `(∑ e * ω) / L = ∑ (e / L) * ω`.
-/

namespace OnlineSoftmax

open Finset

/-! ### Rescaling -/

section Rescale

variable {ι : Type*}

/-- Changing the reference point of a weighted sum of exponentials from `m` to `m'`
    multiplies it by `exp (m - m')`. -/
theorem sum_exp_rescale (T : Finset ι) (σ ω : ι → ℝ) (m m' : ℝ) :
    ∑ t ∈ T, Real.exp (σ t - m') * ω t
      = Real.exp (m - m') * ∑ t ∈ T, Real.exp (σ t - m) * ω t := by
  rw [Finset.mul_sum]
  refine Finset.sum_congr rfl fun t _ => ?_
  rw [← mul_assoc, ← Real.exp_add]
  congr 2
  ring

/-- The same without weights. -/
theorem sum_exp_rescale_one (T : Finset ι) (σ : ι → ℝ) (m m' : ℝ) :
    ∑ t ∈ T, Real.exp (σ t - m')
      = Real.exp (m - m') * ∑ t ∈ T, Real.exp (σ t - m) := by
  simpa using sum_exp_rescale T σ (fun _ => 1) m m'

/-- One step of the online recurrence on the numerator: the sum over `T` at reference
    point `m`, rescaled, plus the new chunk `C` at the new reference point `m'`, is the sum
    over `T ∪ C` at `m'`. -/
theorem sum_exp_union [DecidableEq ι] {T C : Finset ι} (h : Disjoint T C) (σ ω : ι → ℝ)
    (m m' : ℝ) :
    ∑ t ∈ T ∪ C, Real.exp (σ t - m') * ω t
      = Real.exp (m - m') * (∑ t ∈ T, Real.exp (σ t - m) * ω t)
        + ∑ t ∈ C, Real.exp (σ t - m') * ω t := by
  rw [Finset.sum_union h, sum_exp_rescale T σ ω m m']

/-- One step of the online recurrence on the denominator. -/
theorem sum_exp_union_one [DecidableEq ι] {T C : Finset ι} (h : Disjoint T C) (σ : ι → ℝ)
    (m m' : ℝ) :
    ∑ t ∈ T ∪ C, Real.exp (σ t - m')
      = Real.exp (m - m') * (∑ t ∈ T, Real.exp (σ t - m))
        + ∑ t ∈ C, Real.exp (σ t - m') := by
  rw [Finset.sum_union h, sum_exp_rescale_one T σ m m']

/-- A sum of exponentials over a nonempty set is positive. -/
theorem sum_exp_pos {T : Finset ι} (hT : T.Nonempty) (σ : ι → ℝ) (m : ℝ) :
    0 < ∑ t ∈ T, Real.exp (σ t - m) :=
  Finset.sum_pos (fun _ _ => Real.exp_pos _) hT

/-- At the maximum as reference point the denominator is at least `1`. -/
theorem one_le_sum_exp {T : Finset ι} (hT : T.Nonempty) (σ : ι → ℝ) :
    1 ≤ ∑ t ∈ T, Real.exp (σ t - T.sup' hT σ) := by
  obtain ⟨t₀, ht₀, h₀⟩ := Finset.exists_mem_eq_sup' hT σ
  calc (1 : ℝ) = Real.exp (σ t₀ - T.sup' hT σ) := by rw [h₀, sub_self, Real.exp_zero]
    _ ≤ ∑ t ∈ T, Real.exp (σ t - T.sup' hT σ) :=
        Finset.single_le_sum (f := fun t => Real.exp (σ t - T.sup' hT σ))
          (fun _ _ => (Real.exp_pos _).le) ht₀

/-- The quotient law: dividing the weighted sum by `L` is weighting by the quotients. -/
theorem sum_mul_div (T : Finset ι) (e ω : ι → ℝ) (L : ℝ) :
    (∑ t ∈ T, e t * ω t) / L = ∑ t ∈ T, e t / L * ω t := by
  rw [Finset.sum_div]
  exact Finset.sum_congr rfl fun t _ => by ring

end Rescale

/-! ### The recurrence -/

section Recurrence

variable {γ : Type*} [Fintype γ] [Nonempty γ]

/-- The maximum of one chunk. -/
noncomputable def chunkMax (s : γ → ℝ) : ℝ := univ.sup' univ_nonempty s

theorem le_chunkMax (s : γ → ℝ) (i : γ) : s i ≤ chunkMax s :=
  Finset.le_sup' s (mem_univ i)

theorem chunkMax_attained (s : γ → ℝ) : ∃ i, chunkMax s = s i := by
  obtain ⟨i, -, h⟩ := Finset.exists_mem_eq_sup' (univ_nonempty (α := γ)) s
  exact ⟨i, h⟩

/-- The running maximum after the chunks `0, …, k`. -/
noncomputable def runMax (s : ℕ → γ → ℝ) : ℕ → ℝ
  | 0 => chunkMax (s 0)
  | k + 1 => max (runMax s k) (chunkMax (s (k + 1)))

/-- The running denominator after the chunks `0, …, k`. -/
noncomputable def runSum (s : ℕ → γ → ℝ) : ℕ → ℝ
  | 0 => ∑ i, Real.exp (s 0 i - runMax s 0)
  | k + 1 => Real.exp (runMax s k - runMax s (k + 1)) * runSum s k
      + ∑ i, Real.exp (s (k + 1) i - runMax s (k + 1))

/-- The running numerator after the chunks `0, …, k`. -/
noncomputable def runAcc (s w : ℕ → γ → ℝ) : ℕ → ℝ
  | 0 => ∑ i, Real.exp (s 0 i - runMax s 0) * w 0 i
  | k + 1 => Real.exp (runMax s k - runMax s (k + 1)) * runAcc s w k
      + ∑ i, Real.exp (s (k + 1) i - runMax s (k + 1)) * w (k + 1) i

@[simp] theorem runMax_zero (s : ℕ → γ → ℝ) : runMax s 0 = chunkMax (s 0) := rfl
@[simp] theorem runMax_succ (s : ℕ → γ → ℝ) (k : ℕ) :
    runMax s (k + 1) = max (runMax s k) (chunkMax (s (k + 1))) := rfl
theorem runSum_zero (s : ℕ → γ → ℝ) :
    runSum s 0 = ∑ i, Real.exp (s 0 i - runMax s 0) := rfl
theorem runSum_succ (s : ℕ → γ → ℝ) (k : ℕ) :
    runSum s (k + 1) = Real.exp (runMax s k - runMax s (k + 1)) * runSum s k
      + ∑ i, Real.exp (s (k + 1) i - runMax s (k + 1)) := rfl
theorem runAcc_zero (s w : ℕ → γ → ℝ) :
    runAcc s w 0 = ∑ i, Real.exp (s 0 i - runMax s 0) * w 0 i := rfl
theorem runAcc_succ (s w : ℕ → γ → ℝ) (k : ℕ) :
    runAcc s w (k + 1) = Real.exp (runMax s k - runMax s (k + 1)) * runAcc s w k
      + ∑ i, Real.exp (s (k + 1) i - runMax s (k + 1)) * w (k + 1) i := rfl

/-- The running maximum bounds every score seen so far. -/
theorem le_runMax (s : ℕ → γ → ℝ) {j k : ℕ} (hjk : j ≤ k) (i : γ) : s j i ≤ runMax s k := by
  induction k with
  | zero =>
    obtain rfl : j = 0 := Nat.le_zero.mp hjk
    exact le_chunkMax _ i
  | succ k ih =>
    rcases Nat.lt_or_ge j (k + 1) with h | h
    · exact (ih (Nat.lt_succ_iff.mp h)).trans (le_max_left _ _)
    · obtain rfl : j = k + 1 := le_antisymm hjk h
      exact (le_chunkMax _ i).trans (le_max_right _ _)

/-- The running maximum is one of the scores seen so far. -/
theorem runMax_attained (s : ℕ → γ → ℝ) (k : ℕ) : ∃ j ≤ k, ∃ i, runMax s k = s j i := by
  induction k with
  | zero =>
    obtain ⟨i, h⟩ := chunkMax_attained (s 0)
    exact ⟨0, le_rfl, i, h⟩
  | succ k ih =>
    rcases max_cases (runMax s k) (chunkMax (s (k + 1))) with ⟨h, -⟩ | ⟨h, -⟩
    · obtain ⟨j, hj, i, hi⟩ := ih
      exact ⟨j, hj.trans (Nat.le_succ k), i, by rw [runMax_succ, h, hi]⟩
    · obtain ⟨i, hi⟩ := chunkMax_attained (s (k + 1))
      exact ⟨k + 1, le_rfl, i, by rw [runMax_succ, h, hi]⟩

/-- The running maximum is the least upper bound of the scores seen so far. -/
theorem runMax_le_iff (s : ℕ → γ → ℝ) (k : ℕ) (b : ℝ) :
    runMax s k ≤ b ↔ ∀ j ≤ k, ∀ i, s j i ≤ b := by
  constructor
  · intro h j hj i
    exact (le_runMax s hj i).trans h
  · intro h
    obtain ⟨j, hj, i, hi⟩ := runMax_attained s k
    rw [hi]
    exact h j hj i

/-- Closed form of the running numerator. -/
theorem runAcc_eq (s w : ℕ → γ → ℝ) (k : ℕ) :
    runAcc s w k = ∑ j ∈ range (k + 1), ∑ i, Real.exp (s j i - runMax s k) * w j i := by
  induction k with
  | zero => rw [runAcc_zero, Finset.sum_range_one]
  | succ k ih =>
    rw [runAcc_succ, ih, Finset.sum_range_succ _ (k + 1), Finset.mul_sum]
    congr 1
    refine Finset.sum_congr rfl fun j _ => ?_
    exact (sum_exp_rescale univ (s j) (w j) (runMax s k) (runMax s (k + 1))).symm

/-- Closed form of the running denominator. -/
theorem runSum_eq (s : ℕ → γ → ℝ) (k : ℕ) :
    runSum s k = ∑ j ∈ range (k + 1), ∑ i, Real.exp (s j i - runMax s k) := by
  induction k with
  | zero => rw [runSum_zero, Finset.sum_range_one]
  | succ k ih =>
    rw [runSum_succ, ih, Finset.sum_range_succ _ (k + 1), Finset.mul_sum]
    congr 1
    refine Finset.sum_congr rfl fun j _ => ?_
    exact (sum_exp_rescale_one univ (s j) (runMax s k) (runMax s (k + 1))).symm

/-- The running denominator is positive, so the final quotient is a genuine one. -/
theorem runSum_pos (s : ℕ → γ → ℝ) (k : ℕ) : 0 < runSum s k := by
  rw [runSum_eq]
  refine Finset.sum_pos (fun j _ => sum_exp_pos univ_nonempty (s j) _) ?_
  exact ⟨0, Finset.mem_range.mpr (Nat.succ_pos k)⟩

theorem runSum_ne_zero (s : ℕ → γ → ℝ) (k : ℕ) : runSum s k ≠ 0 := (runSum_pos s k).ne'

/-- The running denominator is at least `1`: the maximal score contributes `exp 0`. -/
theorem one_le_runSum (s : ℕ → γ → ℝ) (k : ℕ) : 1 ≤ runSum s k := by
  rw [runSum_eq]
  obtain ⟨j, hj, i, hi⟩ := runMax_attained s k
  have hj' : j ∈ range (k + 1) := Finset.mem_range.mpr (Nat.lt_succ_iff.mpr hj)
  calc (1 : ℝ) = Real.exp (s j i - runMax s k) := by rw [hi, sub_self, Real.exp_zero]
    _ ≤ ∑ i', Real.exp (s j i' - runMax s k) :=
        Finset.single_le_sum (f := fun i' => Real.exp (s j i' - runMax s k))
          (fun _ _ => (Real.exp_pos _).le) (mem_univ i)
    _ ≤ ∑ j' ∈ range (k + 1), ∑ i', Real.exp (s j' i' - runMax s k) :=
        Finset.single_le_sum (f := fun j' => ∑ i', Real.exp (s j' i' - runMax s k))
          (fun _ _ => Finset.sum_nonneg fun _ _ => (Real.exp_pos _).le) hj'

/-- What the online form answers: the softmax-weighted sum over everything seen. -/
theorem runAcc_div_runSum (s w : ℕ → γ → ℝ) (k : ℕ) :
    runAcc s w k / runSum s k
      = ∑ j ∈ range (k + 1), ∑ i, Real.exp (s j i - runMax s k) / runSum s k * w j i := by
  rw [runAcc_eq, Finset.sum_div]
  refine Finset.sum_congr rfl fun j _ => ?_
  exact sum_mul_div univ _ _ _

end Recurrence

/-! ### Flattening: chunks that enumerate one index type -/

section Flat

variable {γ : Type*} [Fintype γ] {ι : Type*} [Fintype ι]

/-- A sum over `ι` read chunk by chunk, when `(j, i) ↦ idx j i` enumerates `ι`: `g j i` is the
    summand at position `i` of chunk `j`. -/
theorem sum_chunks {n : ℕ} (idx : Fin n → γ → ι)
    (hidx : Function.Bijective fun p : Fin n × γ => idx p.1 p.2) (f : ι → ℝ) (g : ℕ → γ → ℝ)
    (hg : ∀ (j : Fin n) (i : γ), g j i = f (idx j i)) :
    ∑ j ∈ range n, ∑ i, g j i = ∑ t, f t := by
  rw [Finset.sum_range fun j => ∑ i, g j i,
    ← Fintype.sum_bijective _ hidx (fun p => f (idx p.1 p.2)) f (fun _ => rfl),
    Fintype.sum_prod_type]
  exact Finset.sum_congr rfl fun j _ => Finset.sum_congr rfl fun i _ => hg j i

variable [Nonempty γ]

/-- After all `n + 1` chunks the running maximum bounds every score … -/
theorem le_runMax_flat {n : ℕ} (idx : Fin (n + 1) → γ → ι)
    (hidx : Function.Bijective fun p : Fin (n + 1) × γ => idx p.1 p.2) (σ : ι → ℝ)
    (s : ℕ → γ → ℝ) (hs : ∀ (j : Fin (n + 1)) (i : γ), s j i = σ (idx j i)) (t : ι) :
    σ t ≤ runMax s n := by
  obtain ⟨⟨j, i⟩, rfl⟩ := hidx.2 t
  rw [← hs j i]
  exact le_runMax s (Nat.lt_succ_iff.mp j.isLt) i

/-- … and is one of them: it is the maximum of all scores. -/
theorem runMax_flat_attained {n : ℕ} (idx : Fin (n + 1) → γ → ι) (σ : ι → ℝ)
    (s : ℕ → γ → ℝ) (hs : ∀ (j : Fin (n + 1)) (i : γ), s j i = σ (idx j i)) :
    ∃ t, runMax s n = σ t := by
  obtain ⟨j, hj, i, h⟩ := runMax_attained s n
  exact ⟨idx ⟨j, Nat.lt_succ_iff.mpr hj⟩ i, by rw [h, ← hs ⟨j, _⟩ i]⟩

/-- The running maximum after all chunks is `Finset.sup'` of the scores. -/
theorem runMax_flat {n : ℕ} (idx : Fin (n + 1) → γ → ι)
    (hidx : Function.Bijective fun p : Fin (n + 1) × γ => idx p.1 p.2) (σ : ι → ℝ)
    (s : ℕ → γ → ℝ) (hs : ∀ (j : Fin (n + 1)) (i : γ), s j i = σ (idx j i))
    (hne : (univ : Finset ι).Nonempty) :
    runMax s n = univ.sup' hne σ := by
  apply le_antisymm
  · obtain ⟨t, ht⟩ := runMax_flat_attained idx σ s hs
    rw [ht]
    exact Finset.le_sup' σ (mem_univ t)
  · exact Finset.sup'_le hne σ fun t _ => le_runMax_flat idx hidx σ s hs t

/-- The running denominator after all chunks is the full sum of exponentials. -/
theorem runSum_flat {n : ℕ} (idx : Fin (n + 1) → γ → ι)
    (hidx : Function.Bijective fun p : Fin (n + 1) × γ => idx p.1 p.2) (σ : ι → ℝ)
    (s : ℕ → γ → ℝ) (hs : ∀ (j : Fin (n + 1)) (i : γ), s j i = σ (idx j i)) :
    runSum s n = ∑ t, Real.exp (σ t - runMax s n) := by
  rw [runSum_eq]
  exact sum_chunks idx hidx (fun t => Real.exp (σ t - runMax s n)) _ fun j i => by rw [hs j i]

/-- The running numerator after all chunks is the full weighted sum of exponentials. -/
theorem runAcc_flat {n : ℕ} (idx : Fin (n + 1) → γ → ι)
    (hidx : Function.Bijective fun p : Fin (n + 1) × γ => idx p.1 p.2) (σ ω : ι → ℝ)
    (s w : ℕ → γ → ℝ) (hs : ∀ (j : Fin (n + 1)) (i : γ), s j i = σ (idx j i))
    (hw : ∀ (j : Fin (n + 1)) (i : γ), w j i = ω (idx j i)) :
    runAcc s w n = ∑ t, Real.exp (σ t - runMax s n) * ω t := by
  rw [runAcc_eq]
  exact sum_chunks idx hidx (fun t => Real.exp (σ t - runMax s n) * ω t) _ fun j i => by
    rw [hs j i, hw j i]

/-- **The online softmax is the softmax.** After all `n + 1` chunks, `a / l` is the sum of the
    weights against the softmax of the scores, each computed with the overall maximum `M` as
    reference point and the full denominator `L = ∑ exp (σ - M)`. -/
theorem online_eq_softmax {n : ℕ} (idx : Fin (n + 1) → γ → ι)
    (hidx : Function.Bijective fun p : Fin (n + 1) × γ => idx p.1 p.2) (σ ω : ι → ℝ)
    (s w : ℕ → γ → ℝ) (hs : ∀ (j : Fin (n + 1)) (i : γ), s j i = σ (idx j i))
    (hw : ∀ (j : Fin (n + 1)) (i : γ), w j i = ω (idx j i))
    (hne : (univ : Finset ι).Nonempty) :
    runAcc s w n / runSum s n
      = ∑ t, Real.exp (σ t - univ.sup' hne σ)
          / (∑ t', Real.exp (σ t' - univ.sup' hne σ)) * ω t := by
  rw [runAcc_flat idx hidx σ ω s w hs hw, runSum_flat idx hidx σ s hs,
    runMax_flat idx hidx σ s hs hne]
  exact sum_mul_div univ _ _ _

/-- Equal chunks of length `c`: position `i` of chunk `j` is `c * j + i` in `Fin (n * c)`. -/
def chunkIdx (n c : ℕ) (j : Fin n) (i : Fin c) : Fin (n * c) :=
  ⟨c * j + i, by
    calc c * (j : ℕ) + i < c * j + c := Nat.add_lt_add_left i.isLt _
      _ = c * (j + 1) := (Nat.mul_succ _ _).symm
      _ ≤ c * n := Nat.mul_le_mul_left _ j.isLt
      _ = n * c := Nat.mul_comm _ _⟩

@[simp] theorem chunkIdx_val (n c : ℕ) (j : Fin n) (i : Fin c) :
    (chunkIdx n c j i : ℕ) = c * j + i := rfl

/-- The positions `c * j + i` enumerate `Fin (n * c)`. -/
theorem chunkIdx_bijective (n c : ℕ) :
    Function.Bijective fun p : Fin n × Fin c => chunkIdx n c p.1 p.2 := by
  have h : (fun p : Fin n × Fin c => chunkIdx n c p.1 p.2)
      = (finProdFinEquiv : Fin n × Fin c ≃ Fin (n * c)) := by
    funext p
    apply Fin.ext
    simp [finProdFinEquiv, Nat.add_comm]
  rw [h]
  exact finProdFinEquiv.bijective

end Flat

end OnlineSoftmax
-- ==== Proof.SpecReal.lean ====
import proofs.«118165_j36936718746194_2_alg».proof.Proof.Spec
import proofs.«118165_j36936718746194_2_alg».proof.Proof.LibOnlineSoftmax

/-!
# The specification on real inputs, and the online recurrence on the extended reals

When every entry of the eight arrays is (the coercion of) a real number, every intermediate
value of the specification is one too: the projections and the scores are coercions of the real
sums, a row's supremum is the coercion of the real maximum, the softmax denominator is a positive
real, and the extended reals' division by it is the real division. So the mixed score is the
coercion of the real softmax-weighted sum, which by `OnlineSoftmax.online_eq_softmax` is the
quotient `a / l` the online recurrence over eight chunks of 256 positions ends with.

The second half states one step of that recurrence as it is computed on the extended reals, on
coerced operands: the new maximum, the rescaling factor, the new denominator and the new numerator
are the coercions of the real step; and the first step from `(-∞, 0, 0)`, where the rescaling
factor is `exp (-∞) = 0`.
-/

noncomputable section

open scoped BigOperators

namespace BiSoftmax

open Idealize.ShloMosaic Idealize.ShloMosaic.ValueIdx OnlineSoftmax

/-! ## Coercions through sums, maxima, exponentials and quotients -/

/-- The coercion of a finite real sum is the sum of the coercions. -/
theorem coe_sum {ι : Type*} (T : Finset ι) (f : ι → ℝ) :
    ((∑ i ∈ T, f i : ℝ) : EReal) = ∑ i ∈ T, (f i : EReal) := by
  induction T using Finset.cons_induction with
  | empty => simp
  | cons a T ha ih => rw [Finset.sum_cons, Finset.sum_cons, EReal.coe_add, ih]

/-- The coercion of a maximum of two reals is the maximum of the coercions. -/
theorem coe_max (a b : ℝ) : ((max a b : ℝ) : EReal) = max (a : EReal) (b : EReal) :=
  EReal.coe_strictMono.monotone.map_max

/-- The supremum in the extended reals of finitely many reals is their maximum. -/
theorem sup_coe {γ : Type*} [Fintype γ] [Nonempty γ] (σ : γ → ℝ) :
    Finset.univ.sup (fun t => ((σ t : ℝ) : EReal))
      = ((Finset.univ.sup' Finset.univ_nonempty σ : ℝ) : EReal) := by
  apply le_antisymm
  · exact Finset.sup_le fun t _ => EReal.coe_le_coe_iff.2 (Finset.le_sup' σ (Finset.mem_univ t))
  · obtain ⟨t, -, ht⟩ := Finset.exists_mem_eq_sup' (Finset.univ_nonempty (α := γ)) σ
    rw [ht]
    exact Finset.le_sup (f := fun t => ((σ t : ℝ) : EReal)) (Finset.mem_univ t)

/-- The exponential of a difference of two reals. -/
theorem exp_coe_sub (a b : ℝ) :
    Ideal.exp ((a : EReal) - (b : EReal)) = ((Real.exp (a - b) : ℝ) : EReal) := rfl

/-- The extended reals' division of a real by a nonzero real is the real quotient. -/
theorem div_coe_coe (a : ℝ) {l : ℝ} (hl : l ≠ 0) :
    Ideal.div (a : EReal) (l : EReal) = ((a / l : ℝ) : EReal) := by
  rw [Ideal.div_coe hl, ← EReal.coe_mul, mul_one_div]

/-! ## One step of the online recurrence, on the extended reals -/

section Online

variable {γ : Type*} [Fintype γ] [Nonempty γ]

/-- The new maximum: the old one against the supremum of the chunk. -/
theorem step_max (m : ℝ) (s : γ → ℝ) :
    max (m : EReal) (Finset.univ.sup fun j => ((s j : ℝ) : EReal))
      = ((max m (chunkMax s) : ℝ) : EReal) := by
  rw [sup_coe, coe_max]
  rfl

/-- The first maximum: `-∞` against the supremum of the chunk. -/
theorem first_max (s : γ → ℝ) :
    max (⊥ : EReal) (Finset.univ.sup fun j => ((s j : ℝ) : EReal)) = ((chunkMax s : ℝ) : EReal) := by
  rw [max_eq_right bot_le, sup_coe]
  rfl

/-- The new maximum, given by its universal property instead of as a supremum. -/
theorem step_max_of_le_iff (m : ℝ) (s : γ → ℝ) (M' : EReal)
    (hM : ∀ z : EReal, M' ≤ z ↔ ((m : EReal) ≤ z ∧ ∀ j, ((s j : ℝ) : EReal) ≤ z)) :
    M' = ((max m (chunkMax s) : ℝ) : EReal) := by
  rw [← step_max]
  apply le_antisymm
  · rw [hM]
    exact ⟨le_max_left _ _, fun j =>
      le_trans (Finset.le_sup (f := fun j => ((s j : ℝ) : EReal)) (Finset.mem_univ j)) (le_max_right _ _)⟩
  · have h := (hM M').1 le_rfl
    exact max_le h.1 (Finset.sup_le fun j _ => h.2 j)

/-- The first maximum, given by its universal property. -/
theorem first_max_of_le_iff (s : γ → ℝ) (M' : EReal)
    (hM : ∀ z : EReal, M' ≤ z ↔ ∀ j, ((s j : ℝ) : EReal) ≤ z) :
    M' = ((chunkMax s : ℝ) : EReal) := by
  rw [← first_max, max_eq_right bot_le]
  apply le_antisymm
  · rw [hM]
    exact fun j => Finset.le_sup (f := fun j => ((s j : ℝ) : EReal)) (Finset.mem_univ j)
  · exact Finset.sup_le fun j _ => (hM M').1 le_rfl j

/-- The new denominator. -/
theorem step_sum (m m' l : ℝ) (s : γ → ℝ) :
    Ideal.exp ((m : EReal) - (m' : EReal)) * (l : EReal)
        + ∑ j, Ideal.exp (((s j : ℝ) : EReal) - (m' : EReal))
      = ((Real.exp (m - m') * l + ∑ j, Real.exp (s j - m') : ℝ) : EReal) := by
  simp only [exp_coe_sub, EReal.coe_add, EReal.coe_mul, coe_sum]

/-- The new denominator, the chunk's sum taken from `0`. -/
theorem step_sum_zero_add (m m' l : ℝ) (s : γ → ℝ) :
    Ideal.exp ((m : EReal) - (m' : EReal)) * (l : EReal)
        + (0 + ∑ j, Ideal.exp (((s j : ℝ) : EReal) - (m' : EReal)))
      = ((Real.exp (m - m') * l + ∑ j, Real.exp (s j - m') : ℝ) : EReal) := by
  rw [zero_add, step_sum]

/-- The new numerator. -/
theorem step_acc (m m' a : ℝ) (s w : γ → ℝ) :
    Ideal.exp ((m : EReal) - (m' : EReal)) * (a : EReal)
        + ∑ j, Ideal.exp (((s j : ℝ) : EReal) - (m' : EReal)) * ((w j : ℝ) : EReal)
      = ((Real.exp (m - m') * a + ∑ j, Real.exp (s j - m') * w j : ℝ) : EReal) := by
  simp only [exp_coe_sub, EReal.coe_add, EReal.coe_mul, coe_sum]

/-- From `-∞` the rescaling factor is `0`. -/
theorem first_rescale (m' : ℝ) : Ideal.exp ((⊥ : EReal) - (m' : EReal)) = 0 := by
  rw [EReal.bot_sub, Ideal.exp_bot]

/-- The first denominator: the old one, `0`, rescaled by `exp (-∞) = 0`, plus the chunk's sum. -/
theorem first_sum (m' : ℝ) (s : γ → ℝ) :
    Ideal.exp ((⊥ : EReal) - (m' : EReal)) * 0 + ∑ j, Ideal.exp (((s j : ℝ) : EReal) - (m' : EReal))
      = ((∑ j, Real.exp (s j - m') : ℝ) : EReal) := by
  rw [first_rescale, zero_mul, zero_add]
  simp only [exp_coe_sub, coe_sum]

/-- The first denominator, the chunk's sum taken from `0`. -/
theorem first_sum_zero_add (m' : ℝ) (s : γ → ℝ) :
    Ideal.exp ((⊥ : EReal) - (m' : EReal)) * 0
        + (0 + ∑ j, Ideal.exp (((s j : ℝ) : EReal) - (m' : EReal)))
      = ((∑ j, Real.exp (s j - m') : ℝ) : EReal) := by
  rw [zero_add, first_sum]

/-- The first numerator. -/
theorem first_acc (m' : ℝ) (s w : γ → ℝ) :
    Ideal.exp ((⊥ : EReal) - (m' : EReal)) * 0
        + ∑ j, Ideal.exp (((s j : ℝ) : EReal) - (m' : EReal)) * ((w j : ℝ) : EReal)
      = ((∑ j, Real.exp (s j - m') * w j : ℝ) : EReal) := by
  rw [first_rescale, zero_mul, zero_add]
  simp only [exp_coe_sub, EReal.coe_mul, coe_sum]

/-! The same steps, as the states `runMax`, `runSum`, `runAcc` of `OnlineSoftmax`. -/

theorem online_max_zero (s : ℕ → γ → ℝ) :
    max (⊥ : EReal) (Finset.univ.sup fun j => ((s 0 j : ℝ) : EReal)) = ((runMax s 0 : ℝ) : EReal) :=
  first_max (s 0)

theorem online_sum_zero (s : ℕ → γ → ℝ) :
    Ideal.exp ((⊥ : EReal) - ((runMax s 0 : ℝ) : EReal)) * 0
        + ∑ j, Ideal.exp (((s 0 j : ℝ) : EReal) - ((runMax s 0 : ℝ) : EReal))
      = ((runSum s 0 : ℝ) : EReal) :=
  first_sum _ (s 0)

theorem online_sum_zero_zero_add (s : ℕ → γ → ℝ) :
    Ideal.exp ((⊥ : EReal) - ((runMax s 0 : ℝ) : EReal)) * 0
        + (0 + ∑ j, Ideal.exp (((s 0 j : ℝ) : EReal) - ((runMax s 0 : ℝ) : EReal)))
      = ((runSum s 0 : ℝ) : EReal) :=
  first_sum_zero_add _ (s 0)

theorem online_acc_zero (s w : ℕ → γ → ℝ) :
    Ideal.exp ((⊥ : EReal) - ((runMax s 0 : ℝ) : EReal)) * 0
        + ∑ j, Ideal.exp (((s 0 j : ℝ) : EReal) - ((runMax s 0 : ℝ) : EReal)) * ((w 0 j : ℝ) : EReal)
      = ((runAcc s w 0 : ℝ) : EReal) :=
  first_acc _ (s 0) (w 0)

theorem online_max_succ (s : ℕ → γ → ℝ) (k : ℕ) :
    max ((runMax s k : ℝ) : EReal) (Finset.univ.sup fun j => ((s (k + 1) j : ℝ) : EReal))
      = ((runMax s (k + 1) : ℝ) : EReal) :=
  step_max _ (s (k + 1))

theorem online_sum_succ (s : ℕ → γ → ℝ) (k : ℕ) :
    Ideal.exp (((runMax s k : ℝ) : EReal) - ((runMax s (k + 1) : ℝ) : EReal)) * ((runSum s k : ℝ) : EReal)
        + ∑ j, Ideal.exp (((s (k + 1) j : ℝ) : EReal) - ((runMax s (k + 1) : ℝ) : EReal))
      = ((runSum s (k + 1) : ℝ) : EReal) :=
  step_sum _ _ _ (s (k + 1))

theorem online_sum_succ_zero_add (s : ℕ → γ → ℝ) (k : ℕ) :
    Ideal.exp (((runMax s k : ℝ) : EReal) - ((runMax s (k + 1) : ℝ) : EReal)) * ((runSum s k : ℝ) : EReal)
        + (0 + ∑ j, Ideal.exp (((s (k + 1) j : ℝ) : EReal) - ((runMax s (k + 1) : ℝ) : EReal)))
      = ((runSum s (k + 1) : ℝ) : EReal) :=
  step_sum_zero_add _ _ _ (s (k + 1))

theorem online_acc_succ (s w : ℕ → γ → ℝ) (k : ℕ) :
    Ideal.exp (((runMax s k : ℝ) : EReal) - ((runMax s (k + 1) : ℝ) : EReal)) * ((runAcc s w k : ℝ) : EReal)
        + ∑ j, Ideal.exp (((s (k + 1) j : ℝ) : EReal) - ((runMax s (k + 1) : ℝ) : EReal))
            * ((w (k + 1) j : ℝ) : EReal)
      = ((runAcc s w (k + 1) : ℝ) : EReal) :=
  step_acc _ _ _ (s (k + 1)) (w (k + 1))

/-- The final quotient is the real one: the denominator is positive. -/
theorem online_quotient (s w : ℕ → γ → ℝ) (k : ℕ) :
    Ideal.div ((runAcc s w k : ℝ) : EReal) ((runSum s k : ℝ) : EReal)
      = ((runAcc s w k / runSum s k : ℝ) : EReal) :=
  div_coe_coe _ (runSum_ne_zero s k)

end Online

/-! ## The specification on real inputs -/

/-- A real array `[16384, 2048]`. -/
abbrev RX := (⟨2, ![16384, 2048]⟩ : Shape).Idx → ℝ
/-- A real array `[2048, 2048]`. -/
abbrev RW := (⟨2, ![2048, 2048]⟩ : Shape).Idx → ℝ

/-- The real projection. -/
def projR (x : RX) (W : RW) (h : Fin 8) (s e : Fin 2048) : ℝ :=
  ∑ d : Fin 2048, x (ix2 (row h s) d) * W (ix2 e d)

/-- The real scaled scores, with the scale `c`. -/
def scoresR (c : ℝ) (x : RX) (Wq Wk : RW) (h : Fin 8) (s t : Fin 2048) : ℝ :=
  (∑ e : Fin 2048, projR x Wq h s e * projR x Wk h t e) * c

/-- The scale is a real number. -/
theorem scale_real : ∃ c : ℝ, scale = (c : EReal) := by
  have h : scale ≠ ⊤ ∧ scale ≠ ⊥ := by
    constructor <;> simp [scale, Ideal.ofBits, Ideal.ieee, -EReal.coe_mul]
  exact ⟨scale.toReal, (EReal.coe_toReal h.1 h.2).symm⟩

section Real

variable {x : ArrX} {Wq Wk W : ArrW} {xr : RX} {Wqr Wkr Wr : RW} {c : ℝ}

theorem proj_coe (hx : ∀ i, x i = ((xr i : ℝ) : EReal)) (hW : ∀ i, W i = ((Wr i : ℝ) : EReal))
    (h : Fin 8) (s e : Fin 2048) : proj x W h s e = ((projR xr Wr h s e : ℝ) : EReal) := by
  unfold proj projR
  rw [coe_sum]
  exact Finset.sum_congr rfl fun d _ => by rw [hx, hW, EReal.coe_mul]

theorem scores_coe (hc : scale = (c : EReal)) (hx : ∀ i, x i = ((xr i : ℝ) : EReal))
    (hq : ∀ i, Wq i = ((Wqr i : ℝ) : EReal)) (hk : ∀ i, Wk i = ((Wkr i : ℝ) : EReal))
    (h : Fin 8) (s t : Fin 2048) :
    scores x Wq Wk h s t = ((scoresR c xr Wqr Wkr h s t : ℝ) : EReal) := by
  unfold scores scoresR
  rw [hc, EReal.coe_mul, coe_sum]
  refine congrArg (· * _) (Finset.sum_congr rfl fun e _ => ?_)
  rw [proj_coe hx hq, proj_coe hx hk, EReal.coe_mul]

end Real

/-- The maximum of a row of real scores. -/
theorem rowMax_coe (σ : Fin 2048 → ℝ) :
    rowMax (fun t => ((σ t : ℝ) : EReal)) = ((Finset.univ.sup' Finset.univ_nonempty σ : ℝ) : EReal) :=
  sup_coe σ

/-- The softmax denominator of a row of real scores. -/
theorem rowDen_coe (σ : Fin 2048 → ℝ) :
    rowDen (fun t => ((σ t : ℝ) : EReal))
      = ((∑ t, Real.exp (σ t - Finset.univ.sup' Finset.univ_nonempty σ) : ℝ) : EReal) := by
  unfold rowDen
  rw [rowMax_coe, coe_sum]
  exact Finset.sum_congr rfl fun t _ => exp_coe_sub _ _

/-- The softmax of a row of real scores. -/
theorem softmax_coe (σ : Fin 2048 → ℝ) (t : Fin 2048) :
    softmax (fun t => ((σ t : ℝ) : EReal)) t
      = ((Real.exp (σ t - Finset.univ.sup' Finset.univ_nonempty σ)
          / ∑ t', Real.exp (σ t' - Finset.univ.sup' Finset.univ_nonempty σ) : ℝ) : EReal) := by
  unfold softmax
  rw [rowDen_coe, rowMax_coe, exp_coe_sub,
    div_coe_coe _ (sum_exp_pos Finset.univ_nonempty σ _).ne']

/-! ## Eight chunks of 256 positions -/

/-- Position `i` of chunk `j` is column `256 j + i` (for `j < 8`; reduced modulo 2048 so that it is
    defined for every `j`). -/
def col (j : ℕ) (i : Fin 256) : Fin 2048 := ⟨(256 * j + i.val) % 2048, Nat.mod_lt _ (by norm_num)⟩

theorem col_val_of_lt {j : ℕ} (hj : j < 8) (i : Fin 256) : (col j i).val = 256 * j + i.val := by
  have := i.isLt
  simp only [col]
  omega

/-- The positions of the eight chunks enumerate the 2048 columns. -/
theorem col_bijective : Function.Bijective fun p : Fin 8 × Fin 256 => col p.1 p.2 := by
  constructor
  · rintro ⟨j, i⟩ ⟨j', i'⟩ h
    have h' : (col j i).val = (col j' i').val := congrArg Fin.val h
    rw [col_val_of_lt j.isLt, col_val_of_lt j'.isLt] at h'
    have := i.isLt
    have := i'.isLt
    refine Prod.ext (Fin.ext ?_) (Fin.ext ?_)
    · show j.val = j'.val
      omega
    · show i.val = i'.val
      omega
  · intro t
    have ht := t.isLt
    refine ⟨(⟨t.val / 256, by omega⟩, ⟨t.val % 256, Nat.mod_lt _ (by norm_num)⟩), Fin.ext ?_⟩
    show (col (t.val / 256) ⟨t.val % 256, _⟩).val = t.val
    rw [col_val_of_lt (by omega)]
    show 256 * (t.val / 256) + t.val % 256 = t.val
    omega

section Mixed

variable {x : ArrX} {Wq Wk W : ArrW} {xr : RX} {Wqr Wkr Wr : RW} {c : ℝ}

/-- **The mixed score is the online quotient.** On real inputs the mixed score at `(h, s, u)` is
    the coercion of `a / l`, the end of the online recurrence over the eight chunks of the row's real
    scores `σ (256 j + i)` with the weights `W[u, 256 j + i]`. -/
theorem mixed_coe_online (hc : scale = (c : EReal)) (hx : ∀ i, x i = ((xr i : ℝ) : EReal))
    (hq : ∀ i, Wq i = ((Wqr i : ℝ) : EReal)) (hk : ∀ i, Wk i = ((Wkr i : ℝ) : EReal))
    (hW : ∀ i, W i = ((Wr i : ℝ) : EReal)) (h : Fin 8) (s u : Fin 2048) :
    mixed x Wq Wk W h s u
      = ((runAcc (fun j i => scoresR c xr Wqr Wkr h s (col j i)) (fun j i => Wr (ix2 u (col j i))) 7
          / runSum (fun j i => scoresR c xr Wqr Wkr h s (col j i)) 7 : ℝ) : EReal) := by
  have hS : scores x Wq Wk h s = fun t => ((scoresR c xr Wqr Wkr h s t : ℝ) : EReal) :=
    funext fun t => scores_coe hc hx hq hk h s t
  unfold mixed
  rw [hS, online_eq_softmax (n := 7) (fun j i => col j i) col_bijective (scoresR c xr Wqr Wkr h s)
    (fun t => Wr (ix2 u t)) _ _ (fun _ _ => rfl) (fun _ _ => rfl) Finset.univ_nonempty, coe_sum]
  exact Finset.sum_congr rfl fun t _ => by rw [softmax_coe, hW, EReal.coe_mul]

/-- The squared difference of the two mixed scores, as the two online quotients. -/
theorem circle_coe_online {Wq2 Wk2 W2 : ArrW} {Wq2r Wk2r W2r : RW} (hc : scale = (c : EReal))
    (hx : ∀ i, x i = ((xr i : ℝ) : EReal))
    (hq : ∀ i, Wq i = ((Wqr i : ℝ) : EReal)) (hk : ∀ i, Wk i = ((Wkr i : ℝ) : EReal))
    (hW : ∀ i, W i = ((Wr i : ℝ) : EReal))
    (hq2 : ∀ i, Wq2 i = ((Wq2r i : ℝ) : EReal)) (hk2 : ∀ i, Wk2 i = ((Wk2r i : ℝ) : EReal))
    (hW2 : ∀ i, W2 i = ((W2r i : ℝ) : EReal)) (h : Fin 8) (s t : Fin 2048) :
    circle x Wq Wk Wq2 Wk2 W W2 h s t
      = (((runAcc (fun j i => scoresR c xr Wqr Wkr h s (col j i)) (fun j i => Wr (ix2 t (col j i))) 7
            / runSum (fun j i => scoresR c xr Wqr Wkr h s (col j i)) 7 : ℝ) : EReal)
          - ((runAcc (fun j i => scoresR c xr Wq2r Wk2r h s (col j i)) (fun j i => W2r (ix2 t (col j i))) 7
            / runSum (fun j i => scoresR c xr Wq2r Wk2r h s (col j i)) 7 : ℝ) : EReal))
        * (((runAcc (fun j i => scoresR c xr Wqr Wkr h s (col j i)) (fun j i => Wr (ix2 t (col j i))) 7
            / runSum (fun j i => scoresR c xr Wqr Wkr h s (col j i)) 7 : ℝ) : EReal)
          - ((runAcc (fun j i => scoresR c xr Wq2r Wk2r h s (col j i)) (fun j i => W2r (ix2 t (col j i))) 7
            / runSum (fun j i => scoresR c xr Wq2r Wk2r h s (col j i)) 7 : ℝ) : EReal)) := by
  unfold circle
  rw [mixed_coe_online hc hx hq hk hW, mixed_coe_online hc hx hq2 hk2 hW2]

end Mixed

end BiSoftmax

end
-- ==== Proof.RowState.lean ====
import proofs.«118165_j36936718746194_2_alg».proof.Proof.SpecReal

/-!
# The online state of one row, on the extended reals

One row `(h, s)` of the online softmax carries a running maximum `M`, a running denominator `L`
and, for every output column `u`, a running numerator `A u`. `stepE` is one chunk of 256 scores
with their weights, `iterE` the state after the chunks `0, …, k` from the reset state
`(-∞, 0, 0)`, and `outE` the squared difference of the two quotients `A u / L` of two such states.

On real scores and weights the state after chunk `k` is the coercion of the real recurrence
(`iterE_coe`); and for the scores and weights of the specification, on real inputs, the output
after the eight chunks is the specification's squared difference of mixed scores
(`outE_eq_circle`).
-/

noncomputable section

open scoped BigOperators

namespace BiSoftmax

open Idealize.ShloMosaic Idealize.ShloMosaic.ValueIdx OnlineSoftmax

/-- The online state of one row: maximum, denominator, and a numerator per output column. -/
@[ext] structure RowState where
  /-- the running maximum -/
  M : EReal
  /-- the running denominator -/
  L : EReal
  /-- the running numerators -/
  A : Fin 2048 → EReal

/-- The state before the first chunk. -/
def RowState.reset : RowState := ⟨⊥, 0, fun _ => 0⟩

@[simp] theorem RowState.reset_M : RowState.reset.M = ⊥ := rfl
@[simp] theorem RowState.reset_L : RowState.reset.L = 0 := rfl
@[simp] theorem RowState.reset_A (u : Fin 2048) : RowState.reset.A u = 0 := rfl

/-- One chunk: scores `sc j`, weights `wc u j`. -/
def stepE (st : RowState) (sc : Fin 256 → EReal) (wc : Fin 2048 → Fin 256 → EReal) : RowState where
  M := max st.M (Finset.univ.sup sc)
  L := Ideal.exp (st.M - max st.M (Finset.univ.sup sc)) * st.L
    + ∑ j, Ideal.exp (sc j - max st.M (Finset.univ.sup sc))
  A := fun u => Ideal.exp (st.M - max st.M (Finset.univ.sup sc)) * st.A u
    + ∑ j, Ideal.exp (sc j - max st.M (Finset.univ.sup sc)) * wc u j

theorem stepE_M (st : RowState) (sc : Fin 256 → EReal) (wc : Fin 2048 → Fin 256 → EReal) :
    (stepE st sc wc).M = max st.M (Finset.univ.sup sc) := rfl

theorem stepE_L (st : RowState) (sc : Fin 256 → EReal) (wc : Fin 2048 → Fin 256 → EReal) :
    (stepE st sc wc).L = Ideal.exp (st.M - (stepE st sc wc).M) * st.L
      + ∑ j, Ideal.exp (sc j - (stepE st sc wc).M) := rfl

theorem stepE_A (st : RowState) (sc : Fin 256 → EReal) (wc : Fin 2048 → Fin 256 → EReal)
    (u : Fin 2048) :
    (stepE st sc wc).A u = Ideal.exp (st.M - (stepE st sc wc).M) * st.A u
      + ∑ j, Ideal.exp (sc j - (stepE st sc wc).M) * wc u j := rfl

/-- The state after the chunks `0, …, k`. -/
def iterE (sc : ℕ → Fin 256 → EReal) (wc : ℕ → Fin 2048 → Fin 256 → EReal) : ℕ → RowState
  | 0 => stepE RowState.reset (sc 0) (wc 0)
  | k + 1 => stepE (iterE sc wc k) (sc (k + 1)) (wc (k + 1))

theorem iterE_zero (sc : ℕ → Fin 256 → EReal) (wc : ℕ → Fin 2048 → Fin 256 → EReal) :
    iterE sc wc 0 = stepE RowState.reset (sc 0) (wc 0) := rfl

theorem iterE_succ (sc : ℕ → Fin 256 → EReal) (wc : ℕ → Fin 2048 → Fin 256 → EReal) (k : ℕ) :
    iterE sc wc (k + 1) = stepE (iterE sc wc k) (sc (k + 1)) (wc (k + 1)) := rfl

/-- On real scores and weights the state is the coercion of the real recurrence. -/
theorem iterE_coe (s : ℕ → Fin 256 → ℝ) (w : Fin 2048 → ℕ → Fin 256 → ℝ) (k : ℕ) :
    iterE (fun j i => ((s j i : ℝ) : EReal)) (fun j u i => ((w u j i : ℝ) : EReal)) k
      = ⟨((runMax s k : ℝ) : EReal), ((runSum s k : ℝ) : EReal),
          fun u => ((runAcc s (w u) k : ℝ) : EReal)⟩ := by
  induction k with
  | zero =>
    rw [iterE_zero]
    have hM : (stepE RowState.reset (fun i => ((s 0 i : ℝ) : EReal))
        (fun u i => ((w u 0 i : ℝ) : EReal))).M = ((runMax s 0 : ℝ) : EReal) := online_max_zero s
    refine RowState.ext hM ?_ (funext fun u => ?_)
    · rw [stepE_L, hM]
      exact online_sum_zero s
    · rw [stepE_A, hM]
      exact online_acc_zero s (w u)
  | succ k ih =>
    rw [iterE_succ, ih]
    have hM : (stepE ⟨((runMax s k : ℝ) : EReal), ((runSum s k : ℝ) : EReal),
          fun u => ((runAcc s (w u) k : ℝ) : EReal)⟩ (fun i => ((s (k + 1) i : ℝ) : EReal))
        (fun u i => ((w u (k + 1) i : ℝ) : EReal))).M = ((runMax s (k + 1) : ℝ) : EReal) :=
      online_max_succ s k
    refine RowState.ext hM ?_ (funext fun u => ?_)
    · rw [stepE_L, hM]
      exact online_sum_succ s k
    · rw [stepE_A, hM]
      exact online_acc_succ s (w u) k

/-- The output at column `u`: the squared difference of the two quotients. -/
def outE (st1 st2 : RowState) (u : Fin 2048) : EReal :=
  (Ideal.div (st1.A u) st1.L - Ideal.div (st2.A u) st2.L)
    * (Ideal.div (st1.A u) st1.L - Ideal.div (st2.A u) st2.L)

section Circle

variable {x : ArrX} {Wq Wk W Wq2 Wk2 W2 : ArrW} {xr : RX} {Wqr Wkr Wr Wq2r Wk2r W2r : RW} {c : ℝ}

/-- **After the eight chunks the output is the specification's squared difference**, on real
    inputs given by witnesses. The chunks read the row's scores at the columns `256 j + i` and the
    weights `W[u, 256 j + i]`. -/
theorem outE_eq_circle (hc : scale = (c : EReal)) (hx : ∀ i, x i = ((xr i : ℝ) : EReal))
    (hq : ∀ i, Wq i = ((Wqr i : ℝ) : EReal)) (hk : ∀ i, Wk i = ((Wkr i : ℝ) : EReal))
    (hW : ∀ i, W i = ((Wr i : ℝ) : EReal))
    (hq2 : ∀ i, Wq2 i = ((Wq2r i : ℝ) : EReal)) (hk2 : ∀ i, Wk2 i = ((Wk2r i : ℝ) : EReal))
    (hW2 : ∀ i, W2 i = ((W2r i : ℝ) : EReal)) (h : Fin 8) (s u : Fin 2048) :
    outE (iterE (fun j i => scores x Wq Wk h s (col j i)) (fun j u i => W (ix2 u (col j i))) 7)
        (iterE (fun j i => scores x Wq2 Wk2 h s (col j i)) (fun j u i => W2 (ix2 u (col j i))) 7) u
      = circle x Wq Wk Wq2 Wk2 W W2 h s u := by
  have e1 : (fun (j : ℕ) (i : Fin 256) => scores x Wq Wk h s (col j i))
      = fun j i => ((scoresR c xr Wqr Wkr h s (col j i) : ℝ) : EReal) :=
    funext fun j => funext fun i => scores_coe hc hx hq hk h s (col j i)
  have e2 : (fun (j : ℕ) (i : Fin 256) => scores x Wq2 Wk2 h s (col j i))
      = fun j i => ((scoresR c xr Wq2r Wk2r h s (col j i) : ℝ) : EReal) :=
    funext fun j => funext fun i => scores_coe hc hx hq2 hk2 h s (col j i)
  have f1 : (fun (j : ℕ) (u : Fin 2048) (i : Fin 256) => W (ix2 u (col j i)))
      = fun j u i => ((Wr (ix2 u (col j i)) : ℝ) : EReal) :=
    funext fun j => funext fun u => funext fun i => hW _
  have f2 : (fun (j : ℕ) (u : Fin 2048) (i : Fin 256) => W2 (ix2 u (col j i)))
      = fun j u i => ((W2r (ix2 u (col j i)) : ℝ) : EReal) :=
    funext fun j => funext fun u => funext fun i => hW2 _
  rw [e1, e2, f1, f2,
    iterE_coe (fun j i => scoresR c xr Wqr Wkr h s (col j i)) (fun u j i => Wr (ix2 u (col j i))) 7,
    iterE_coe (fun j i => scoresR c xr Wq2r Wk2r h s (col j i)) (fun u j i => W2r (ix2 u (col j i))) 7,
    circle_coe_online hc hx hq hk hW hq2 hk2 hW2]
  unfold outE
  simp only
  rw [online_quotient, online_quotient]

/-- The same from finiteness alone: every entry of the seven arrays involved is neither infinity. -/
theorem outE_eq_circle_of_finite (hx : ∀ i, x i ≠ ⊤ ∧ x i ≠ ⊥)
    (hq : ∀ i, Wq i ≠ ⊤ ∧ Wq i ≠ ⊥) (hk : ∀ i, Wk i ≠ ⊤ ∧ Wk i ≠ ⊥) (hW : ∀ i, W i ≠ ⊤ ∧ W i ≠ ⊥)
    (hq2 : ∀ i, Wq2 i ≠ ⊤ ∧ Wq2 i ≠ ⊥) (hk2 : ∀ i, Wk2 i ≠ ⊤ ∧ Wk2 i ≠ ⊥)
    (hW2 : ∀ i, W2 i ≠ ⊤ ∧ W2 i ≠ ⊥) (h : Fin 8) (s u : Fin 2048) :
    outE (iterE (fun j i => scores x Wq Wk h s (col j i)) (fun j u i => W (ix2 u (col j i))) 7)
        (iterE (fun j i => scores x Wq2 Wk2 h s (col j i)) (fun j u i => W2 (ix2 u (col j i))) 7) u
      = circle x Wq Wk Wq2 Wk2 W W2 h s u := by
  obtain ⟨c, hc⟩ := scale_real
  have real : ∀ {ι : Type} (y : ι → EReal), (∀ i, y i ≠ ⊤ ∧ y i ≠ ⊥) →
      ∀ i, y i = (((y i).toReal : ℝ) : EReal) :=
    fun y hy i => (EReal.coe_toReal (hy i).1 (hy i).2).symm
  exact outE_eq_circle hc (real x hx) (real Wq hq) (real Wk hk) (real W hW) (real Wq2 hq2)
    (real Wk2 hk2) (real W2 hW2) h s u

end Circle

end BiSoftmax

end
-- ==== Proof.KI.Row3.lean ====
/-
  The fused body's payloads joined to the online state of one row: the values the body stores into the three scratch
  buffers of a softmax (maximum, sum, accumulator), read at row `r`, are one step of the row's online state on the
  row's scaled scores against the key chunk and the chunk's mixing-weight columns; the values it resets them to are the reset
  state; and the value it writes out is the squared difference of the two states' quotients.
-/
import proofs.«118165_j36936718746194_2_alg».proof.Proof.KI.Pay3
import proofs.«118165_j36936718746194_2_alg».proof.Proof.RowState

noncomputable section

namespace Cert.KernelIdeal.Hand.Pay3

open Idealize.ShloMosaic Idealize.SL.Sem Idealize.ShloMosaic.ValueIdx
open Cert.KernelIdeal Cert.KernelIdeal.Gen

/-- The kernel's scale is the specification's. -/
theorem scale_eq_spec : (scale : EReal) = BiSoftmax.scale := rfl

/-- Row `r` of three scratch buffers (maximum, sum, accumulator) as an online state. -/
def rowOf (m l : Vec Ideal S256x1 .f32) (acc : Vec Ideal S256x2048 .f32) (r : Fin 256) : BiSoftmax.RowState :=
  ⟨m (ix2 r (0 : Fin 1)), l (ix2 r (0 : Fin 1)), fun u => acc (ix2 r u)⟩

@[simp] theorem rowOf_M (m l : Vec Ideal S256x1 .f32) (acc : Vec Ideal S256x2048 .f32) (r : Fin 256) :
    (rowOf m l acc r).M = m (ix2 r (0 : Fin 1)) := rfl
@[simp] theorem rowOf_L (m l : Vec Ideal S256x1 .f32) (acc : Vec Ideal S256x2048 .f32) (r : Fin 256) :
    (rowOf m l acc r).L = l (ix2 r (0 : Fin 1)) := rfl
@[simp] theorem rowOf_A (m l : Vec Ideal S256x1 .f32) (acc : Vec Ideal S256x2048 .f32) (r : Fin 256) (u : Fin 2048) :
    (rowOf m l acc r).A u = acc (ix2 r u) := rfl

/-- **One point's update of a row of the first softmax** is one step of its online state, on the row's scaled scores
    against the key chunk and with the chunk's 256 mixing-weight columns. -/
theorem step1_row (q k : Vec Ideal S1x256x2048 .bf16) (wc : Vec Ideal S2048x256 .bf16) (m l : Vec Ideal S256x1 .f32)
    (acc : Vec Ideal S256x2048 .f32) (r : Fin 256) :
    rowOf (k3_pay21 (F := Ideal) (k3_pay16 q k m)) (k3_pay19 (k3_pay17 q k m m) (k3_pay18 q k m) l)
        (k3_pay20 (k3_pay13 wc) (k3_pay17 q k m m) (k3_pay18 q k m) acc) r
      = BiSoftmax.stepE (rowOf m l acc r)
          (fun j => (∑ e : Fin 2048, q (ix3 0 r e) * k (ix3 0 j e)) * BiSoftmax.scale) (fun u j => wc (ix2 u j)) := by
  have hsc : ∀ j : Fin 256, (k3_pay15 (F := Ideal) q k (ix2 r j) : EReal)
      = (∑ e : Fin 2048, q (ix3 0 r e) * k (ix3 0 j e)) * BiSoftmax.scale := fun j => pay15_apply q k r j
  have hM : k3_pay16 (F := Ideal) q k m (ix2 r (0 : Fin 1))
      = (BiSoftmax.stepE (rowOf m l acc r)
          (fun j => (∑ e : Fin 2048, q (ix3 0 r e) * k (ix3 0 j e)) * BiSoftmax.scale) (fun u j => wc (ix2 u j))).M := by
    rw [pay16_apply, BiSoftmax.stepE_M, funext hsc]
    rfl
  refine BiSoftmax.RowState.ext ?_ ?_ (funext fun u => ?_)
  · show k3_pay21 (F := Ideal) (k3_pay16 q k m) (ix2 r (0 : Fin 1)) = _
    rw [pay21_eq, hM]
  · show k3_pay19 (F := Ideal) (k3_pay17 q k m m) (k3_pay18 q k m) l (ix2 r (0 : Fin 1)) = _
    rw [pay19_apply, pay17_apply, BiSoftmax.stepE_L, hM]
    refine congrArg₂ (· + ·) rfl (Finset.sum_congr rfl fun j _ => ?_)
    rw [pay18_apply, hsc, hM]
  · show k3_pay20 (F := Ideal) (k3_pay13 wc) (k3_pay17 q k m m) (k3_pay18 q k m) acc (ix2 r u) = _
    rw [pay20_apply, pay17_apply, pay13_eq, BiSoftmax.stepE_A, hM]
    refine congrArg₂ (· + ·) rfl (Finset.sum_congr rfl fun j _ => ?_)
    rw [pay18_apply, hsc, hM]

/-- **One point's update of a row of the second softmax**, likewise, over the second query block, key chunk and
    mixing-weight columns. -/
theorem step2_row (q2 k2 : Vec Ideal S1x256x2048 .bf16) (wc2 : Vec Ideal S2048x256 .bf16) (m2 l2 : Vec Ideal S256x1 .f32)
    (acc2 : Vec Ideal S256x2048 .f32) (r : Fin 256) :
    rowOf (k3_pay3 (F := Ideal) (k3_pay23 (k3_pay11 q2) (k3_pay12 k2) m2))
        (k3_pay1 (k3_pay25 (k3_pay11 q2) (k3_pay12 k2) m2) (k3_pay26 (k3_pay11 q2) (k3_pay12 k2) m2 m2 l2))
        (k3_pay2 (k3_pay14 wc2) (k3_pay24 (k3_pay11 q2) (k3_pay12 k2) m2 m2) (k3_pay25 (k3_pay11 q2) (k3_pay12 k2) m2) acc2) r
      = BiSoftmax.stepE (rowOf m2 l2 acc2 r)
          (fun j => (∑ e : Fin 2048, q2 (ix3 0 r e) * k2 (ix3 0 j e)) * BiSoftmax.scale) (fun u j => wc2 (ix2 u j)) := by
  have hsc : ∀ j : Fin 256, (k3_pay22 (F := Ideal) (k3_pay11 q2) (k3_pay12 k2) (ix2 r j) : EReal)
      = (∑ e : Fin 2048, q2 (ix3 0 r e) * k2 (ix3 0 j e)) * BiSoftmax.scale := fun j => by
    rw [pay22_apply]
    refine congrArg (· * BiSoftmax.scale) (Finset.sum_congr rfl fun e _ => ?_)
    rw [pay11_apply, pay12_apply]
  have hM : k3_pay23 (F := Ideal) (k3_pay11 q2) (k3_pay12 k2) m2 (ix2 r (0 : Fin 1))
      = (BiSoftmax.stepE (rowOf m2 l2 acc2 r)
          (fun j => (∑ e : Fin 2048, q2 (ix3 0 r e) * k2 (ix3 0 j e)) * BiSoftmax.scale) (fun u j => wc2 (ix2 u j))).M := by
    rw [pay23_apply, BiSoftmax.stepE_M, funext hsc]
    rfl
  refine BiSoftmax.RowState.ext ?_ ?_ (funext fun u => ?_)
  · show k3_pay3 (F := Ideal) (k3_pay23 (k3_pay11 q2) (k3_pay12 k2) m2) (ix2 r (0 : Fin 1)) = _
    rw [pay3_eq, hM]
  · show k3_pay1 (F := Ideal) (k3_pay25 (k3_pay11 q2) (k3_pay12 k2) m2) (k3_pay26 (k3_pay11 q2) (k3_pay12 k2) m2 m2 l2)
      (ix2 r (0 : Fin 1)) = _
    rw [pay1_apply, pay26_apply, pay24_apply, BiSoftmax.stepE_L, hM]
    refine congrArg₂ (· + ·) rfl (Finset.sum_congr rfl fun j _ => ?_)
    rw [pay25_apply, hsc, hM]
  · show k3_pay2 (F := Ideal) (k3_pay14 wc2) (k3_pay24 (k3_pay11 q2) (k3_pay12 k2) m2 m2)
      (k3_pay25 (k3_pay11 q2) (k3_pay12 k2) m2) acc2 (ix2 r u) = _
    rw [pay2_apply, pay24_apply, pay14_eq, BiSoftmax.stepE_A, hM]
    refine congrArg₂ (· + ·) rfl (Finset.sum_congr rfl fun j _ => ?_)
    rw [pay25_apply, hsc, hM]

/-- The values the first point of a row block resets the first softmax's buffers to are the reset state. -/
theorem reset1_row (r : Fin 256) :
    rowOf (k3_pay5 (F := Ideal)) (k3_pay6 (F := Ideal)) (k3_pay7 (F := Ideal)) r = BiSoftmax.RowState.reset :=
  BiSoftmax.RowState.ext (pay5_apply (ix2 r (0 : Fin 1))) (pay6_apply (ix2 r (0 : Fin 1))) (funext fun u => pay7_apply (ix2 r u))

/-- … and the second softmax's likewise. -/
theorem reset2_row (r : Fin 256) :
    rowOf (k3_pay8 (F := Ideal)) (k3_pay9 (F := Ideal)) (k3_pay10 (F := Ideal)) r = BiSoftmax.RowState.reset :=
  BiSoftmax.RowState.ext (pay8_apply (ix2 r (0 : Fin 1))) (pay9_apply (ix2 r (0 : Fin 1))) (funext fun u => pay10_apply (ix2 r u))

/-- The value written out at `(0, r, u)` is the squared difference of the quotients of the two rows' states, whatever
    their maxima. -/
theorem out_row (a1 : Vec Ideal S256x2048 .f32) (l1 : Vec Ideal S256x1 .f32) (a2 : Vec Ideal S256x2048 .f32)
    (l2 : Vec Ideal S256x1 .f32) (m1' m2' : Vec Ideal S256x1 .f32) (z : Fin 1) (r : Fin 256) (u : Fin 2048) :
    k3_pay4 (F := Ideal) a1 l1 a2 l2 (ix3 z r u) = BiSoftmax.outE (rowOf m1' l1 a1 r) (rowOf m2' l2 a2 r) u := by
  rw [pay4_apply]
  rfl
-- ==== Proof.KI.Val3.lean ====
/- Region 3's output array, read at the ideal instance. The output block written back at the last key chunk of a
   query tile is computed from the six running buffers; row r of the block is the squared difference of the
   quotients of the two online states of row (h, 256 q + r) after all eight chunks. The blocks written back tile
   the array, so the array ends as that function of its index. -/
import proofs.«118165_j36936718746194_2_alg».proof.Proof.KI.Blk3
import proofs.«118165_j36936718746194_2_alg».proof.Proof.KI.Scr3
import proofs.«118165_j36936718746194_2_alg».proof.Proof.KI.Row3

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Idealize.ShloMosaic.Rounds

/-! ## The output as one function of the array's index -/

/-- Entry (h, s, u) of the output: the squared difference of the two mixed scores, each the quotient of the online
    state of row (h, s) after the eight chunks of 256 key rows; chunk j's scores are the scaled products of query
    row (h, s) with the key rows 256 j + i', and its weights are the columns 256 j + i' of the mixing weight. -/
def out3 (Q1 K1 Q2 K2 : Fin 8 → Fin 2048 → Fin 2048 → EReal) (W1 W2 : S2048x2048.Idx → EReal) : S8x2048x2048.Idx → EReal := fun i =>
  BiSoftmax.outE
    (BiSoftmax.iterE (fun j i' => (∑ e : Fin 2048, Q1 (i 0) (i 1) e * K1 (i 0) (BiSoftmax.col j i') e) * BiSoftmax.scale) (fun j u i' => W1 (ix2 u (BiSoftmax.col j i'))) 7)
    (BiSoftmax.iterE (fun j i' => (∑ e : Fin 2048, Q2 (i 0) (i 1) e * K2 (i 0) (BiSoftmax.col j i') e) * BiSoftmax.scale) (fun j u i' => W2 (ix2 u (BiSoftmax.col j i'))) 7) (i 2 : Fin 2048)

/-- Row j of a point's key chunk is key row 256 s + j, the specification's column of chunk s = t mod 8. -/
theorem blk3_krow_eq_col (t : Fin cfg3.N) (j : Fin 256) : blk3_krow t j = BiSoftmax.col (t.val % 8) j :=
  Fin.ext (by rw [BiSoftmax.col_val_of_lt (by omega)])

/-- The output array from the running state, for ANY proof data of the region's pipeline and ANY family of
    states: if at each last chunk the body leaves in the output's buffer the block computed from the state there,
    and the state's rows there are the two online states after the eight chunks, the array ends as `out3`. -/
theorem final3_6_core {c : Dev nD} (dat : Dat τ (Elt Ideal) Unit ℕ (UR sig nD τ) ℕ cfg3 c)
    (st : Fin cfg3.N → Scr Ideal)
    (Q1 K1 Q2 K2 : Fin 8 → Fin 2048 → Fin 2048 → EReal) (W1 W2 : S2048x2048.Idx → EReal)
    (hafter : ∀ t : Fin cfg3.N, t.val % 8 = 7 → dat.after 6 t = fin3 (st t))
    (hrow1 : ∀ (t : Fin cfg3.N) (r : Fin 256), t.val % 8 = 7 →
      Pay3.rowOf (st t).m1 (st t).l1 (st t).a1 r
        = BiSoftmax.iterE (fun j i' => (∑ e : Fin 2048, Q1 (blk3_head t) (blk3_qrow t r) e * K1 (blk3_head t) (BiSoftmax.col j i') e) * BiSoftmax.scale)
            (fun j u i' => W1 (ix2 u (BiSoftmax.col j i'))) 7)
    (hrow2 : ∀ (t : Fin cfg3.N) (r : Fin 256), t.val % 8 = 7 →
      Pay3.rowOf (st t).m2 (st t).l2 (st t).a2 r
        = BiSoftmax.iterE (fun j i' => (∑ e : Fin 2048, Q2 (blk3_head t) (blk3_qrow t r) e * K2 (blk3_head t) (BiSoftmax.col j i') e) * BiSoftmax.scale)
            (fun j u i' => W2 (ix2 u (BiSoftmax.col j i'))) 7) :
    dat.arrAt 6 cfg3.N = out3 Q1 K1 Q2 K2 W1 W2 := by
  refine blk3_final_o dat _ fun t ht => ?_
  show (cfg3.win 6).cut (grid3.coords t) (dat.after 6 t) = _
  rw [hafter t ht]
  funext j
  obtain ⟨z, r, u, rfl⟩ : ∃ (z : Fin 1) (r : Fin 256) (u : Fin 2048), j = ix3 z r u := ⟨j 0, j 1, j 2, eq_ix3 j⟩
  obtain rfl : z = 0 := Subsingleton.elim _ _
  refine (Pay3.out_row (st t).a1 (st t).l1 (st t).a2 (st t).l2 (st t).m1 (st t).m2 0 r u).trans ?_
  rw [hrow1 t r ht, hrow2 t r ht]
  exact (blk3_o (out3 Q1 K1 Q2 K2 W1 W2) t r u).symm

/-! ## The first softmax: one chunk, then all chunks up to a point -/

/-- One chunk's update of row r of the first softmax's three buffers, at a point t whose blocks read the arrays
    Q, K, W where the windows sit: one step of the row's online state, on the scaled products of query row
    (h, 256 q + r) with the key rows of chunk k = t mod 8, against the columns of chunk k of the mixing weight. -/
theorem blk3_step1 (t : Fin cfg3.N) (k : ℕ) (hk' : t.val % 8 = k) (x0 x1 x2 x3 : Vec Ideal S1x256x2048 .bf16) (x4 x5 : Vec Ideal S2048x2048 .bf16) (s : Scr Ideal)
    (Q K : Fin 8 → Fin 2048 → Fin 2048 → EReal) (W : S2048x2048.Idx → EReal)
    (hq : ∀ (r : Fin 256) (e : Fin 2048), x0 (ix3 (0 : Fin 1) r e) = Q (blk3_head t) (blk3_qrow t r) e)
    (hk : ∀ (j : Fin 256) (e : Fin 2048), x2 (ix3 (0 : Fin 1) j e) = K (blk3_head t) (blk3_krow t j) e)
    (hw : x4 = W) (r : Fin 256) :
    Pay3.rowOf (step3 (grid3.coords t) x0 x1 x2 x3 x4 x5 s).m1 (step3 (grid3.coords t) x0 x1 x2 x3 x4 x5 s).l1 (step3 (grid3.coords t) x0 x1 x2 x3 x4 x5 s).a1 r
      = BiSoftmax.stepE (Pay3.rowOf s.m1 s.l1 s.a1 r)
          (fun j => (∑ e : Fin 2048, Q (blk3_head t) (blk3_qrow t r) e * K (blk3_head t) (BiSoftmax.col k j) e) * BiSoftmax.scale)
          (fun u j => W (ix2 u (BiSoftmax.col k j))) := by
  show Pay3.rowOf (k3_pay21 (F := Ideal) (k3_pay16 x0 x2 s.m1)) (k3_pay19 (k3_pay17 x0 x2 s.m1 s.m1) (k3_pay18 x0 x2 s.m1) s.l1)
      (k3_pay20 (k3_pay13 (wcol (grid3.coords t) x4)) (k3_pay17 x0 x2 s.m1 s.m1) (k3_pay18 x0 x2 s.m1) s.a1) r = _
  rw [Pay3.step1_row]
  subst hk' hw
  congr 1
  · funext j
    refine congrArg (· * BiSoftmax.scale) (Finset.sum_congr rfl fun e _ => ?_)
    rw [hq, hk, blk3_krow_eq_col]
  · funext u j
    show wcol (grid3.coords t) x4 (ix2 u j) = _
    unfold wcol
    rw [blk3_cols, blk3_krow_eq_col]

/-- Row r of the first softmax's three buffers after the body at point n, for ANY family S of states that is the
    update of the reset state at a first chunk and the update of the point before's state elsewhere, the blocks
    reading Q, K, W where the windows sit: the row's online state after the chunks 0 … n mod 8. -/
theorem blk3_rows1 (Q K : Fin 8 → Fin 2048 → Fin 2048 → EReal) (W : S2048x2048.Idx → EReal)
    (x0 x1 x2 x3 : Fin cfg3.N → Vec Ideal S1x256x2048 .bf16) (x4 x5 : Fin cfg3.N → Vec Ideal S2048x2048 .bf16)
    (S : (n : ℕ) → n < cfg3.N → Scr Ideal)
    (hq : ∀ (t : Fin cfg3.N) (r : Fin 256) (e : Fin 2048), x0 t (ix3 (0 : Fin 1) r e) = Q (blk3_head t) (blk3_qrow t r) e)
    (hk : ∀ (t : Fin cfg3.N) (j : Fin 256) (e : Fin 2048), x2 t (ix3 (0 : Fin 1) j e) = K (blk3_head t) (blk3_krow t j) e)
    (hw : ∀ t : Fin cfg3.N, x4 t = W)
    (hfirst : ∀ (n : ℕ) (hn : n < cfg3.N), n % 8 = 0 →
      S n hn = step3 (grid3.coords ⟨n, hn⟩) (x0 ⟨n, hn⟩) (x1 ⟨n, hn⟩) (x2 ⟨n, hn⟩) (x3 ⟨n, hn⟩) (x4 ⟨n, hn⟩) (x5 ⟨n, hn⟩) init3)
    (hnext : ∀ (n : ℕ) (hn : n + 1 < cfg3.N), ¬(n + 1) % 8 = 0 →
      S (n + 1) hn = step3 (grid3.coords ⟨n + 1, hn⟩) (x0 ⟨n + 1, hn⟩) (x1 ⟨n + 1, hn⟩) (x2 ⟨n + 1, hn⟩) (x3 ⟨n + 1, hn⟩) (x4 ⟨n + 1, hn⟩) (x5 ⟨n + 1, hn⟩) (S n (Nat.lt_of_succ_lt hn))) :
    ∀ (n : ℕ) (hn : n < cfg3.N) (r : Fin 256),
      Pay3.rowOf (S n hn).m1 (S n hn).l1 (S n hn).a1 r
        = BiSoftmax.iterE (fun j i' => (∑ e : Fin 2048, Q (blk3_head ⟨n, hn⟩) (blk3_qrow ⟨n, hn⟩ r) e * K (blk3_head ⟨n, hn⟩) (BiSoftmax.col j i') e) * BiSoftmax.scale)
            (fun j u i' => W (ix2 u (BiSoftmax.col j i'))) (n % 8) := by
  -- a first chunk, whatever its position: the update of the reset state is the state after chunk 0
  have first : ∀ (n : ℕ) (hn : n < cfg3.N) (r : Fin 256), n % 8 = 0 →
      Pay3.rowOf (S n hn).m1 (S n hn).l1 (S n hn).a1 r
        = BiSoftmax.iterE (fun j i' => (∑ e : Fin 2048, Q (blk3_head ⟨n, hn⟩) (blk3_qrow ⟨n, hn⟩ r) e * K (blk3_head ⟨n, hn⟩) (BiSoftmax.col j i') e) * BiSoftmax.scale)
            (fun j u i' => W (ix2 u (BiSoftmax.col j i'))) (n % 8) := by
    intro n hn r h0
    rw [hfirst n hn h0, blk3_step1 ⟨n, hn⟩ 0 h0 _ _ _ _ _ _ init3 Q K W (hq _) (hk _) (hw _) r, h0]
    show BiSoftmax.stepE (Pay3.rowOf (k3_pay5 (F := Ideal)) (k3_pay6 (F := Ideal)) (k3_pay7 (F := Ideal)) r) _ _ = _
    rw [Pay3.reset1_row]
    rfl
  intro n
  induction n with
  | zero => exact fun hn r => first 0 hn r rfl
  | succ n ih =>
    intro hn r
    by_cases h0 : (n + 1) % 8 = 0
    · exact first (n + 1) hn r h0
    · have hm : (n + 1) % 8 = n % 8 + 1 := by omega
      have hh : blk3_head ⟨n, Nat.lt_of_succ_lt hn⟩ = blk3_head ⟨n + 1, hn⟩ := Fin.ext (by show n / 64 = (n + 1) / 64; omega)
      have hr : blk3_qrow ⟨n, Nat.lt_of_succ_lt hn⟩ r = blk3_qrow ⟨n + 1, hn⟩ r :=
        Fin.ext (by show 256 * (n / 8 % 8) + r.val = 256 * ((n + 1) / 8 % 8) + r.val; omega)
      rw [hnext n hn h0, blk3_step1 ⟨n + 1, hn⟩ (n % 8 + 1) hm _ _ _ _ _ _ _ Q K W (hq _) (hk _) (hw _) r,
        ih (Nat.lt_of_succ_lt hn) r, hh, hr, hm]
      rfl

/-! ## The second softmax: one chunk, then all chunks up to a point -/

/-- One chunk's update of row r of the second softmax's three buffers, at a point t whose blocks read the arrays
    Q, K, W where the windows sit: one step of the row's online state, on the scaled products of query row
    (h, 256 q + r) with the key rows of chunk k = t mod 8, against the columns of chunk k of the mixing weight. -/
theorem blk3_step2 (t : Fin cfg3.N) (k : ℕ) (hk' : t.val % 8 = k) (x0 x1 x2 x3 : Vec Ideal S1x256x2048 .bf16) (x4 x5 : Vec Ideal S2048x2048 .bf16) (s : Scr Ideal)
    (Q K : Fin 8 → Fin 2048 → Fin 2048 → EReal) (W : S2048x2048.Idx → EReal)
    (hq : ∀ (r : Fin 256) (e : Fin 2048), x1 (ix3 (0 : Fin 1) r e) = Q (blk3_head t) (blk3_qrow t r) e)
    (hk : ∀ (j : Fin 256) (e : Fin 2048), x3 (ix3 (0 : Fin 1) j e) = K (blk3_head t) (blk3_krow t j) e)
    (hw : x5 = W) (r : Fin 256) :
    Pay3.rowOf (step3 (grid3.coords t) x0 x1 x2 x3 x4 x5 s).m2 (step3 (grid3.coords t) x0 x1 x2 x3 x4 x5 s).l2 (step3 (grid3.coords t) x0 x1 x2 x3 x4 x5 s).a2 r
      = BiSoftmax.stepE (Pay3.rowOf s.m2 s.l2 s.a2 r)
          (fun j => (∑ e : Fin 2048, Q (blk3_head t) (blk3_qrow t r) e * K (blk3_head t) (BiSoftmax.col k j) e) * BiSoftmax.scale)
          (fun u j => W (ix2 u (BiSoftmax.col k j))) := by
  show Pay3.rowOf (k3_pay3 (F := Ideal) (k3_pay23 (k3_pay11 x1) (k3_pay12 x3) s.m2))
      (k3_pay1 (k3_pay25 (k3_pay11 x1) (k3_pay12 x3) s.m2) (k3_pay26 (k3_pay11 x1) (k3_pay12 x3) s.m2 s.m2 s.l2))
      (k3_pay2 (k3_pay14 (wcol (grid3.coords t) x5)) (k3_pay24 (k3_pay11 x1) (k3_pay12 x3) s.m2 s.m2) (k3_pay25 (k3_pay11 x1) (k3_pay12 x3) s.m2) s.a2) r = _
  rw [Pay3.step2_row]
  subst hk' hw
  congr 1
  · funext j
    refine congrArg (· * BiSoftmax.scale) (Finset.sum_congr rfl fun e _ => ?_)
    rw [hq, hk, blk3_krow_eq_col]
  · funext u j
    show wcol (grid3.coords t) x5 (ix2 u j) = _
    unfold wcol
    rw [blk3_cols, blk3_krow_eq_col]

/-- Row r of the second softmax's three buffers after the body at point n, for ANY family S of states that is the
    update of the reset state at a first chunk and the update of the point before's state elsewhere, the blocks
    reading Q, K, W where the windows sit: the row's online state after the chunks 0 … n mod 8. -/
theorem blk3_rows2 (Q K : Fin 8 → Fin 2048 → Fin 2048 → EReal) (W : S2048x2048.Idx → EReal)
    (x0 x1 x2 x3 : Fin cfg3.N → Vec Ideal S1x256x2048 .bf16) (x4 x5 : Fin cfg3.N → Vec Ideal S2048x2048 .bf16)
    (S : (n : ℕ) → n < cfg3.N → Scr Ideal)
    (hq : ∀ (t : Fin cfg3.N) (r : Fin 256) (e : Fin 2048), x1 t (ix3 (0 : Fin 1) r e) = Q (blk3_head t) (blk3_qrow t r) e)
    (hk : ∀ (t : Fin cfg3.N) (j : Fin 256) (e : Fin 2048), x3 t (ix3 (0 : Fin 1) j e) = K (blk3_head t) (blk3_krow t j) e)
    (hw : ∀ t : Fin cfg3.N, x5 t = W)
    (hfirst : ∀ (n : ℕ) (hn : n < cfg3.N), n % 8 = 0 →
      S n hn = step3 (grid3.coords ⟨n, hn⟩) (x0 ⟨n, hn⟩) (x1 ⟨n, hn⟩) (x2 ⟨n, hn⟩) (x3 ⟨n, hn⟩) (x4 ⟨n, hn⟩) (x5 ⟨n, hn⟩) init3)
    (hnext : ∀ (n : ℕ) (hn : n + 1 < cfg3.N), ¬(n + 1) % 8 = 0 →
      S (n + 1) hn = step3 (grid3.coords ⟨n + 1, hn⟩) (x0 ⟨n + 1, hn⟩) (x1 ⟨n + 1, hn⟩) (x2 ⟨n + 1, hn⟩) (x3 ⟨n + 1, hn⟩) (x4 ⟨n + 1, hn⟩) (x5 ⟨n + 1, hn⟩) (S n (Nat.lt_of_succ_lt hn))) :
    ∀ (n : ℕ) (hn : n < cfg3.N) (r : Fin 256),
      Pay3.rowOf (S n hn).m2 (S n hn).l2 (S n hn).a2 r
        = BiSoftmax.iterE (fun j i' => (∑ e : Fin 2048, Q (blk3_head ⟨n, hn⟩) (blk3_qrow ⟨n, hn⟩ r) e * K (blk3_head ⟨n, hn⟩) (BiSoftmax.col j i') e) * BiSoftmax.scale)
            (fun j u i' => W (ix2 u (BiSoftmax.col j i'))) (n % 8) := by
  -- a first chunk, whatever its position: the update of the reset state is the state after chunk 0
  have first : ∀ (n : ℕ) (hn : n < cfg3.N) (r : Fin 256), n % 8 = 0 →
      Pay3.rowOf (S n hn).m2 (S n hn).l2 (S n hn).a2 r
        = BiSoftmax.iterE (fun j i' => (∑ e : Fin 2048, Q (blk3_head ⟨n, hn⟩) (blk3_qrow ⟨n, hn⟩ r) e * K (blk3_head ⟨n, hn⟩) (BiSoftmax.col j i') e) * BiSoftmax.scale)
            (fun j u i' => W (ix2 u (BiSoftmax.col j i'))) (n % 8) := by
    intro n hn r h0
    rw [hfirst n hn h0, blk3_step2 ⟨n, hn⟩ 0 h0 _ _ _ _ _ _ init3 Q K W (hq _) (hk _) (hw _) r, h0]
    show BiSoftmax.stepE (Pay3.rowOf (k3_pay8 (F := Ideal)) (k3_pay9 (F := Ideal)) (k3_pay10 (F := Ideal)) r) _ _ = _
    rw [Pay3.reset2_row]
    rfl
  intro n
  induction n with
  | zero => exact fun hn r => first 0 hn r rfl
  | succ n ih =>
    intro hn r
    by_cases h0 : (n + 1) % 8 = 0
    · exact first (n + 1) hn r h0
    · have hm : (n + 1) % 8 = n % 8 + 1 := by omega
      have hh : blk3_head ⟨n, Nat.lt_of_succ_lt hn⟩ = blk3_head ⟨n + 1, hn⟩ := Fin.ext (by show n / 64 = (n + 1) / 64; omega)
      have hr : blk3_qrow ⟨n, Nat.lt_of_succ_lt hn⟩ r = blk3_qrow ⟨n + 1, hn⟩ r :=
        Fin.ext (by show 256 * (n / 8 % 8) + r.val = 256 * ((n + 1) / 8 % 8) + r.val; omega)
      rw [hnext n hn h0, blk3_step2 ⟨n + 1, hn⟩ (n % 8 + 1) hm _ _ _ _ _ _ _ Q K W (hq _) (hk _) (hw _) r,
        ih (Nat.lt_of_succ_lt hn) r, hh, hr, hm]
      rfl

/-! ## The output array, for any proof data over such a family of states -/

/-- The output array after the region, for ANY proof data of the region's pipeline whose body leaves in the output's
    buffer, at each last chunk, the block computed from the running state there, the running state being the update
    of the reset state at a first chunk and of the point before's state elsewhere, and the six input blocks reading
    arrays Q₁, Q₂, K₁, K₂, W₁, W₂ where the windows sit. -/
theorem final3_6_gen {c : Dev nD} (dat : Dat τ (Elt Ideal) Unit ℕ (UR sig nD τ) ℕ cfg3 c)
    (S : (n : ℕ) → n < cfg3.N → Scr Ideal)
    (x0 x1 x2 x3 : Fin cfg3.N → Vec Ideal S1x256x2048 .bf16) (x4 x5 : Fin cfg3.N → Vec Ideal S2048x2048 .bf16)
    (Q1 K1 Q2 K2 : Fin 8 → Fin 2048 → Fin 2048 → EReal) (W1 W2 : S2048x2048.Idx → EReal)
    (hx0 : ∀ (t : Fin cfg3.N) (r : Fin 256) (e : Fin 2048), x0 t (ix3 (0 : Fin 1) r e) = Q1 (blk3_head t) (blk3_qrow t r) e)
    (hx1 : ∀ (t : Fin cfg3.N) (r : Fin 256) (e : Fin 2048), x1 t (ix3 (0 : Fin 1) r e) = Q2 (blk3_head t) (blk3_qrow t r) e)
    (hx2 : ∀ (t : Fin cfg3.N) (j : Fin 256) (e : Fin 2048), x2 t (ix3 (0 : Fin 1) j e) = K1 (blk3_head t) (blk3_krow t j) e)
    (hx3 : ∀ (t : Fin cfg3.N) (j : Fin 256) (e : Fin 2048), x3 t (ix3 (0 : Fin 1) j e) = K2 (blk3_head t) (blk3_krow t j) e)
    (hx4 : ∀ t : Fin cfg3.N, x4 t = W1) (hx5 : ∀ t : Fin cfg3.N, x5 t = W2)
    (hfirst : ∀ (n : ℕ) (hn : n < cfg3.N), n % 8 = 0 →
      S n hn = step3 (grid3.coords ⟨n, hn⟩) (x0 ⟨n, hn⟩) (x1 ⟨n, hn⟩) (x2 ⟨n, hn⟩) (x3 ⟨n, hn⟩) (x4 ⟨n, hn⟩) (x5 ⟨n, hn⟩) init3)
    (hnext : ∀ (n : ℕ) (hn : n + 1 < cfg3.N), ¬(n + 1) % 8 = 0 →
      S (n + 1) hn = step3 (grid3.coords ⟨n + 1, hn⟩) (x0 ⟨n + 1, hn⟩) (x1 ⟨n + 1, hn⟩) (x2 ⟨n + 1, hn⟩) (x3 ⟨n + 1, hn⟩) (x4 ⟨n + 1, hn⟩) (x5 ⟨n + 1, hn⟩) (S n (Nat.lt_of_succ_lt hn)))
    (hafter : ∀ t : Fin cfg3.N, t.val % 8 = 7 → dat.after 6 t = fin3 (S t.val t.isLt)) :
    dat.arrAt 6 cfg3.N = out3 Q1 K1 Q2 K2 W1 W2 :=
  final3_6_core dat (fun t => S t.val t.isLt) Q1 K1 Q2 K2 W1 W2 hafter
    (fun t r ht => by
      have h := blk3_rows1 Q1 K1 W1 x0 x1 x2 x3 x4 x5 S hx0 hx2 hx4 hfirst hnext t.val t.isLt r
      rw [ht] at h
      exact h)
    (fun t r ht => by
      have h := blk3_rows2 Q2 K2 W2 x0 x1 x2 x3 x4 x5 S hx1 hx3 hx5 hfirst hnext t.val t.isLt r
      rw [ht] at h
      exact h)

end Cert.KernelIdeal.Hand

end
-- ==== Proof.KI.Fin3.lean ====
/- Region 3's output array from the region's entry contents: the proof data and running state of the region's frame,
   put into the general statement of the output array. -/
import proofs.«118165_j36936718746194_2_alg».proof.Proof.KI.Val3
import proofs.«118165_j36936718746194_2_alg».proof.Proof.KI.Reg3

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Idealize.ShloMosaic.Rounds

/-! ## The region's output array -/

/-- THE OUTPUT ARRAY AFTER REGION 3, from the region's entry contents: with Q₁, Q₂, K₁, K₂ the four projected arrays
    and W₁, W₂ the two mixing weights as the region finds them, entry (h, s, u) is the squared difference of the two
    mixed scores of row (h, s) at column u, each the quotient of the row's online state after the eight key chunks. -/
theorem final3_6 (V : (c : Dev nD) → (b : Ref sig .tc) → Buf (Elt Ideal) ((c : Thread nD τ).loc b)) (c : Dev nD)
    (Q1 K1 Q2 K2 : Fin 8 → Fin 2048 → Fin 2048 → EReal) (W1 W2 : S2048x2048.Idx → EReal)
    (hq1 : ∀ (h : Fin 8) (s e : Fin 2048), (V c (Pipeline.arrRef spec3 0) : S8x2048x2048.Idx → EReal) (ix3 h s e) = Q1 h s e)
    (hq2 : ∀ (h : Fin 8) (s e : Fin 2048), (V c (Pipeline.arrRef spec3 1) : S8x2048x2048.Idx → EReal) (ix3 h s e) = Q2 h s e)
    (hk1 : ∀ (h : Fin 8) (s e : Fin 2048), (V c (Pipeline.arrRef spec3 2) : S8x2048x2048.Idx → EReal) (ix3 h s e) = K1 h s e)
    (hk2 : ∀ (h : Fin 8) (s e : Fin 2048), (V c (Pipeline.arrRef spec3 3) : S8x2048x2048.Idx → EReal) (ix3 h s e) = K2 h s e)
    (hw1 : (V c (Pipeline.arrRef spec3 4) : S2048x2048.Idx → EReal) = W1)
    (hw2 : (V c (Pipeline.arrRef spec3 5) : S2048x2048.Idx → EReal) = W2) :
    (dat3 V c).arrAt 6 cfg3.N = fun i : S8x2048x2048.Idx => BiSoftmax.outE
      (BiSoftmax.iterE (fun j i' => (∑ e : Fin 2048, Q1 (i 0) (i 1) e * K1 (i 0) (BiSoftmax.col j i') e) * BiSoftmax.scale) (fun j u i' => W1 (ix2 u (BiSoftmax.col j i'))) 7)
      (BiSoftmax.iterE (fun j i' => (∑ e : Fin 2048, Q2 (i 0) (i 1) e * K2 (i 0) (BiSoftmax.col j i') e) * BiSoftmax.scale) (fun j u i' => W2 (ix2 u (BiSoftmax.col j i'))) 7) (i 2 : Fin 2048) :=
  final3_6_gen (dat3 V c) (scrAt3 V c)
    (fun t => iblk3 V c 0 t) (fun t => iblk3 V c 1 t) (fun t => iblk3 V c 2 t) (fun t => iblk3 V c 3 t) (fun t => iblk3 V c 4 t) (fun t => iblk3 V c 5 t)
    Q1 K1 Q2 K2 W1 W2
    (fun t r e => (blk3_q1 _ t r e).trans (hq1 _ _ _))
    (fun t r e => (blk3_q2 _ t r e).trans (hq2 _ _ _))
    (fun t j e => (blk3_k1 _ t j e).trans (hk1 _ _ _))
    (fun t j e => (blk3_k2 _ t j e).trans (hk2 _ _ _))
    (fun t => (blk3_w1 _ t).trans hw1) (fun t => (blk3_w2 _ t).trans hw2)
    (fun n hn h0 => scrAt3_first V c ⟨n, hn⟩ h0)
    (fun n hn h0 => scrAt3_next V c ⟨n + 1, hn⟩ h0)
    (fun t _ => after3_6 V c t)

end Cert.KernelIdeal.Hand

end
-- ==== Proof.RowProj.lean ====
import proofs.«118165_j36936718746194_2_alg».proof.Proof.RowState

/-!
# The online output of a row, with the scores written out

The statement of `outE_eq_circle_of_finite` with the row's scores given as the scaled contraction
of the two projections, `(∑ e, q[h, s, e] * k[h, 256 j + i, e]) * c`, which is what `scores` is.
-/

noncomputable section

open scoped BigOperators

namespace BiSoftmax

open Idealize.ShloMosaic Idealize.ShloMosaic.ValueIdx OnlineSoftmax

/-- After the eight chunks the output of row `(h, s)` at column `u` is the specification's squared
    difference of mixed scores, when every entry of the seven arrays involved is neither infinity;
    the chunks' scores are the scaled contractions of the query projection's row `s` with the key
    projection's rows `256 j + i`. -/
theorem outE_proj_eq_circle_of_finite {x : ArrX} {Wq Wk W Wq2 Wk2 W2 : ArrW}
    (hx : ∀ i, x i ≠ ⊤ ∧ x i ≠ ⊥)
    (hq : ∀ i, Wq i ≠ ⊤ ∧ Wq i ≠ ⊥) (hk : ∀ i, Wk i ≠ ⊤ ∧ Wk i ≠ ⊥) (hW : ∀ i, W i ≠ ⊤ ∧ W i ≠ ⊥)
    (hq2 : ∀ i, Wq2 i ≠ ⊤ ∧ Wq2 i ≠ ⊥) (hk2 : ∀ i, Wk2 i ≠ ⊤ ∧ Wk2 i ≠ ⊥)
    (hW2 : ∀ i, W2 i ≠ ⊤ ∧ W2 i ≠ ⊥) (h : Fin 8) (s u : Fin 2048) :
    outE
        (iterE (fun j i => (∑ e : Fin 2048, proj x Wq h s e * proj x Wk h (col j i) e) * scale)
          (fun j u i => W (ix2 u (col j i))) 7)
        (iterE (fun j i => (∑ e : Fin 2048, proj x Wq2 h s e * proj x Wk2 h (col j i) e) * scale)
          (fun j u i => W2 (ix2 u (col j i))) 7) u
      = circle x Wq Wk Wq2 Wk2 W W2 h s u :=
  outE_eq_circle_of_finite hx hq hk hW hq2 hk2 hW2 h s u

end BiSoftmax

end
-- ==== Proof.ResultOf.lean ====
import proofs.«118165_j36936718746194_2_alg».proof.Proof.Spec

/-!
# The result from its two factors

If an array holds the squared differences of the mixed scores and another the value projection,
then the head-by-head product of the two, `out[h, s, d] = ∑ t, S[h, s, t] * V[h, t, d]`, is the
specification's result.
-/

noncomputable section

open scoped BigOperators

namespace BiSoftmax

open Idealize.ShloMosaic Idealize.ShloMosaic.ValueIdx

/-- The product, head by head, of the squared score differences with the value projection is the
    specification's result. -/
theorem result_of_parts (x : ArrX) (Wq1 Wk1 Wq2 Wk2 Wv W1 W2 : ArrW) (S Vv : ArrH)
    (hS : ∀ (h : Fin 8) (s t : Fin 2048), S (ix3 h s t) = circle x Wq1 Wk1 Wq2 Wk2 W1 W2 h s t)
    (hV : ∀ (h : Fin 8) (t d : Fin 2048), Vv (ix3 h t d) = proj x Wv h t d) :
    (fun i : (⟨3, ![8, 2048, 2048]⟩ : Shape).Idx =>
        ∑ k : Fin 2048, S (ix3 (i 0 : Fin 8) (i 1 : Fin 2048) k) * Vv (ix3 (i 0 : Fin 8) k (i 2 : Fin 2048)))
      = result x Wq1 Wk1 Wq2 Wk2 Wv W1 W2 := by
  funext i
  unfold result resultAt
  exact Finset.sum_congr rfl fun k _ => congrArg₂ (· * ·) (hS (i 0) (i 1) k) (hV (i 0) k (i 2))

end BiSoftmax

end
-- ==== Proof.KI.Result.lean ====
/-
  The result array of the idealized kernel program is the specification's function of the eight arguments: the last
  region multiplies the fused region's output with the reshaped value projection head by head; the fused region's output
  is, row by row, the squared difference of the two online-softmax quotients, which for finite inputs is the squared
  difference of the two mixed scores; the projections are the specification's.
-/
import proofs.«118165_j36936718746194_2_alg».proof.Proof.KI.Run
import proofs.«118165_j36936718746194_2_alg».proof.Proof.KI.Proj
import proofs.«118165_j36936718746194_2_alg».proof.Proof.KI.Val4
import proofs.«118165_j36936718746194_2_alg».proof.Proof.KI.Fin3
import proofs.«118165_j36936718746194_2_alg».proof.Proof.RowProj
import proofs.«118165_j36936718746194_2_alg».proof.Proof.ResultOf

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen Idealize.ShloMosaic.ValueIdx

variable (m : (ℓ : Loc nD τ sig) → Buf (Elt Ideal) ℓ) (ρ : Dev nD → PrngReg)

/-- The fused region does not touch the reshaped value projection. -/
theorem W6_main_v14 (c : Dev nD) : W6 m ρ c (Proc.devRef .tc main_v14) = W5 m ρ c (Proc.devRef .tc main_v14) :=
  W6_of_ne m ρ c main_v14 (by decide)
/-- The fused region's output array is what its write-backs left. -/
theorem W6_main_v15 (c : Dev nD) : W6 m ρ c (Proc.devRef .tc main_v15) = (dat3 (V5 m ρ) c).arrAt 6 cfg3.N :=
  W6_arr m ρ c 6
/-- The result array is what the last region's write-backs left. -/
theorem W7_main_v16 (c : Dev nD) : W7 m ρ c (Proc.devRef .tc main_v16) = (dat4 (V6 m ρ) c).arrAt 2 cfg4.N :=
  W7_arr m ρ c 2
/-- The two mixing weights as the fused region finds them are the weight arguments 6 and 7. -/
theorem W5_mix1 (c : Dev nD) : (W5 m ρ c (Proc.devRef .tc main_v5) : S2048x2048.Idx → EReal) = (m ((c : Thread nD τ).loc main_arg6) : S2048x2048.Idx → EReal) :=
  ((W5_main_v5 m ρ c).trans (W4_main_v5 m ρ c)).trans (W1_main_v5 m ρ c)
theorem W5_mix2 (c : Dev nD) : (W5 m ρ c (Proc.devRef .tc main_v6) : S2048x2048.Idx → EReal) = (m ((c : Thread nD τ).loc main_arg7) : S2048x2048.Idx → EReal) :=
  ((W5_main_v6 m ρ c).trans (W4_main_v6 m ρ c)).trans (W1_main_v6 m ρ c)

/-- For finite inputs the result array is the specification's `BiSoftmax.result` of the eight argument arrays. -/
theorem result_value (c : Dev nD)
    (h0 : ∀ i, ((m ((c : Thread nD τ).loc main_arg0)) : BiSoftmax.ArrX) i ≠ (⊤ : EReal) ∧ ((m ((c : Thread nD τ).loc main_arg0)) : BiSoftmax.ArrX) i ≠ (⊥ : EReal))
    (h1 : ∀ i, ((m ((c : Thread nD τ).loc main_arg1)) : BiSoftmax.ArrW) i ≠ (⊤ : EReal) ∧ ((m ((c : Thread nD τ).loc main_arg1)) : BiSoftmax.ArrW) i ≠ (⊥ : EReal))
    (h2 : ∀ i, ((m ((c : Thread nD τ).loc main_arg2)) : BiSoftmax.ArrW) i ≠ (⊤ : EReal) ∧ ((m ((c : Thread nD τ).loc main_arg2)) : BiSoftmax.ArrW) i ≠ (⊥ : EReal))
    (h3 : ∀ i, ((m ((c : Thread nD τ).loc main_arg3)) : BiSoftmax.ArrW) i ≠ (⊤ : EReal) ∧ ((m ((c : Thread nD τ).loc main_arg3)) : BiSoftmax.ArrW) i ≠ (⊥ : EReal))
    (h4 : ∀ i, ((m ((c : Thread nD τ).loc main_arg4)) : BiSoftmax.ArrW) i ≠ (⊤ : EReal) ∧ ((m ((c : Thread nD τ).loc main_arg4)) : BiSoftmax.ArrW) i ≠ (⊥ : EReal))
    (h5 : ∀ i, ((m ((c : Thread nD τ).loc main_arg5)) : BiSoftmax.ArrW) i ≠ (⊤ : EReal) ∧ ((m ((c : Thread nD τ).loc main_arg5)) : BiSoftmax.ArrW) i ≠ (⊥ : EReal))
    (h6 : ∀ i, ((m ((c : Thread nD τ).loc main_arg6)) : BiSoftmax.ArrW) i ≠ (⊤ : EReal) ∧ ((m ((c : Thread nD τ).loc main_arg6)) : BiSoftmax.ArrW) i ≠ (⊥ : EReal))
    (h7 : ∀ i, ((m ((c : Thread nD τ).loc main_arg7)) : BiSoftmax.ArrW) i ≠ (⊤ : EReal) ∧ ((m ((c : Thread nD τ).loc main_arg7)) : BiSoftmax.ArrW) i ≠ (⊥ : EReal)) :
    (W7 m ρ c (Proc.devRef .tc main_v16) : S8x2048x2048.Idx → EReal)
      = BiSoftmax.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W7_main_v16 m ρ c).trans (final4_2 (V6 m ρ) c)).trans ?_
  refine BiSoftmax.result_of_parts _ _ _ _ _ _ _ _ (sArr4 (V6 m ρ) c) (vArr4 (V6 m ρ) c) ?_ ?_
  · intro h s t
    have hfused := final3_6 (V5 m ρ) c
      (BiSoftmax.proj (m ((c : Thread nD τ).loc main_arg0)) (m ((c : Thread nD τ).loc main_arg1))) (BiSoftmax.proj (m ((c : Thread nD τ).loc main_arg0)) (m ((c : Thread nD τ).loc main_arg2)))
      (BiSoftmax.proj (m ((c : Thread nD τ).loc main_arg0)) (m ((c : Thread nD τ).loc main_arg3))) (BiSoftmax.proj (m ((c : Thread nD τ).loc main_arg0)) (m ((c : Thread nD τ).loc main_arg4)))
      (m ((c : Thread nD τ).loc main_arg6)) (m ((c : Thread nD τ).loc main_arg7))
      (q1_at m ρ c) (q2_at m ρ c) (k1_at m ρ c) (k2_at m ρ c) (W5_mix1 m ρ c) (W5_mix2 m ρ c)
    have hs : (sArr4 (V6 m ρ) c : S8x2048x2048.Idx → EReal) (ix3 h s t) = _ :=
      congrFun ((W6_main_v15 m ρ c).trans hfused) (ix3 h s t)
    exact hs.trans (BiSoftmax.outE_proj_eq_circle_of_finite h0 h1 h2 h6 h3 h4 h7 h s t)
  · intro h t d
    exact (congrFun (W6_main_v14 m ρ c) (ix3 h t d)).trans (v_at m ρ c h t d)

end Cert.KernelIdeal.Hand

end
-- ==== Proof.RefValue.lean ====
import proofs.«118165_j36936718746194_2_alg».proof.Proof.Gen.ReferenceIdeal.Read
import proofs.«118165_j36936718746194_2_alg».proof.Proof.Spec

/-!
# The reference computes the specification

The reference program, read one stage at a time at coordinates `(h, s, ·)`: the reshape puts row
`2048 h + s` of the input at `(h, s)`; each contraction is a sum over its one contracted coordinate;
the maximum of a row, folded from `-∞`, is the supremum of the row; the sum of a row from `0` is
the sum; the broadcasts repeat a row's value along the row. Stage by stage these are the functions
of `BiSoftmax`, and the last stage is `BiSoftmax.result`.
-/

noncomputable section

namespace Cert.ReferenceIdeal.RefValue

open Cert.ReferenceIdeal Cert.ReferenceIdeal.Gen Cert.ReferenceIdeal.Read Idealize.ShloMosaic
  Idealize.ShloMosaic.ValueIdx BiSoftmax

/-- The input array's type at the extended reals. -/
abbrev AX := (⟨S16384x2048, .f32⟩ : BufTy).Contents (Elt Ideal)
/-- A weight array's type at the extended reals. -/
abbrev AW := (⟨S2048x2048, .f32⟩ : BufTy).Contents (Elt Ideal)
/-- A per-head array's type at the extended reals. -/
abbrev AH := (⟨S8x2048x2048, .f32⟩ : BufTy).Contents (Elt Ideal)

/-! ## The reshape and the five projections -/

/-- The reshaped input at `(h, s, d)` is the input at row `2048 h + s`, column `d`. -/
theorem v0_at (x0 : AX) (h : Fin 8) (s d : Fin 2048) :
    val_main_v0 (F := Ideal) x0 (ix3 h s d) = x0 (ix2 (row h s) d) := by
  rw [val_main_v0_apply]
  refine congrArg x0 (funext fun a => Fin.ext ?_)
  match a with
  | ⟨0, _⟩ =>
    show ((h.val * 2048 + s.val) * 2048 + d.val) / 2048 = h.val * 2048 + s.val
    have := d.isLt; omega
  | ⟨1, _⟩ =>
    show ((h.val * 2048 + s.val) * 2048 + d.val) % 2048 = d.val
    have := d.isLt; omega

theorem v1_at (x0 : AX) (w : AW) (h : Fin 8) (s e : Fin 2048) :
    val_main_v1 (F := Ideal) x0 w (ix3 h s e) = proj x0 w h s e := by
  rw [val_main_v1_apply]
  unfold proj
  refine Finset.sum_congr rfl fun k _ => ?_
  have el : lidx_main_v1 (ix3 h s e) k = ix3 h s k := funext fun a => Fin.ext (by match a with | ⟨0, _⟩ => rfl | ⟨1, _⟩ => rfl | ⟨2, _⟩ => rfl)
  have er : ridx_main_v1 (ix3 h s e) k = ix2 e k := funext fun a => Fin.ext (by match a with | ⟨0, _⟩ => rfl | ⟨1, _⟩ => rfl)
  rw [el, er, v0_at]

theorem v2_at (x0 : AX) (w : AW) (h : Fin 8) (s e : Fin 2048) :
    val_main_v2 (F := Ideal) x0 w (ix3 h s e) = proj x0 w h s e := by
  rw [val_main_v2_apply]
  unfold proj
  refine Finset.sum_congr rfl fun k _ => ?_
  have el : lidx_main_v2 (ix3 h s e) k = ix3 h s k := funext fun a => Fin.ext (by match a with | ⟨0, _⟩ => rfl | ⟨1, _⟩ => rfl | ⟨2, _⟩ => rfl)
  have er : ridx_main_v2 (ix3 h s e) k = ix2 e k := funext fun a => Fin.ext (by match a with | ⟨0, _⟩ => rfl | ⟨1, _⟩ => rfl)
  rw [el, er, v0_at]

theorem v3_at (x0 : AX) (w : AW) (h : Fin 8) (s e : Fin 2048) :
    val_main_v3 (F := Ideal) x0 w (ix3 h s e) = proj x0 w h s e := by
  rw [val_main_v3_apply]
  unfold proj
  refine Finset.sum_congr rfl fun k _ => ?_
  have el : lidx_main_v3 (ix3 h s e) k = ix3 h s k := funext fun a => Fin.ext (by match a with | ⟨0, _⟩ => rfl | ⟨1, _⟩ => rfl | ⟨2, _⟩ => rfl)
  have er : ridx_main_v3 (ix3 h s e) k = ix2 e k := funext fun a => Fin.ext (by match a with | ⟨0, _⟩ => rfl | ⟨1, _⟩ => rfl)
  rw [el, er, v0_at]

theorem v4_at (x0 : AX) (w : AW) (h : Fin 8) (s e : Fin 2048) :
    val_main_v4 (F := Ideal) x0 w (ix3 h s e) = proj x0 w h s e := by
  rw [val_main_v4_apply]
  unfold proj
  refine Finset.sum_congr rfl fun k _ => ?_
  have el : lidx_main_v4 (ix3 h s e) k = ix3 h s k := funext fun a => Fin.ext (by match a with | ⟨0, _⟩ => rfl | ⟨1, _⟩ => rfl | ⟨2, _⟩ => rfl)
  have er : ridx_main_v4 (ix3 h s e) k = ix2 e k := funext fun a => Fin.ext (by match a with | ⟨0, _⟩ => rfl | ⟨1, _⟩ => rfl)
  rw [el, er, v0_at]

theorem v5_at (x0 : AX) (w : AW) (h : Fin 8) (s e : Fin 2048) :
    val_main_v5 (F := Ideal) x0 w (ix3 h s e) = proj x0 w h s e := by
  rw [val_main_v5_apply]
  unfold proj
  refine Finset.sum_congr rfl fun k _ => ?_
  have el : lidx_main_v5 (ix3 h s e) k = ix3 h s k := funext fun a => Fin.ext (by match a with | ⟨0, _⟩ => rfl | ⟨1, _⟩ => rfl | ⟨2, _⟩ => rfl)
  have er : ridx_main_v5 (ix3 h s e) k = ix2 e k := funext fun a => Fin.ext (by match a with | ⟨0, _⟩ => rfl | ⟨1, _⟩ => rfl)
  rw [el, er, v0_at]

/-! ## The row maximum -/

/-- The single-precision word `0xFF800000` denotes `-∞`. -/
theorem ofBits_neg_inf : Ideal.ofBits .f32 0xFF800000#32 = (⊥ : EReal) := by
  simp [Ideal.ofBits, Ideal.ieee]

/-- A reduced index `(h, s)` with the coordinate `k` put back on the last axis is `(h, s, k)`. -/
theorem lift_ix3 (hR : S8x2048x2048.Reduces [2] S8x2048) (h : Fin 8) (s : Fin 2048)
    (k : Fin (S8x2048x2048.size 2)) :
    hR.lift (ix2 h s) k = ix3 h s (⟨k.val, k.isLt⟩ : Fin 2048) := by
  funext c; apply Fin.ext
  fin_cases c <;> rfl

/-- The reduction by `max` from `-∞` over the last axis is, at `(h, s)`, the supremum of the row. -/
theorem rowMax_at (y : AH) (h : Fin 8) (s : Fin 2048) :
    Host.reduce FloatOps.maximumf y (constant (F := Ideal) S_ .f32 0xFF800000#32)
        reducesTo_S8x2048x2048_S8x2048_d2 h_S_ (ix2 h s)
      = Finset.univ.sup fun t : Fin 2048 => y (ix3 h s t) := by
  have hR : S8x2048x2048.Reduces [2] S8x2048 := by decide
  refine (Host.reduce_eq_fold_single _ _ _ _ hR _ _).trans ?_
  have hinit : (constant (F := Ideal) S_ .f32 0xFF800000#32) (Shape.Idx.first h_S_) = (⊥ : EReal) :=
    ofBits_neg_inf
  have hf : (y ∘ hR.lift (ix2 h s)) = fun t : Fin 2048 => y (ix3 h s t) :=
    funext fun k => congrArg y (lift_ix3 hR h s k)
  rw [hinit, hf]
  rfl

/-! ## The first softmax branch -/

/-- The scaled scores. -/
theorem v8_at (x0 : AX) (wq wk : AW) (h : Fin 8) (s t : Fin 2048) :
    val_main_v8 (F := Ideal) x0 wq wk (ix3 h s t) = scores x0 wq wk h s t := by
  rw [val_main_v8_apply, val_main_v6_apply, val_main_v7_apply, val_main_cst_apply,
    Ideal.mulf_def, Ideal.ofBits_def]
  unfold scores scale
  refine congrArg (· * _) (Finset.sum_congr rfl fun k _ => ?_)
  have el : lidx_main_v6 (ix3 h s t) k = ix3 h s k := funext fun a => Fin.ext (by match a with | ⟨0, _⟩ => rfl | ⟨1, _⟩ => rfl | ⟨2, _⟩ => rfl)
  have er : ridx_main_v6 (ix3 h s t) k = ix3 h t k := funext fun a => Fin.ext (by match a with | ⟨0, _⟩ => rfl | ⟨1, _⟩ => rfl | ⟨2, _⟩ => rfl)
  rw [el, er, v1_at, v2_at]

/-- The row maximum: the fold of `max` from `-∞`, once more against `-∞`. -/
theorem v11_at (x0 : AX) (wq wk : AW) (h : Fin 8) (s : Fin 2048) :
    val_main_v11 (F := Ideal) x0 wq wk (ix2 h s) = rowMax (scores x0 wq wk h s) := by
  rw [val_main_v11_apply, val_main_v10_apply, val_main_cst_1_apply, Ideal.maximumf_def,
    Ideal.ofBits_def, ofBits_neg_inf, max_eq_right bot_le]
  unfold val_main_v9 val_main_cst_0
  rw [rowMax_at]
  unfold rowMax
  exact congrArg Finset.univ.sup (funext fun t => v8_at x0 wq wk h s t)

/-- The row maximum broadcast back along the row. -/
theorem v13_at (x0 : AX) (wq wk : AW) (h : Fin 8) (s t : Fin 2048) :
    val_main_v13 (F := Ideal) x0 wq wk (ix3 h s t) = rowMax (scores x0 wq wk h s) := by
  rw [val_main_v13_apply, val_main_v12_apply]
  have e : idx_main_v12 (idx_main_v13 (ix3 h s t)) = ix2 h s := funext fun a => Fin.ext (by match a with | ⟨0, _⟩ => rfl | ⟨1, _⟩ => rfl)
  rw [e, v11_at]

/-- The exponential of the score minus the row maximum. -/
theorem v15_at (x0 : AX) (wq wk : AW) (h : Fin 8) (s t : Fin 2048) :
    val_main_v15 (F := Ideal) x0 wq wk (ix3 h s t)
      = Ideal.exp (scores x0 wq wk h s t - rowMax (scores x0 wq wk h s)) := by
  rw [val_main_v15_apply, val_main_v14_apply, v8_at, v13_at, Ideal.hostUnary_exp_def,
    Ideal.subf_def]

/-- The row's softmax denominator: the sum from `0`. -/
theorem v16_at (x0 : AX) (wq wk : AW) (h : Fin 8) (s : Fin 2048) :
    val_main_v16 (F := Ideal) x0 wq wk (ix2 h s) = rowDen (scores x0 wq wk h s) := by
  rw [val_main_v16_apply, val_main_cst_2_apply, Ideal.ofBits_def, Ideal.ofBits_zero_f32, zero_add]
  unfold rowDen
  refine Finset.sum_congr rfl fun k _ => ?_
  have e : idx_main_v16 (ix2 h s) k = ix3 h s k := funext fun a => Fin.ext (by match a with | ⟨0, _⟩ => rfl | ⟨1, _⟩ => rfl | ⟨2, _⟩ => rfl)
  rw [e, v15_at]

/-- The softmax. -/
theorem v19_at (x0 : AX) (wq wk : AW) (h : Fin 8) (s t : Fin 2048) :
    val_main_v19 (F := Ideal) x0 wq wk (ix3 h s t) = softmax (scores x0 wq wk h s) t := by
  rw [val_main_v19_apply, val_main_v18_apply, val_main_v17_apply, Ideal.hostDivf_def]
  have e : idx_main_v17 (idx_main_v18 (ix3 h s t)) = ix2 h s := funext fun a => Fin.ext (by match a with | ⟨0, _⟩ => rfl | ⟨1, _⟩ => rfl)
  rw [e, v16_at, v15_at]
  rfl

/-! ## The second softmax branch -/

/-- The scaled scores. -/
theorem v22_at (x0 : AX) (wq wk : AW) (h : Fin 8) (s t : Fin 2048) :
    val_main_v22 (F := Ideal) x0 wq wk (ix3 h s t) = scores x0 wq wk h s t := by
  rw [val_main_v22_apply, val_main_v20_apply, val_main_v21_apply, val_main_cst_3_apply,
    Ideal.mulf_def, Ideal.ofBits_def]
  unfold scores scale
  refine congrArg (· * _) (Finset.sum_congr rfl fun k _ => ?_)
  have el : lidx_main_v20 (ix3 h s t) k = ix3 h s k := funext fun a => Fin.ext (by match a with | ⟨0, _⟩ => rfl | ⟨1, _⟩ => rfl | ⟨2, _⟩ => rfl)
  have er : ridx_main_v20 (ix3 h s t) k = ix3 h t k := funext fun a => Fin.ext (by match a with | ⟨0, _⟩ => rfl | ⟨1, _⟩ => rfl | ⟨2, _⟩ => rfl)
  rw [el, er, v3_at, v4_at]

/-- The row maximum: the fold of `max` from `-∞`, once more against `-∞`. -/
theorem v25_at (x0 : AX) (wq wk : AW) (h : Fin 8) (s : Fin 2048) :
    val_main_v25 (F := Ideal) x0 wq wk (ix2 h s) = rowMax (scores x0 wq wk h s) := by
  rw [val_main_v25_apply, val_main_v24_apply, val_main_cst_5_apply, Ideal.maximumf_def,
    Ideal.ofBits_def, ofBits_neg_inf, max_eq_right bot_le]
  unfold val_main_v23 val_main_cst_4
  rw [rowMax_at]
  unfold rowMax
  exact congrArg Finset.univ.sup (funext fun t => v22_at x0 wq wk h s t)

/-- The row maximum broadcast back along the row. -/
theorem v27_at (x0 : AX) (wq wk : AW) (h : Fin 8) (s t : Fin 2048) :
    val_main_v27 (F := Ideal) x0 wq wk (ix3 h s t) = rowMax (scores x0 wq wk h s) := by
  rw [val_main_v27_apply, val_main_v26_apply]
  have e : idx_main_v26 (idx_main_v27 (ix3 h s t)) = ix2 h s := funext fun a => Fin.ext (by match a with | ⟨0, _⟩ => rfl | ⟨1, _⟩ => rfl)
  rw [e, v25_at]

/-- The exponential of the score minus the row maximum. -/
theorem v29_at (x0 : AX) (wq wk : AW) (h : Fin 8) (s t : Fin 2048) :
    val_main_v29 (F := Ideal) x0 wq wk (ix3 h s t)
      = Ideal.exp (scores x0 wq wk h s t - rowMax (scores x0 wq wk h s)) := by
  rw [val_main_v29_apply, val_main_v28_apply, v22_at, v27_at, Ideal.hostUnary_exp_def,
    Ideal.subf_def]

/-- The row's softmax denominator: the sum from `0`. -/
theorem v30_at (x0 : AX) (wq wk : AW) (h : Fin 8) (s : Fin 2048) :
    val_main_v30 (F := Ideal) x0 wq wk (ix2 h s) = rowDen (scores x0 wq wk h s) := by
  rw [val_main_v30_apply, val_main_cst_6_apply, Ideal.ofBits_def, Ideal.ofBits_zero_f32, zero_add]
  unfold rowDen
  refine Finset.sum_congr rfl fun k _ => ?_
  have e : idx_main_v30 (ix2 h s) k = ix3 h s k := funext fun a => Fin.ext (by match a with | ⟨0, _⟩ => rfl | ⟨1, _⟩ => rfl | ⟨2, _⟩ => rfl)
  rw [e, v29_at]

/-- The softmax. -/
theorem v33_at (x0 : AX) (wq wk : AW) (h : Fin 8) (s t : Fin 2048) :
    val_main_v33 (F := Ideal) x0 wq wk (ix3 h s t) = softmax (scores x0 wq wk h s) t := by
  rw [val_main_v33_apply, val_main_v32_apply, val_main_v31_apply, Ideal.hostDivf_def]
  have e : idx_main_v31 (idx_main_v32 (ix3 h s t)) = ix2 h s := funext fun a => Fin.ext (by match a with | ⟨0, _⟩ => rfl | ⟨1, _⟩ => rfl)
  rw [e, v30_at, v29_at]
  rfl

/-! ## Mixing, the squared difference, and the result -/

/-- The mixed score. -/
theorem v34_at (x0 : AX) (wq wk w : AW) (h : Fin 8) (s u : Fin 2048) :
    val_main_v34 (F := Ideal) x0 wq wk w (ix3 h s u) = mixed x0 wq wk w h s u := by
  rw [val_main_v34_apply]
  unfold mixed
  refine Finset.sum_congr rfl fun k _ => ?_
  have el : lidx_main_v34 (ix3 h s u) k = ix3 h s k := funext fun a => Fin.ext (by match a with | ⟨0, _⟩ => rfl | ⟨1, _⟩ => rfl | ⟨2, _⟩ => rfl)
  have er : ridx_main_v34 (ix3 h s u) k = ix2 u k := funext fun a => Fin.ext (by match a with | ⟨0, _⟩ => rfl | ⟨1, _⟩ => rfl)
  rw [el, er, v19_at]

/-- The mixed score. -/
theorem v35_at (x0 : AX) (wq wk w : AW) (h : Fin 8) (s u : Fin 2048) :
    val_main_v35 (F := Ideal) x0 wq wk w (ix3 h s u) = mixed x0 wq wk w h s u := by
  rw [val_main_v35_apply]
  unfold mixed
  refine Finset.sum_congr rfl fun k _ => ?_
  have el : lidx_main_v35 (ix3 h s u) k = ix3 h s k := funext fun a => Fin.ext (by match a with | ⟨0, _⟩ => rfl | ⟨1, _⟩ => rfl | ⟨2, _⟩ => rfl)
  have er : ridx_main_v35 (ix3 h s u) k = ix2 u k := funext fun a => Fin.ext (by match a with | ⟨0, _⟩ => rfl | ⟨1, _⟩ => rfl)
  rw [el, er, v33_at]

/-- The squared difference of the two mixed scores. -/
theorem v37_at (x0 : AX) (x1 x2 x3 x4 x6 x7 : AW) (h : Fin 8) (s t : Fin 2048) :
    val_main_v37 (F := Ideal) x0 x1 x2 x3 x4 x6 x7 (ix3 h s t) = circle x0 x1 x2 x3 x4 x6 x7 h s t := by
  rw [val_main_v37_apply, val_main_v36_apply, v34_at, v35_at, Ideal.mulf_def, Ideal.subf_def]
  rfl

/-- **The reference computes the specification.** -/
theorem result_eq (x0 : AX) (x1 x2 x3 x4 x5 x6 x7 : AW) :
    val_main_v38 (F := Ideal) x0 x1 x2 x3 x4 x5 x6 x7 = result x0 x1 x2 x3 x4 x5 x6 x7 := by
  funext i
  obtain ⟨h, s, d, rfl⟩ : ∃ (h : Fin 8) (s d : Fin 2048), i = ix3 h s d := ⟨i 0, i 1, i 2, eq_ix3 i⟩
  rw [val_main_v38_apply, result_ix3]
  unfold resultAt
  refine Finset.sum_congr rfl fun k _ => ?_
  have el : lidx_main_v38 (ix3 h s d) k = ix3 h s k := funext fun a => Fin.ext (by match a with | ⟨0, _⟩ => rfl | ⟨1, _⟩ => rfl | ⟨2, _⟩ => rfl)
  have er : ridx_main_v38 (ix3 h s d) k = ix3 h k d := funext fun a => Fin.ext (by match a with | ⟨0, _⟩ => rfl | ⟨1, _⟩ => rfl | ⟨2, _⟩ => rfl)
  rw [el, er, v37_at, v5_at]

end Cert.ReferenceIdeal.RefValue

end
-- ==== Proof.RefFrame.lean ====
/-
  The reference is a host program: its run ends with every result at the composed term of its operations and the
  argument arrays as launched. Dropping the result gives the frame claim of the reference; reading the composed term
  stage by stage gives the result array as the specification's function of the eight arguments.
-/
import proofs.«118165_j36936718746194_2_alg».proof.Defs
import proofs.«118165_j36936718746194_2_alg».proof.Proof.Gen.ReferenceIdeal
import proofs.«118165_j36936718746194_2_alg».proof.Proof.Gen.Pre_finite_inputs
import proofs.«118165_j36936718746194_2_alg».proof.Proof.Gen.ReferenceIdeal.Run
import proofs.«118165_j36936718746194_2_alg».proof.Proof.Gen.ReferenceIdeal.Read
import proofs.«118165_j36936718746194_2_alg».proof.Proof.RefValue

noncomputable section

open Idealize.ShloMosaic Idealize.ShloMosaic.TcCoe Idealize.SL.Sem

namespace Cert.Proof.RefClaims

open Cert.ReferenceIdeal

/-- Every weakly fair execution of the reference terminates without a fault and leaves the eight argument arrays as
    launched: the run of its host operations, with the statement about the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named: on every core the result array is the dual-softmax mixing of the
    specification, `BiSoftmax.result`, of the eight argument arrays, and the arguments are as launched. -/
theorem run_result (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_v38)
        = BiSoftmax.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.ReferenceIdeal.defs _ _).mono
    (fun _ h c => ⟨(h c).1.trans ((Cert.ReferenceIdeal.Read.val_main_v38_eq m c).trans
        (Cert.ReferenceIdeal.RefValue.result_eq _ _ _ _ _ _ _ _)), (h c).2⟩)
    (Cert.ReferenceIdeal.Value.run (F := Ideal) m ρ)

end Cert.Proof.RefClaims

end
-- ==== Proof.Finite.lean ====
import proofs.«118165_j36936718746194_2_alg».proof.Proof.Gen.Pre_finite_inputs
import Idealize.ShloMosaic.Lib.ReduceAll
import Idealize.ShloMosaic.Lib.ValueIdx
import Idealize.ShloMosaic.PureOps.Ideal.Laws

/-!
# The precondition: every input entry is a real number

The precondition compares the absolute value of every entry of each of the eight arrays with
`+∞` and asks that all comparisons hold. On the extended reals `|x| < +∞` fails exactly at `⊤` and
at `⊥`, so every entry is (the coercion of) a real number.
-/

noncomputable section

namespace Cert.Pre_finite_inputs.Finite

open Idealize.ShloMosaic Cert.Pre_finite_inputs

variable [Cert.Pre_finite_inputs.Facts]

/-- The scalar shape has one index. -/
instance : Subsingleton S_.Idx := ⟨fun a b => funext fun d => d.elim0⟩

/-- The single-precision word `0x7F800000` denotes `+∞`. -/
theorem ofBits_inf : Ideal.ofBits .f32 0x7F800000#32 = (⊤ : EReal) := by
  simp [Ideal.ofBits, Ideal.ieee]

/-- An extended real whose absolute value `max x (-x)` is below `+∞` is neither infinity. -/
theorem real_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [ofBits_inf] at h
  induction x using EReal.rec with
  | bot => exact absurd h (by simp [Ideal.cmpf_def, Ideal.cmp, Ideal.hostAbsf_def, FloatOps.absf])
  | coe r => exact ⟨EReal.coe_ne_top r, EReal.coe_ne_bot r⟩
  | top => exact absurd h (by simp [Ideal.cmpf_def, Ideal.cmp, Ideal.hostAbsf_def, FloatOps.absf])

/-- One array: if the conjunction over all entries of `|x| < +∞` holds, every entry is real. -/
theorem all_real {s : Shape} {axes : List (Fin s.rank)} (x : FVec Ideal s .f32)
    (hb : S_.BroadcastsInDim s (![] : Fin 0 → Fin s.rank)) (hr : s.ReducesTo axes S_)
    (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1)
    (i : s.Idx) : x i ≠ ⊤ ∧ x i ≠ ⊥ :=
  real_of_abs_lt (x i) (Host.reduce_andi_all _ _ hr hu ValueIdx.ix0 e i)

/-- **Finiteness**: under the precondition every entry of each of the eight arrays is a real
    number. -/
theorem inputs_real (x0 : FVec Ideal S16384x2048 .f32)
    (x1 x2 x3 x4 x5 x6 x7 : FVec Ideal S2048x2048 .f32)
    (h : fn (F := Ideal) x0 x1 x2 x3 x4 x5 x6 x7 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) ∧ (∀ i, x5 i ≠ ⊤ ∧ x5 i ≠ ⊥)
      ∧ (∀ i, x6 i ≠ ⊤ ∧ x6 i ≠ ⊥) ∧ (∀ i, x7 i ≠ ⊤ ∧ x7 i ≠ ⊥) := by
  have h0 := congrFun h ValueIdx.ix0
  dsimp only [fn, fn_part1, fn_part2, Idealize.ShloMosaic.andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3,
    all_real x4 _ _ _ e4, all_real x5 _ _ _ e5, all_real x6 _ _ _ e6, all_real x7 _ _ _ e7⟩

/-- An array all of whose entries are real is the coercion of a real array. -/
theorem exists_real {s : Shape} (x : s.Idx → EReal) (hx : ∀ i, x i ≠ ⊤ ∧ x i ≠ ⊥) :
    ∃ r : s.Idx → ℝ, ∀ i, x i = ((r i : ℝ) : EReal) :=
  ⟨fun i => (x i).toReal, fun i => (EReal.coe_toReal (hx i).1 (hx i).2).symm⟩

end Cert.Pre_finite_inputs.Finite

end
-- ==== Proof.PreReal.lean ====
import proofs.«118165_j36936718746194_2_alg».proof.Defs
import proofs.«118165_j36936718746194_2_alg».proof.Proof.Gen.Pre_finite_inputs
import proofs.«118165_j36936718746194_2_alg».proof.Proof.Finite
import proofs.«118165_j36936718746194_2_alg».proof.Proof.SpecReal

/-!
# From the precondition to real inputs

The certificate's precondition says that, on every device, the finiteness predicate of the eight
argument arrays is all ones. So every entry of each argument array is a real number, and each array
is the coercion of a real array: the form in which the specification's coercion lemmas take it.
-/

noncomputable section

namespace BiSoftmax

open Idealize.ShloMosaic Idealize.SL.Sem

variable [Cert.Pre_finite_inputs.Facts]

/-- Under the precondition every entry of each argument array, on each device, is neither
    infinity. -/
theorem inputs_finite
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ((m ((c.tc : Thread Cert.KernelIdeal.nD Cert.KernelIdeal.τ).loc Cert.KernelIdeal.main_arg0)) : ArrX) i ≠ (⊤ : EReal) ∧ ((m ((c.tc : Thread Cert.KernelIdeal.nD Cert.KernelIdeal.τ).loc Cert.KernelIdeal.main_arg0)) : ArrX) i ≠ (⊥ : EReal))
      ∧ (∀ i, ((m ((c.tc : Thread Cert.KernelIdeal.nD Cert.KernelIdeal.τ).loc Cert.KernelIdeal.main_arg1)) : ArrW) i ≠ (⊤ : EReal) ∧ ((m ((c.tc : Thread Cert.KernelIdeal.nD Cert.KernelIdeal.τ).loc Cert.KernelIdeal.main_arg1)) : ArrW) i ≠ (⊥ : EReal))
      ∧ (∀ i, ((m ((c.tc : Thread Cert.KernelIdeal.nD Cert.KernelIdeal.τ).loc Cert.KernelIdeal.main_arg2)) : ArrW) i ≠ (⊤ : EReal) ∧ ((m ((c.tc : Thread Cert.KernelIdeal.nD Cert.KernelIdeal.τ).loc Cert.KernelIdeal.main_arg2)) : ArrW) i ≠ (⊥ : EReal))
      ∧ (∀ i, ((m ((c.tc : Thread Cert.KernelIdeal.nD Cert.KernelIdeal.τ).loc Cert.KernelIdeal.main_arg3)) : ArrW) i ≠ (⊤ : EReal) ∧ ((m ((c.tc : Thread Cert.KernelIdeal.nD Cert.KernelIdeal.τ).loc Cert.KernelIdeal.main_arg3)) : ArrW) i ≠ (⊥ : EReal))
      ∧ (∀ i, ((m ((c.tc : Thread Cert.KernelIdeal.nD Cert.KernelIdeal.τ).loc Cert.KernelIdeal.main_arg4)) : ArrW) i ≠ (⊤ : EReal) ∧ ((m ((c.tc : Thread Cert.KernelIdeal.nD Cert.KernelIdeal.τ).loc Cert.KernelIdeal.main_arg4)) : ArrW) i ≠ (⊥ : EReal))
      ∧ (∀ i, ((m ((c.tc : Thread Cert.KernelIdeal.nD Cert.KernelIdeal.τ).loc Cert.KernelIdeal.main_arg5)) : ArrW) i ≠ (⊤ : EReal) ∧ ((m ((c.tc : Thread Cert.KernelIdeal.nD Cert.KernelIdeal.τ).loc Cert.KernelIdeal.main_arg5)) : ArrW) i ≠ (⊥ : EReal))
      ∧ (∀ i, ((m ((c.tc : Thread Cert.KernelIdeal.nD Cert.KernelIdeal.τ).loc Cert.KernelIdeal.main_arg6)) : ArrW) i ≠ (⊤ : EReal) ∧ ((m ((c.tc : Thread Cert.KernelIdeal.nD Cert.KernelIdeal.τ).loc Cert.KernelIdeal.main_arg6)) : ArrW) i ≠ (⊥ : EReal))
      ∧ (∀ i, ((m ((c.tc : Thread Cert.KernelIdeal.nD Cert.KernelIdeal.τ).loc Cert.KernelIdeal.main_arg7)) : ArrW) i ≠ (⊤ : EReal) ∧ ((m ((c.tc : Thread Cert.KernelIdeal.nD Cert.KernelIdeal.τ).loc Cert.KernelIdeal.main_arg7)) : ArrW) i ≠ (⊥ : EReal)) :=
  Cert.Pre_finite_inputs.Finite.inputs_real _ _ _ _ _ _ _ _ (hpre c)

/-- Under the precondition each argument array, on each device, is the coercion of a real
    array. -/
theorem inputs_real
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (xr : RX) (w1r w2r w3r w4r w5r w6r w7r : RW),
      (∀ i, ((m ((c.tc : Thread Cert.KernelIdeal.nD Cert.KernelIdeal.τ).loc Cert.KernelIdeal.main_arg0)) : ArrX) i = ((xr i : ℝ) : EReal))
      ∧ (∀ i, ((m ((c.tc : Thread Cert.KernelIdeal.nD Cert.KernelIdeal.τ).loc Cert.KernelIdeal.main_arg1)) : ArrW) i = ((w1r i : ℝ) : EReal))
      ∧ (∀ i, ((m ((c.tc : Thread Cert.KernelIdeal.nD Cert.KernelIdeal.τ).loc Cert.KernelIdeal.main_arg2)) : ArrW) i = ((w2r i : ℝ) : EReal))
      ∧ (∀ i, ((m ((c.tc : Thread Cert.KernelIdeal.nD Cert.KernelIdeal.τ).loc Cert.KernelIdeal.main_arg3)) : ArrW) i = ((w3r i : ℝ) : EReal))
      ∧ (∀ i, ((m ((c.tc : Thread Cert.KernelIdeal.nD Cert.KernelIdeal.τ).loc Cert.KernelIdeal.main_arg4)) : ArrW) i = ((w4r i : ℝ) : EReal))
      ∧ (∀ i, ((m ((c.tc : Thread Cert.KernelIdeal.nD Cert.KernelIdeal.τ).loc Cert.KernelIdeal.main_arg5)) : ArrW) i = ((w5r i : ℝ) : EReal))
      ∧ (∀ i, ((m ((c.tc : Thread Cert.KernelIdeal.nD Cert.KernelIdeal.τ).loc Cert.KernelIdeal.main_arg6)) : ArrW) i = ((w6r i : ℝ) : EReal))
      ∧ (∀ i, ((m ((c.tc : Thread Cert.KernelIdeal.nD Cert.KernelIdeal.τ).loc Cert.KernelIdeal.main_arg7)) : ArrW) i = ((w7r i : ℝ) : EReal)) := by
  obtain ⟨h0, h1, h2, h3, h4, h5, h6, h7⟩ := inputs_finite m hpre c
  exact ⟨_, _, _, _, _, _, _, _,
    fun i => (EReal.coe_toReal (h0 i).1 (h0 i).2).symm, fun i => (EReal.coe_toReal (h1 i).1 (h1 i).2).symm,
    fun i => (EReal.coe_toReal (h2 i).1 (h2 i).2).symm, fun i => (EReal.coe_toReal (h3 i).1 (h3 i).2).symm,
    fun i => (EReal.coe_toReal (h4 i).1 (h4 i).2).symm, fun i => (EReal.coe_toReal (h5 i).1 (h5 i).2).symm,
    fun i => (EReal.coe_toReal (h6 i).1 (h6 i).2).symm, fun i => (EReal.coe_toReal (h7 i).1 (h7 i).2).symm⟩

end BiSoftmax

end
-- ==== Proof.lean ====
/-
  The certificate of a dual-softmax attention kernel against its reference.

  The kernel computes five projections of the input rows, two online softmaxes over eight chunks of 256 key positions
  (each carrying a running maximum, a running sum of exponentials and a running accumulator against 256 columns of a
  mixing weight), the squared difference of the two quotients, and a final product with the value projection. The
  reference computes the same projections, the two softmaxes whole, their mixing, the squared difference and the product.
  At exact arithmetic the two agree for finite inputs: after all chunks the running maximum is the row maximum, the
  running sum is the softmax denominator at that maximum, the accumulator is the numerator's mixing, and dividing a sum
  by a nonzero number is dividing its terms.

  Frames: each kernel program is run item by item (weight casts, three projection regions, reshapes, the fused region,
  the product region), every region from its own body's run; the reference is a host program and its run is read off its
  operations. No operation of either kernel program is rewritten by the idealization, so there is nothing to preserve.
-/
import proofs.«118165_j36936718746194_2_alg».proof.Defs
import proofs.«118165_j36936718746194_2_alg».proof.Proof.Gen.Kernel
import proofs.«118165_j36936718746194_2_alg».proof.Proof.Gen.KernelIdeal
import proofs.«118165_j36936718746194_2_alg».proof.Proof.Gen.ReferenceIdeal
import proofs.«118165_j36936718746194_2_alg».proof.Proof.Gen.Pre_finite_inputs
import proofs.«118165_j36936718746194_2_alg».proof.Proof.K.Run
import proofs.«118165_j36936718746194_2_alg».proof.Proof.KI.Run
import proofs.«118165_j36936718746194_2_alg».proof.Proof.KI.Result
import proofs.«118165_j36936718746194_2_alg».proof.Proof.RefFrame
import proofs.«118165_j36936718746194_2_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program runs to the end without a fault and leaves its eight arguments as launched. -/
theorem frame_k : Cert.frame_Kernel := fun m ρ _ =>
  (θ_run Cert.Kernel.defs _ _).mono (fun _ h c => (h c).2) (Cert.Kernel.Hand.run (F := Bits) m ρ)

/-- So does the idealized kernel program. -/
theorem frame_ki : Cert.frame_KernelIdeal := fun m ρ _ =>
  (θ_run Cert.KernelIdeal.defs _ _).mono (fun _ h c => (h c).2) (Cert.KernelIdeal.Hand.run (F := Ideal) m ρ)

/-- The idealization rewrote no operation. -/
theorem preserves : Cert.preserves_Kernel_KernelIdeal := trivial

/-- From memories that agree on the arguments, both idealized programs end with the result array at the
    specification's function of the eight arguments: the kernel by its run and the online-softmax identity (which is
    where finiteness of the inputs is used), the reference by its operations read stage by stage. -/
theorem algebraic : Cert.algebraic_KernelIdeal_ReferenceIdeal := by
  intro m ρ m' ρ' hpre hagree
  refine ⟨fun c => BiSoftmax.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ?_) (Cert.KernelIdeal.Hand.run (F := Ideal) m ρ)
    obtain ⟨hres, hargs⟩ := h c
    obtain ⟨f0, f1, f2, f3, f4, f5, f6, f7⟩ := BiSoftmax.inputs_finite m hpre c
    exact ⟨hres.trans (Cert.KernelIdeal.Hand.result_value m ρ c f0 f1 f2 f3 f4 f5 f6 f7), hargs⟩
  · refine (θ_run Cert.ReferenceIdeal.defs _ _).mono (fun _ h c => ?_) (Cert.Proof.RefClaims.run_result m' ρ')
    obtain ⟨hres, hargs⟩ := h c
    refine ⟨?_, hargs⟩
    obtain ⟨e0, e1, e2, e3, e4, e5, e6, e7⟩ := hagree c
    rw [hres, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, preserves, algebraic⟩

end Cert.Proof

end
